-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x256 : Shape := ⟨2, ![512, 256]⟩
abbrev S256x64 : Shape := ⟨2, ![256, 64]⟩
abbrev S262144 : Shape := ⟨1, ![262144]⟩
abbrev S8192x8192 : Shape := ⟨2, ![8192, 8192]⟩
abbrev S8192x64 : Shape := ⟨2, ![8192, 64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_
  bcast_S_S262144 : S_.BroadcastsInDim S262144 (![] : Fin 0 → Fin S262144.rank)
  reducesTo_S262144_S_d0 : S262144.ReducesTo [0] S_
  bcast_S_S8192x8192 : S_.BroadcastsInDim S8192x8192 (![] : Fin 0 → Fin S8192x8192.rank)
  reducesTo_S8192x8192_S_d0_1 : S8192x8192.ReducesTo [0, 1] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_arg4 : FVec F S262144 .f32) (main_arg5 : FVec F S8192x8192 .f32) (main_arg6 : FVec F S8192x64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S262144 .f32 := Host.absf main_arg4
  let main_cst_6 : FVec F S_ .f32 := constant S_ .f32 0x7F800000#32
  let main_v20 : FVec F S262144 .f32 := broadcastInDim S262144 ![] bcast_S_S262144 main_cst_6
  let main_v21 : IVec S262144 1 := cmpf .olt main_v19 main_v20
  let main_c_7 : IVec S_ 1 := constantI S_ 1 1#1
  let main_v22 : IVec S_ 1 := (fun x v => Host.reduce IntOp.andi x v reducesTo_S262144_S_d0 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S8192x64 .f32 := Host.absf main_arg6
  let main_cst_10 : FVec F S_ .f32 := constant S_ .f32 0x7F800000#32
  let main_v30 : FVec F S8192x64 .f32 := broadcastInDim S8192x64 ![] bcast_S_S8192x64 main_cst_10
  let main_v31 : IVec S8192x64 1 := cmpf .olt main_v29 main_v30
  let main_c_11 : IVec S_ 1 := constantI S_ 1 1#1
  let main_v32 : IVec S_ 1 := (fun x v => Host.reduce IntOp.andi x v reducesTo_S8192x64_S_d0_1 h_S_) main_v31 main_c_11
  let main_v33 : IVec S_ 1 := andi main_v28 main_v32
  main_v33

def fn {F : FTy → Type} [FloatOps F] (main_arg0 : FVec F S8192x512 .f32) (main_arg1 : FVec F S512x256 .f32) (main_arg2 : FVec F S256x64 .f32) (main_arg3 : FVec F S256x64 .f32) (main_arg4 : FVec F S262144 .f32) (main_arg5 : FVec F S8192x8192 .f32) (main_arg6 : FVec F S8192x64 .f32) (main_arg7 : IVec S262144 32) (main_arg8 : IVec S262144 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256x64 .f32 := Host.absf main_arg3
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg4 main_arg5 main_arg6 main_v13 main_v16
-- ==== Kernel.lean ====
abbrev S8192x512 : Shape := ⟨2, ![8192, 512]⟩
abbrev S512x256 : Shape := ⟨2, ![512, 256]⟩
abbrev S256x64 : Shape := ⟨2, ![256, 64]⟩
abbrev S262144 : Shape := ⟨1, ![262144]⟩
abbrev S8192x8192 : Shape := ⟨2, ![8192, 8192]⟩
abbrev S8192x64 : Shape := ⟨2, ![8192, 64]⟩
abbrev S8192x256 : Shape := ⟨2, ![8192, 256]⟩
abbrev S2048x512 : Shape := ⟨2, ![2048, 512]⟩
abbrev S2048x256 : Shape := ⟨2, ![2048, 256]⟩
abbrev S262144x1 : Shape := ⟨2, ![262144, 1]⟩
abbrev S_ : Shape := ⟨0, ![]⟩
abbrev S262144x256 : Shape := ⟨2, ![262144, 256]⟩
abbrev S256x128 : Shape := ⟨2, ![256, 128]⟩
abbrev S8192x128 : Shape := ⟨2, ![8192, 128]⟩
abbrev S2048x128 : Shape := ⟨2, ![2048, 128]⟩
abbrev S262144x128 : Shape := ⟨2, ![262144, 128]⟩
abbrev S64x512 : Shape := ⟨2, ![64, 512]⟩
abbrev S1024x64 : Shape := ⟨2, ![1024, 64]⟩
abbrev S2048x64 : Shape := ⟨2, ![2048, 64]⟩
abbrev S1024x2048 : Shape := ⟨2, ![1024, 2048]⟩
abbrev S8x128 : Shape := ⟨2, ![8, 128]⟩
abbrev S1x1024x2048 : Shape := ⟨3, ![1, 1024, 2048]⟩
abbrev S1 : Shape := ⟨1, ![1]⟩
abbrev S1x1x1 : Shape := ⟨3, ![1, 1, 1]⟩
abbrev S8192 : Shape := ⟨1, ![8192]⟩

abbrev nBuf : Space → Nat
  | .hbm => 82
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S256x64, .f32⟩
  | .hbm, ⟨3, _⟩ => ⟨S256x64, .f32⟩
  | .hbm, ⟨4, _⟩ => ⟨S262144, .f32⟩
  | .hbm, ⟨5, _⟩ => ⟨S8192x8192, .f32⟩
  | .hbm, ⟨6, _⟩ => ⟨S8192x64, .f32⟩
  | .hbm, ⟨7, _⟩ => ⟨S262144, .i32⟩
  | .hbm, ⟨8, _⟩ => ⟨S262144, .i32⟩
  | .hbm, ⟨9, _⟩ => ⟨S8192x256, .f32⟩
  | .hbm, ⟨10, _⟩ => ⟨S262144x1, .f32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S262144x256, .f32⟩
  | .hbm, ⟨20, _⟩ => ⟨S262144x256, .f32⟩
  | .hbm, ⟨21, _⟩ => ⟨S262144x256, .f32⟩
  | .hbm, ⟨22, _⟩ => ⟨S_, .f32⟩
  | .hbm, ⟨23, _⟩ => ⟨S8192x256, .f32⟩
  | .hbm, ⟨24, _⟩ => ⟨S262144x1, .i32⟩
  | .hbm, ⟨25, _⟩ => ⟨S8192x256, .f32⟩
  | .hbm, ⟨26, _⟩ => ⟨S_, .f32⟩
  | .hbm, ⟨27, _⟩ => ⟨S8192x256, .f32⟩
  | .hbm, ⟨28, _⟩ => ⟨S8192x256, .f32⟩
  | .hbm, ⟨29, _⟩ => ⟨S256x128, .f32⟩
  | .hbm, ⟨30, _⟩ => ⟨S8192x128, .f32⟩
  | .hbm, ⟨31, _⟩ => ⟨S262144x1, .f32⟩
  | .hbm, ⟨32, _⟩ => ⟨S_, .i32⟩
  | .hbm, ⟨33, _⟩ => ⟨S262144, .i32⟩
  | .hbm, ⟨34, _⟩ => ⟨S262144, .i1⟩
  | .hbm, ⟨35, _⟩ => ⟨S_, .i32⟩
  | .hbm, ⟨36, _⟩ => ⟨S262144, .i32⟩
  | .hbm, ⟨37, _⟩ => ⟨S262144, .i32⟩
  | .hbm, ⟨38, _⟩ => ⟨S262144, .i32⟩
  | .hbm, ⟨39, _⟩ => ⟨S262144x1, .i32⟩
  | .hbm, ⟨40, _⟩ => ⟨S262144x128, .f32⟩
  | .hbm, ⟨41, _⟩ => ⟨S262144x128, .f32⟩
  | .hbm, ⟨42, _⟩ => ⟨S262144x128, .f32⟩
  | .hbm, ⟨43, _⟩ => ⟨S_, .f32⟩
  | .hbm, ⟨44, _⟩ => ⟨S8192x128, .f32⟩
  | .hbm, ⟨45, _⟩ => ⟨S262144x1, .i32⟩
  | .hbm, ⟨46, _⟩ => ⟨S8192x128, .f32⟩
  | .hbm, ⟨47, _⟩ => ⟨S8192x64, .f32⟩
  | .hbm, ⟨48, _⟩ => ⟨S8192x64, .f32⟩
  | .hbm, ⟨49, _⟩ => ⟨S8192x64, .f32⟩
  | .hbm, ⟨50, _⟩ => ⟨S8192x64, .f32⟩
  | .hbm, ⟨51, _⟩ => ⟨S8192x64, .f32⟩
  | .hbm, ⟨52, _⟩ => ⟨S8192x8192, .f32⟩
  | .hbm, ⟨53, _⟩ => ⟨S64x512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192x64, .f32⟩
  | .hbm, ⟨62, _⟩ => ⟨S8192x64, .f32⟩
  | .hbm, ⟨63, _⟩ => ⟨S_, .f32⟩
  | .hbm, ⟨64, _⟩ => ⟨S8192x64, .f32⟩
  | .hbm, ⟨65, _⟩ => ⟨S8192x64, .f32⟩
  | .hbm, ⟨66, _⟩ => ⟨S8192x64, .f32⟩
  | .hbm, ⟨67, _⟩ => ⟨S8192x64, .f32⟩
  | .hbm, ⟨68, _⟩ => ⟨S8192x64, .f32⟩
  | .hbm, ⟨69, _⟩ => ⟨S8192x64, .f32⟩
  | .hbm, ⟨70, _⟩ => ⟨S8192x64, .f32⟩
  | .hbm, ⟨71, _⟩ => ⟨S_, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x128, .f32⟩
  | .local _ .vmem, ⟨8, _⟩ => ⟨S2048x128, .f32⟩
  | .local _ .vmem, ⟨9, _⟩ => ⟨S2048x128, .f32⟩
  | .local _ .vmem, ⟨10, _⟩ => ⟨S1024x64, .f32⟩
  | .local _ .vmem, ⟨11, _⟩ => ⟨S1024x64, .f32⟩
  | .local _ .vmem, ⟨12, _⟩ => ⟨S2048x64, .f32⟩
  | .local _ .vmem, ⟨13, _⟩ => ⟨S2048x64, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | .local _ .vmem, ⟨17, _⟩ => ⟨S1024x2048, .f32⟩
  | .local _ .vmem, ⟨18, _⟩ => ⟨S8x128, .f32⟩
  | .local _ .vmem, ⟨19, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_cst_4 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_cst_13 : Ref sig .tc := ⟨.hbm, 79, rfl⟩
abbrev main_v52 : Ref sig .tc := ⟨.hbm, 80, rfl⟩
abbrev main_v53 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S8x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  concatenates_S256x64_S256x64_S256x128_d1 : Shape.Concatenates [S256x64, S256x64] S256x128 1
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  bcast_S262144x1_S262144x128_0_1 : S262144x1.BroadcastsInDim S262144x128 (![0, 1] : Fin 2 → Fin S262144x128.rank)
  bcast_S_S8192x128 : S_.BroadcastsInDim S8192x128 (![] : Fin 0 → Fin S8192x128.rank)
  slices_S8192x128_S8192x64_0_0 : S8192x128.Slices ![0, 0] S8192x64
  slices_S8192x128_S8192x64_0_64 : S8192x128.Slices ![0, 64] S8192x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x2048_S1024x2048_0_0 : ∀ a, (![0, 0] : Fin 2 → Nat) a + S1024x2048.size a ≤ S1024x2048.size a
  h_S1024x2048 : 0 < S1024x2048.numel
  shapeCasts_S1024x2048_S1x1024x2048 : S1024x2048.ShapeCasts S1x1024x2048
  reduces_S1x1024x2048_S1 : S1x1024x2048.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S64x512_S_d0_1 : S64x512.ReducesTo [0, 1] S_
  h_S_ : 0 < S_.numel
  bcast_S_S8192x64 : S_.BroadcastsInDim S8192x64 (![] : Fin 0 → Fin S8192x64.rank)
  reducesTo_S8192x64_S8192_d1 : S8192x64.ReducesTo [1] S8192
  reducesTo_S8192_S_d0 : S8192.ReducesTo [0] S_
  dot_S2048x512_S512x256_S2048x256_1_0_0_1_n_n_wf : DotDims.WF S2048x512 S512x256 S2048x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S2048x256_S256x128_S2048x128_1_0_0_1_n_n_wf : DotDims.WF S2048x256 S256x128 S2048x128 [1] [0] [0] [1] [] []
  gather_S8192x128_S262144x1_S262144x128_1_0_n_n_0_1_1128_wf : GatherDims.WF S8192x128 S262144x1 S262144x128 [1] [0] [] [0] [] 1 ![1, 128]
  scatter_S8192x128_S262144x1_S262144x128_1_0_0_1_wf : ScatterDims.WF S8192x128 S262144x1 S262144x128 [1] [0] [0] 1
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S8192x256.size a
  hwx1_0 : ∀ i : grid1.Coords, EltTy.bits .f32 = 32 ∨ (Rect.block (s := S8192x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x128.size a
  hwx1_2 : ∀ i : grid1.Coords, EltTy.bits .f32 = 32 ∨ (Rect.block (s := S8192x128) S2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S8192x64.size a
  hwx2_1 : ∀ i : grid2.Coords, EltTy.bits .f32 = 32 ∨ (Rect.block (s := S8192x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S8192x8192.size a
  hwx2_2 : ∀ i : grid2.Coords, EltTy.bits .f32 = 32 ∨ (Rect.block (s := S8192x8192) S1024x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x2048.size a ≤ S8192x8192.size a
  hwx2_3 : ∀ i : grid2.Coords, EltTy.bits .f32 = 32 ∨ (Rect.block (s := S8192x8192) S1024x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x128.size a ≤ S64x512.size a
  hwx2_4 : ∀ i : grid2.Coords, EltTy.bits .f32 = 32 ∨ (Rect.block (s := S64x512) S8x128.size (cc2_transform_4 i) (hinb2_4 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S8192x128_S262144x1_S262144x128_1_0_n_n_0_1_1128 : GatherDims S8192x128 S262144x1 S262144x128 where
  offsetDims := [1]
  collapsedSliceDims := [0]
  operandBatchingDims := []
  startIndicesBatchingDims := []
  startIndexMap := [0]
  indexVectorDim := 1
  sliceSizes := ![1, 128]
  wf := gather_S8192x128_S262144x1_S262144x128_1_0_n_n_0_1_1128_wf
def scatter_S8192x128_S262144x1_S262144x128_1_0_0_1 : ScatterDims S8192x128 S262144x1 S262144x128 where
  updateWindowDims := [1]
  insertedWindowDims := [0]
  scatterDimsToOperandDims := [0]
  indexVectorDim := 1
  wf := scatter_S8192x128_S262144x1_S262144x128_1_0_0_1_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1024x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35_0) S1024x2048.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35_1) S8x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x512 : Shape := ⟨2, ![8192, 512]⟩
abbrev S512x256 : Shape := ⟨2, ![512, 256]⟩
abbrev S256x64 : Shape := ⟨2, ![256, 64]⟩
abbrev S262144 : Shape := ⟨1, ![262144]⟩
abbrev S8192x8192 : Shape := ⟨2, ![8192, 8192]⟩
abbrev S8192x64 : Shape := ⟨2, ![8192, 64]⟩
abbrev S8192x256 : Shape := ⟨2, ![8192, 256]⟩
abbrev S262144x1 : Shape := ⟨2, ![262144, 1]⟩
abbrev S_ : Shape := ⟨0, ![]⟩
abbrev S262144x256 : Shape := ⟨2, ![262144, 256]⟩
abbrev S262144x64 : Shape := ⟨2, ![262144, 64]⟩
abbrev S64x8192 : Shape := ⟨2, ![64, 8192]⟩
abbrev S8192 : Shape := ⟨1, ![8192]⟩

abbrev nBuf : Space → Nat
  | .hbm => 123
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S256x64, .f32⟩
  | .hbm, ⟨3, _⟩ => ⟨S256x64, .f32⟩
  | .hbm, ⟨4, _⟩ => ⟨S262144, .f32⟩
  | .hbm, ⟨5, _⟩ => ⟨S8192x8192, .f32⟩
  | .hbm, ⟨6, _⟩ => ⟨S8192x64, .f32⟩
  | .hbm, ⟨7, _⟩ => ⟨S262144, .i32⟩
  | .hbm, ⟨8, _⟩ => ⟨S262144, .i32⟩
  | .hbm, ⟨9, _⟩ => ⟨S8192x256, .f32⟩
  | .hbm, ⟨10, _⟩ => ⟨S262144x1, .f32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S262144x256, .f32⟩
  | .hbm, ⟨20, _⟩ => ⟨S262144x256, .f32⟩
  | .hbm, ⟨21, _⟩ => ⟨S262144x256, .f32⟩
  | .hbm, ⟨22, _⟩ => ⟨S_, .f32⟩
  | .hbm, ⟨23, _⟩ => ⟨S8192x256, .f32⟩
  | .hbm, ⟨24, _⟩ => ⟨S262144x1, .i32⟩
  | .hbm, ⟨25, _⟩ => ⟨S8192x256, .f32⟩
  | .hbm, ⟨26, _⟩ => ⟨S_, .f32⟩
  | .hbm, ⟨27, _⟩ => ⟨S8192x256, .f32⟩
  | .hbm, ⟨28, _⟩ => ⟨S8192x256, .f32⟩
  | .hbm, ⟨29, _⟩ => ⟨S8192x64, .f32⟩
  | .hbm, ⟨30, _⟩ => ⟨S262144x1, .f32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S262144x64, .f32⟩
  | .hbm, ⟨40, _⟩ => ⟨S262144x64, .f32⟩
  | .hbm, ⟨41, _⟩ => ⟨S262144x64, .f32⟩
  | .hbm, ⟨42, _⟩ => ⟨S_, .f32⟩
  | .hbm, ⟨43, _⟩ => ⟨S8192x64, .f32⟩
  | .hbm, ⟨44, _⟩ => ⟨S262144x1, .i32⟩
  | .hbm, ⟨45, _⟩ => ⟨S8192x64, .f32⟩
  | .hbm, ⟨46, _⟩ => ⟨S8192x64, .f32⟩
  | .hbm, ⟨47, _⟩ => ⟨S262144x1, .f32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144x64, .f32⟩
  | .hbm, ⟨57, _⟩ => ⟨S262144x64, .f32⟩
  | .hbm, ⟨58, _⟩ => ⟨S262144x64, .f32⟩
  | .hbm, ⟨59, _⟩ => ⟨S_, .f32⟩
  | .hbm, ⟨60, _⟩ => ⟨S8192x64, .f32⟩
  | .hbm, ⟨61, _⟩ => ⟨S262144x1, .i32⟩
  | .hbm, ⟨62, _⟩ => ⟨S8192x64, .f32⟩
  | .hbm, ⟨63, _⟩ => ⟨S8192x64, .f32⟩
  | .hbm, ⟨64, _⟩ => ⟨S8192x64, .f32⟩
  | .hbm, ⟨65, _⟩ => ⟨S8192x64, .f32⟩
  | .hbm, ⟨66, _⟩ => ⟨S64x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S8192x8192, .f32⟩
  | .hbm, ⟨84, _⟩ => ⟨S8192x8192, .i1⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S8192x8192, .f32⟩
  | .hbm, ⟨92, _⟩ => ⟨S8192x8192, .f32⟩
  | .hbm, ⟨93, _⟩ => ⟨S8192x8192, .f32⟩
  | .hbm, ⟨94, _⟩ => ⟨S8192x8192, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S8192x64, .f32⟩
  | .hbm, ⟨103, _⟩ => ⟨S8192x64, .f32⟩
  | .hbm, ⟨104, _⟩ => ⟨S_, .f32⟩
  | .hbm, ⟨105, _⟩ => ⟨S8192x64, .f32⟩
  | .hbm, ⟨106, _⟩ => ⟨S8192x64, .f32⟩
  | .hbm, ⟨107, _⟩ => ⟨S8192x64, .f32⟩
  | .hbm, ⟨108, _⟩ => ⟨S8192x64, .f32⟩
  | .hbm, ⟨109, _⟩ => ⟨S8192x64, .f32⟩
  | .hbm, ⟨110, _⟩ => ⟨S8192x64, .f32⟩
  | .hbm, ⟨111, _⟩ => ⟨S8192x64, .f32⟩
  | .hbm, ⟨112, _⟩ => ⟨S_, .f32⟩
  | .hbm, ⟨113, _⟩ => ⟨S8192, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_10 : Ref sig .tc := ⟨.hbm, 95, rfl⟩
abbrev main_v59 : Ref sig .tc := ⟨.hbm, 96, rfl⟩
abbrev main_cst_11 : Ref sig .tc := ⟨.hbm, 97, rfl⟩
abbrev main_v60 : Ref sig .tc := ⟨.hbm, 98, rfl⟩
abbrev main_cst_12 : Ref sig .tc := ⟨.hbm, 99, rfl⟩
abbrev main_v61 : Ref sig .tc := ⟨.hbm, 100, rfl⟩
abbrev main_cst_13 : Ref sig .tc := ⟨.hbm, 101, rfl⟩
abbrev main_v62 : Ref sig .tc := ⟨.hbm, 102, rfl⟩
abbrev main_v63 : Ref sig .tc := ⟨.hbm, 103, rfl⟩
abbrev main_cst_14 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_15 : Ref sig .tc := ⟨.hbm, 112, rfl⟩
abbrev main_v71 : Ref sig .tc := ⟨.hbm, 113, rfl⟩
abbrev main_cst_16 : Ref sig .tc := ⟨.hbm, 114, rfl⟩
abbrev main_v72 : Ref sig .tc := ⟨.hbm, 115, rfl⟩
abbrev main_cst_17 : Ref sig .tc := ⟨.hbm, 116, rfl⟩
abbrev main_v73 : Ref sig .tc := ⟨.hbm, 117, rfl⟩
abbrev main_cst_18 : Ref sig .tc := ⟨.hbm, 118, rfl⟩
abbrev main_v74 : Ref sig .tc := ⟨.hbm, 119, rfl⟩
abbrev main_cst_19 : Ref sig .tc := ⟨.hbm, 120, rfl⟩
abbrev main_v75 : Ref sig .tc := ⟨.hbm, 121, rfl⟩
abbrev main_v76 : Ref sig .tc := ⟨.hbm, 122, rfl⟩

abbrev nD : Nat := 1
abbrev τ : Topo := Topo.v7x

variable {F : FTy → Type} [FloatOps F]

class Facts₀ : Prop where
  bcast_S262144_S262144x1_0 : S262144.BroadcastsInDim S262144x1 (![0] : Fin 1 → Fin S262144x1.rank)
  bcast_S_S262144 : S_.BroadcastsInDim S262144 (![] : Fin 0 → Fin S262144.rank)
  bcast_S262144x1_S262144x256_0_1 : S262144x1.BroadcastsInDim S262144x256 (![0, 1] : Fin 2 → Fin S262144x256.rank)
  bcast_S_S8192x256 : S_.BroadcastsInDim S8192x256 (![] : Fin 0 → Fin S8192x256.rank)
  bcast_S262144x1_S262144x64_0_1 : S262144x1.BroadcastsInDim S262144x64 (![0, 1] : Fin 2 → Fin S262144x64.rank)
  bcast_S_S8192x64 : S_.BroadcastsInDim S8192x64 (![] : Fin 0 → Fin S8192x64.rank)
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  h_S_ : 0 < S_.numel
  reducesTo_S8192x64_S8192_d1 : S8192x64.ReducesTo [1] S8192
  reducesTo_S8192_S_d0 : S8192.ReducesTo [0] S_
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  scatter_S8192x256_S262144x1_S262144x256_1_0_0_1_wf : ScatterDims.WF S8192x256 S262144x1 S262144x256 [1] [0] [0] 1
  dot_S8192x256_S256x64_S8192x64_1_0_0_1_n_n_wf : DotDims.WF S8192x256 S256x64 S8192x64 [1] [0] [0] [1] [] []
  gather_S8192x64_S262144x1_S262144x64_1_0_n_n_0_1_164_wf : GatherDims.WF S8192x64 S262144x1 S262144x64 [1] [0] [] [0] [] 1 ![1, 64]
  scatter_S8192x64_S262144x1_S262144x64_1_0_0_1_wf : ScatterDims.WF S8192x64 S262144x1 S262144x64 [1] [0] [0] 1
  dot_S8192x64_S64x8192_S8192x8192_1_0_0_1_n_n_wf : DotDims.WF S8192x64 S64x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S262144x1_S262144x64_1_0_n_n_0_1_164 : GatherDims S8192x64 S262144x1 S262144x64 where
  offsetDims := [1]
  collapsedSliceDims := [0]
  operandBatchingDims := []
  startIndicesBatchingDims := []
  startIndexMap := [0]
  indexVectorDim := 1
  sliceSizes := ![1, 64]
  wf := gather_S8192x64_S262144x1_S262144x64_1_0_n_n_0_1_164_wf
def scatter_S8192x64_S262144x1_S262144x64_1_0_0_1 : ScatterDims S8192x64 S262144x1 S262144x64 where
  updateWindowDims := [1]
  insertedWindowDims := [0]
  scatterDimsToOperandDims := [0]
  indexVectorDim := 1
  wf := scatter_S8192x64_S262144x1_S262144x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.FrameR0.lean ====
/-
  Launch 0: a tiled matrix product.  At grid point t the body reads a [2048, 512] block of rows of the left
  operand and the whole right operand, and stores their product (into a zero accumulator) as the block of rows t of
  the result.  This module states what the body leaves in the result's staging buffer as a function of the two input
  blocks, runs the body against it, and gives the pipeline its proof data at any contents `V` of the buffers at entry:
  input windows hold their blocks of `V`'s arrays, the output window what the body stored; nothing is owed.
-/
import proofs.«116321_j12163347383058_2_alg».proof.Proof.Gen.KernelIdeal.Launch
import proofs.«116321_j12163347383058_2_alg».proof.Proof.Gen.KernelIdeal.Skeleton
import proofs.«116321_j12163347383058_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x512 := Rect.unit (s := S2048x512) ![0, 0] S2048x512.size inb_S2048x512_S2048x512_0_0
abbrev r0_1 : Rect S512x256 := Rect.unit (s := S512x256) ![0, 0] S512x256.size inb_S512x256_S512x256_0_0
abbrev r0_2 : Rect S2048x256 := Rect.unit (s := S2048x256) ![0, 0] S2048x256.size inb_S2048x256_S2048x256_0_0

/-- The result window's staging buffer after the body: one store of the product of the two loaded blocks. -/
def out0_2 (x0 : Vec F S2048x512 .f32) (x1 : Vec F S512x256 .f32) : Vec F S2048x256 .f32 :=
  View.canon [⟨r0_2, k0_pay1 (View.ld x0 r0_0) (View.ld x1 r0_1)⟩]

/-- The one store covers the whole buffer. -/
theorem cover0_2 (p0 : Vec F S2048x256 .f32) (y : S2048x256.Idx) :
    ∃ pc ∈ ([⟨r0_2, p0⟩] : List (View.Piece (Elt F) S2048x256 .f32)), y ∈ pc.1.set :=
  View.cover_of_tiled [⟨r0_2, p0⟩] S2048x256.size (by rfl) y

set_option maxHeartbeats 1000000 in
/-- The body on whole staging buffers, the inputs' at `x0`, `x1` and the output's at anything, runs to the
    continuation with the inputs' unchanged and the output's at `out0_2 x0 x1`. -/
theorem sound_kernel0 (c : Dev nD) (E : Set ℕ) (i : grid0.Coords) (arg1 : Memref sig .tc .vmem S2048x512 .f32) (harg1 : arg1.IsWhole) (arg2 : Memref sig .tc .vmem S512x256 .f32) (harg2 : arg2.IsWhole) (arg3 : Memref sig .tc .vmem S2048x256 .f32) (harg3 : arg3.IsWhole)
    (x0 : Vec F S2048x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this launch on core `c`: the arrays as the launch finds them; after the body at point `t` each
    input's buffer at its block and the output's at the product of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's run applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameR1.lean ====
/-
  Launch 1: a tiled matrix product.  At grid point t the body reads a [2048, 256] block of rows of the left
  operand and the whole right operand, and stores their product (into a zero accumulator) as the block of rows t of
  the result.  This module states what the body leaves in the result's staging buffer as a function of the two input
  blocks, runs the body against it, and gives the pipeline its proof data at any contents `V` of the buffers at entry:
  input windows hold their blocks of `V`'s arrays, the output window what the body stored; nothing is owed.
-/
import proofs.«116321_j12163347383058_2_alg».proof.Proof.Gen.KernelIdeal.Launch
import proofs.«116321_j12163347383058_2_alg».proof.Proof.Gen.KernelIdeal.Skeleton
import proofs.«116321_j12163347383058_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2048x256 := Rect.unit (s := S2048x256) ![0, 0] S2048x256.size inb_S2048x256_S2048x256_0_0
abbrev r1_1 : Rect S256x128 := Rect.unit (s := S256x128) ![0, 0] S256x128.size inb_S256x128_S256x128_0_0
abbrev r1_2 : Rect S2048x128 := Rect.unit (s := S2048x128) ![0, 0] S2048x128.size inb_S2048x128_S2048x128_0_0

/-- The result window's staging buffer after the body: one store of the product of the two loaded blocks. -/
def out1_2 (x0 : Vec F S2048x256 .f32) (x1 : Vec F S256x128 .f32) : Vec F S2048x128 .f32 :=
  View.canon [⟨r1_2, k1_pay1 (View.ld x0 r1_0) (View.ld x1 r1_1)⟩]

/-- The one store covers the whole buffer. -/
theorem cover1_2 (p0 : Vec F S2048x128 .f32) (y : S2048x128.Idx) :
    ∃ pc ∈ ([⟨r1_2, p0⟩] : List (View.Piece (Elt F) S2048x128 .f32)), y ∈ pc.1.set :=
  View.cover_of_tiled [⟨r1_2, p0⟩] S2048x128.size (by rfl) y

set_option maxHeartbeats 1000000 in
/-- The body on whole staging buffers, the inputs' at `x0`, `x1` and the output's at anything, runs to the
    continuation with the inputs' unchanged and the output's at `out1_2 x0 x1`. -/
theorem sound_kernel1 (c : Dev nD) (E : Set ℕ) (i : grid1.Coords) (arg1 : Memref sig .tc .vmem S2048x256 .f32) (harg1 : arg1.IsWhole) (arg2 : Memref sig .tc .vmem S256x128 .f32) (harg2 : arg2.IsWhole) (arg3 : Memref sig .tc .vmem S2048x128 .f32) (harg3 : arg3.IsWhole)
    (x0 : Vec F S2048x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this launch on core `c`: the arrays as the launch finds them; after the body at point `t` each
    input's buffer at its block and the output's at the product of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's run applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrameR2.lean ====
/-
  Launch 2: the fused decoder.  At grid point (i, j) the body reads block i of 1024 rows of the sample matrix, block j
  of 2048 rows of the SAME matrix through a second window, and the [1024, 2048] tile (i, j) of the labels; it stores
  the tile of inner products as tile (i, j) of the logits, and into its own [8, 128] tile of the partial-sum array the
  tile's weighted cross-entropy total at entry (0, 0) and zero elsewhere.  This module states what the body leaves in
  the two output staging buffers as functions of the three input blocks, runs the body against them, and gives the
  pipeline its proof data at any contents `V` of the buffers at entry.  The two windows on the sample matrix each
  hold half of the share of its buffer; every other window holds its array's buffer whole.
-/
import proofs.«116321_j12163347383058_2_alg».proof.Proof.Gen.KernelIdeal.Launch
import proofs.«116321_j12163347383058_2_alg».proof.Proof.Gen.KernelIdeal.Skeleton
import proofs.«116321_j12163347383058_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x64 := Rect.unit (s := S1024x64) ![0, 0] S1024x64.size inb_S1024x64_S1024x64_0_0
abbrev r2_1 : Rect S2048x64 := Rect.unit (s := S2048x64) ![0, 0] S2048x64.size inb_S2048x64_S2048x64_0_0
abbrev r2_2 : Rect S1024x2048 := Rect.unit (s := S1024x2048) ![0, 0] S1024x2048.size inb_S1024x2048_S1024x2048_0_0
abbrev r2_4 : Rect S8x128 := Rect.unit (s := S8x128) ![0, 0] S8x128.size inb_S8x128_S8x128_0_0

/-- The logits window's staging buffer after the body: one store of the tile of inner products. -/
def out2_3 (x0 : Vec F S1024x64 .f32) (x1 : Vec F S2048x64 .f32) : Vec F S1024x2048 .f32 :=
  View.canon [⟨r2_2, k2_pay2 (View.ld x0 r2_0) (View.ld x1 r2_1)⟩]

/-- The partial-sum window's staging buffer after the body: one store of the masked tile total. -/
def out2_4 (x0 : Vec F S1024x64 .f32) (x1 : Vec F S2048x64 .f32) (x2 : Vec F S1024x2048 .f32) : Vec F S8x128 .f32 :=
  View.canon [⟨r2_4, k2_pay1 (k2_pay3 (View.ld x0 r2_0) (View.ld x1 r2_1) (View.ld x2 r2_2)) (iota .tc S8x128 32 [1] iota_S8x128_d1_w32) k2_pay4⟩]

theorem cover2_3 (p0 : Vec F S1024x2048 .f32) (y : S1024x2048.Idx) :
    ∃ pc ∈ ([⟨r2_2, p0⟩] : List (View.Piece (Elt F) S1024x2048 .f32)), y ∈ pc.1.set :=
  View.cover_of_tiled [⟨r2_2, p0⟩] S1024x2048.size (by rfl) y
theorem cover2_4 (p0 : Vec F S8x128 .f32) (y : S8x128.Idx) :
    ∃ pc ∈ ([⟨r2_4, p0⟩] : List (View.Piece (Elt F) S8x128 .f32)), y ∈ pc.1.set :=
  View.cover_of_tiled [⟨r2_4, p0⟩] S8x128.size (by rfl) y

set_option maxHeartbeats 2000000 in
/-- The body on whole staging buffers, the inputs' at `x0`, `x1`, `x2` and the outputs' at anything, runs to the
    continuation with the inputs' unchanged and the outputs' at `out2_3 x0 x1` and `out2_4 x0 x1 x2`. -/
theorem sound_kernel2 (c : Dev nD) (E : Set ℕ) (i : grid2.Coords) (arg2 : Memref sig .tc .vmem S1024x64 .f32) (harg2 : arg2.IsWhole) (arg3 : Memref sig .tc .vmem S2048x64 .f32) (harg3 : arg3.IsWhole) (arg4 : Memref sig .tc .vmem S1024x2048 .f32) (harg4 : arg4.IsWhole) (arg5 : Memref sig .tc .vmem S1024x2048 .f32) (harg5 : arg5.IsWhole) (arg6 : Memref sig .tc .vmem S8x128 .f32) (harg6 : arg6.IsWhole)
    (x0 : Vec F S1024x64 .f32) (x1 : Vec F S2048x64 .f32) (x2 : Vec F S1024x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1) ∗ owns (c : Thread nD τ) arg6 fullShare (out2_4 x0 x1 x2)) -∗ K ⟨⟩))
      ⊢ wp frame (wpE (defs₀ (F := F)) Variants.none c none) E (cc2__decode_loss_kernel i arg2 harg2 arg3 harg3 arg4 harg4 arg5 harg5 arg6 harg6) K := by
  simp only [cc2__decode_loss_kernel_eq_skeleton]; unfold cc2__decode_loss_kernel_skel
  rw [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-- The proof data of this launch on core `c`: the arrays as the launch finds them; after the body at point `t` each
    input's buffer at its block, the logits' at the inner products of the two sample blocks, the partial sums' at the
    masked tile total; nothing owed; the two windows on the sample matrix at the two halves of the share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 1 t) (iblk2 V c 2 t)
  Φ _ := Pipeline.ΦA spec2 c
  q w := match w with
    | ⟨0, _⟩ => fullShare.left
    | ⟨1, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrameRun.lean ====
/-
  The run of the whole entry function: three launches among four stretches of host operations.  The contents of the
  unscoped buffers are followed from the launch memory through every item — a stretch applies its operations, a
  launch leaves its arrays at what its write-backs made of them and every other buffer as it was —, each launch is
  entered from and left at these contents, and every weakly fair execution ends with EVERY unscoped buffer at the
  last contents `W8`.  The third launch reads the sample matrix through two windows: the two hold the two halves
  of the share of its buffer, split at entry and joined at exit.
-/
import proofs.«116321_j12163347383058_2_alg».proof.Proof.Gen.KernelIdeal.Launch
import proofs.«116321_j12163347383058_2_alg».proof.Proof.Gen.KernelIdeal.Skeleton
import proofs.«116321_j12163347383058_2_alg».proof.Proof.Gen.KernelIdeal.Points
import proofs.«116321_j12163347383058_2_alg».proof.Proof.Gen.KernelIdeal.Regions
import proofs.«116321_j12163347383058_2_alg».proof.Proof.FrameR0
import proofs.«116321_j12163347383058_2_alg».proof.Proof.FrameR1
import proofs.«116321_j12163347383058_2_alg».proof.Proof.FrameR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev VV0 : (c : Dev nD) → (b : Ref sig .tc) → Buf (Elt F) ((c : Thread nD τ).loc b) := fun c b => W0 m ρ c b
/-- At launch 0's exit: its arrays at what the pipeline leaves, every other buffer as entered. -/
def W1 (c : Dev nD) : Valuation τ sig (Elt F) :=
  Pipeline.withArrays spec0 c (W0 m ρ c) fun w => (dat0 (VV0 m ρ) c).arrAt w cfg0.N
theorem W1_arr (c : Dev nD) (w : Fin cfg0.W) :
    W1 m ρ c (Proc.devRef .tc (Pipeline.arrRef spec0 w)) = (dat0 (VV0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VV1 : (c : Dev nD) → (b : Ref sig .tc) → Buf (Elt F) ((c : Thread nD τ).loc b) := fun c b => W1 m ρ c b
theorem hF0 (c : Dev nD) (w : Fin cfg0.W) : (dat0 (VV0 m ρ) c).arrAt w cfg0.N = VV1 m ρ c (Pipeline.arrRef spec0 w) :=
  (W1_arr m ρ c w).symm
theorem hrest0 (c : Dev nD) : ∀ b, b ∉ Finset.univ.image (Pipeline.arrRef spec0) → VV1 m ρ c b = VV0 m ρ c b :=
  fun b hb => W1_of_ne m ρ c b fun w e => hb (Finset.mem_image.mpr ⟨w, Finset.mem_univ _, e⟩)

abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev VV4 : (c : Dev nD) → (b : Ref sig .tc) → Buf (Elt F) ((c : Thread nD τ).loc b) := fun c b => W4 m ρ c b
/-- At launch 1's exit: its arrays at what the pipeline leaves, every other buffer as entered. -/
def W5 (c : Dev nD) : Valuation τ sig (Elt F) :=
  Pipeline.withArrays spec1 c (W4 m ρ c) fun w => (dat1 (VV4 m ρ) c).arrAt w cfg1.N
theorem W5_arr (c : Dev nD) (w : Fin cfg1.W) :
    W5 m ρ c (Proc.devRef .tc (Pipeline.arrRef spec1 w)) = (dat1 (VV4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev VV5 : (c : Dev nD) → (b : Ref sig .tc) → Buf (Elt F) ((c : Thread nD τ).loc b) := fun c b => W5 m ρ c b
theorem hF1 (c : Dev nD) (w : Fin cfg1.W) : (dat1 (VV4 m ρ) c).arrAt w cfg1.N = VV5 m ρ c (Pipeline.arrRef spec1 w) :=
  (W5_arr m ρ c w).symm
theorem hrest1 (c : Dev nD) : ∀ b, b ∉ Finset.univ.image (Pipeline.arrRef spec1) → VV5 m ρ c b = VV4 m ρ c b :=
  fun b hb => W5_of_ne m ρ c b fun w e => hb (Finset.mem_image.mpr ⟨w, Finset.mem_univ _, e⟩)

abbrev W6 : Dev nD → Valuation τ sig (Elt F) := fun c => StableHlo.after hostOps2 (W5 m ρ c)
abbrev VV6 : (c : Dev nD) → (b : Ref sig .tc) → Buf (Elt F) ((c : Thread nD τ).loc b) := fun c b => W6 m ρ c b
/-- At launch 2's exit: the logits and the partial sums at what the pipeline leaves, every other buffer as entered. -/
def W7 (c : Dev nD) : Valuation τ sig (Elt F) :=
  Function.update (Function.update (W6 m ρ c) main_v35_0 ((dat2 (VV6 m ρ) c).arrAt 3 cfg2.N)) main_v35_1 ((dat2 (VV6 m ρ) c).arrAt 4 cfg2.N)
abbrev VV7 : (c : Dev nD) → (b : Ref sig .tc) → Buf (Elt F) ((c : Thread nD τ).loc b) := fun c b => W7 m ρ c b
theorem W7_of_ne (c : Dev nD) (b : Ref sig .tc) (h0 : b ≠ main_v35_0) (h1 : b ≠ main_v35_1) :
    W7 m ρ c (Proc.devRef .tc b) = W6 m ρ c (Proc.devRef .tc b) := by
  unfold W7
  rw [Function.update_of_ne (StableHlo.devRef_ne_of_ne h1 : (Proc.devRef .tc b : DevRef τ sig) ≠ Proc.devRef .tc main_v35_1),
    Function.update_of_ne (StableHlo.devRef_ne_of_ne h0 : (Proc.devRef .tc b : DevRef τ sig) ≠ Proc.devRef .tc main_v35_0)]
theorem W7_v35_0 (c : Dev nD) : W7 m ρ c (Proc.devRef .tc main_v35_0) = (dat2 (VV6 m ρ) c).arrAt 3 cfg2.N := by
  unfold W7
  rw [Function.update_of_ne (StableHlo.devRef_ne_of_ne (by decide) : (Proc.devRef .tc main_v35_0 : DevRef τ sig) ≠ Proc.devRef .tc main_v35_1),
    Function.update_self]
theorem W7_v35_1 (c : Dev nD) : W7 m ρ c (Proc.devRef .tc main_v35_1) = (dat2 (VV6 m ρ) c).arrAt 4 cfg2.N := by
  unfold W7
  rw [Function.update_self]
theorem hF2 (c : Dev nD) (w : Fin cfg2.W) : (dat2 (VV6 m ρ) c).arrAt w cfg2.N = VV7 m ρ c (Pipeline.arrRef spec2 w) :=
  match w with
  | ⟨0, _⟩ => (((dat2 (VV6 m ρ) c).arrAt_in 0 rfl _).trans (A_eq2 (VV6 m ρ) c 0)).trans (W7_of_ne m ρ c main_v34 (by decide) (by decide)).symm
  | ⟨1, _⟩ => (((dat2 (VV6 m ρ) c).arrAt_in 1 rfl _).trans (A_eq2 (VV6 m ρ) c 1)).trans (W7_of_ne m ρ c main_v34 (by decide) (by decide)).symm
  | ⟨2, _⟩ => (((dat2 (VV6 m ρ) c).arrAt_in 2 rfl _).trans (A_eq2 (VV6 m ρ) c 2)).trans (W7_of_ne m ρ c main_arg5 (by decide) (by decide)).symm
  | ⟨3, _⟩ => (W7_v35_0 m ρ c).symm
  | ⟨4, _⟩ => (W7_v35_1 m ρ c).symm
theorem hrest2 (c : Dev nD) : ∀ b, b ∉ Finset.univ.image (Pipeline.arrRef spec2) → VV7 m ρ c b = VV6 m ρ c b :=
  fun b hb => W7_of_ne m ρ c b
    (fun e => hb (Finset.mem_image.mpr ⟨3, Finset.mem_univ _, e.symm⟩))
    (fun e => hb (Finset.mem_image.mpr ⟨4, Finset.mem_univ _, e.symm⟩))
abbrev W8 : Dev nD → Valuation τ sig (Elt F) := fun c => StableHlo.after hostOps3 (W7 m ρ c)

/-! ### A buffer that no stretch writes and that is no array of launches 1 and 2 ends as launch 0 left it -/

theorem W8_of_W1 (c : Dev nD) (r : Ref sig .tc) (h1 : r ∉ hostOps1_W) (h11 : r ∉ hostOps1_1_W) (h12 : r ∉ hostOps1_2_W)
    (h2 : r ∉ hostOps2_W) (h3 : r ∉ hostOps3_W) (hr1 : ∀ w, Pipeline.arrRef spec1 w ≠ r) (hr20 : r ≠ main_v35_0) (hr21 : r ≠ main_v35_1) :
    W8 m ρ c (Proc.devRef .tc r) = W1 m ρ c (Proc.devRef .tc r) :=
  (StableHlo.after_of_writes_sub hostOps3 _ hostOps3_writes h3).trans <| (W7_of_ne m ρ c r hr20 hr21).trans <|
  (StableHlo.after_of_writes_sub hostOps2 _ hostOps2_writes h2).trans <| (W5_of_ne m ρ c r hr1).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1)

theorem W8_main_arg0 (c : Dev nD) : W8 m ρ c (Proc.devRef .tc main_arg0) = m ((c : Thread nD τ).loc main_arg0) :=
  (W8_of_W1 m ρ c main_arg0 (by decide) (by decide) (by decide) (by decide) (by decide) (by decide) (by decide) (by decide)).trans (((W1_arr m ρ c 0).trans (((dat0 (VV0 m ρ) c).arrAt_in 0 rfl _).trans (A_eq0 (VV0 m ρ) c 0))).trans rfl)
theorem W8_main_arg1 (c : Dev nD) : W8 m ρ c (Proc.devRef .tc main_arg1) = m ((c : Thread nD τ).loc main_arg1) :=
  (W8_of_W1 m ρ c main_arg1 (by decide) (by decide) (by decide) (by decide) (by decide) (by decide) (by decide) (by decide)).trans (((W1_arr m ρ c 1).trans (((dat0 (VV0 m ρ) c).arrAt_in 1 rfl _).trans (A_eq0 (VV0 m ρ) c 1))).trans rfl)
theorem W8_main_arg2 (c : Dev nD) : W8 m ρ c (Proc.devRef .tc main_arg2) = m ((c : Thread nD τ).loc main_arg2) :=
  (W8_of_W1 m ρ c main_arg2 (by decide) (by decide) (by decide) (by decide) (by decide) (by decide) (by decide) (by decide)).trans ((W1_of_ne m ρ c main_arg2 (by decide)).trans rfl)
theorem W8_main_arg3 (c : Dev nD) : W8 m ρ c (Proc.devRef .tc main_arg3) = m ((c : Thread nD τ).loc main_arg3) :=
  (W8_of_W1 m ρ c main_arg3 (by decide) (by decide) (by decide) (by decide) (by decide) (by decide) (by decide) (by decide)).trans ((W1_of_ne m ρ c main_arg3 (by decide)).trans rfl)
theorem W8_main_arg4 (c : Dev nD) : W8 m ρ c (Proc.devRef .tc main_arg4) = m ((c : Thread nD τ).loc main_arg4) :=
  (W8_of_W1 m ρ c main_arg4 (by decide) (by decide) (by decide) (by decide) (by decide) (by decide) (by decide) (by decide)).trans ((W1_of_ne m ρ c main_arg4 (by decide)).trans rfl)
theorem W8_main_arg5 (c : Dev nD) : W8 m ρ c (Proc.devRef .tc main_arg5) = m ((c : Thread nD τ).loc main_arg5) :=
  (W8_of_W1 m ρ c main_arg5 (by decide) (by decide) (by decide) (by decide) (by decide) (by decide) (by decide) (by decide)).trans ((W1_of_ne m ρ c main_arg5 (by decide)).trans rfl)
theorem W8_main_arg6 (c : Dev nD) : W8 m ρ c (Proc.devRef .tc main_arg6) = m ((c : Thread nD τ).loc main_arg6) :=
  (W8_of_W1 m ρ c main_arg6 (by decide) (by decide) (by decide) (by decide) (by decide) (by decide) (by decide) (by decide)).trans ((W1_of_ne m ρ c main_arg6 (by decide)).trans rfl)
theorem W8_main_arg7 (c : Dev nD) : W8 m ρ c (Proc.devRef .tc main_arg7) = m ((c : Thread nD τ).loc main_arg7) :=
  (W8_of_W1 m ρ c main_arg7 (by decide) (by decide) (by decide) (by decide) (by decide) (by decide) (by decide) (by decide)).trans ((W1_of_ne m ρ c main_arg7 (by decide)).trans rfl)
theorem W8_main_arg8 (c : Dev nD) : W8 m ρ c (Proc.devRef .tc main_arg8) = m ((c : Thread nD τ).loc main_arg8) :=
  (W8_of_W1 m ρ c main_arg8 (by decide) (by decide) (by decide) (by decide) (by decide) (by decide) (by decide) (by decide)).trans ((W1_of_ne m ρ c main_arg8 (by decide)).trans rfl)

/-! ## The proof data family and the thread state -/

/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (VV0 m ρ) c
  | ⟨1, _⟩ => fun c => dat1 (VV4 m ρ) c
  | ⟨2, _⟩ => fun c => dat2 (VV6 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The launches as segments -/

set_option backward.isDefEq.respectTransparency.types false in
/-- Launch 0 as a segment: entered with every unscoped buffer at `W0`, left with them at `W1`. Its arrays are
    split out of the unscoped buffers at entry and put back at the exit contents; the generator register goes through
    the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VV0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VV0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VV0 m ρ c) (VV1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at `W4`, left with them at `W5`. Its arrays are
    split out of the unscoped buffers at entry and put back at the exit contents; the generator register goes through
    the invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (VV4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VV4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VV4 m ρ c) (VV5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Fr

end
-- ==== Proof.FrameRun2.lean ====
/-
  The third launch as a segment of the run, the whole entry function as its eight segments, and the run itself.
  The third launch reads the sample matrix through two windows: its buffer is held once, so the two windows hold
  the two halves of its share, split at entry and joined again at exit.
-/
import proofs.«116321_j12163347383058_2_alg».proof.Proof.Gen.KernelIdeal.Launch
import proofs.«116321_j12163347383058_2_alg».proof.Proof.Gen.KernelIdeal.Skeleton
import proofs.«116321_j12163347383058_2_alg».proof.Proof.Gen.KernelIdeal.Points
import proofs.«116321_j12163347383058_2_alg».proof.Proof.FrameRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The third launch: one buffer behind two windows -/

section Shared
variable (c : Dev nD) (Vc : (b : Ref sig .tc) → Buf (Elt F) ((c : Thread nD τ).loc b))

/-- The distinct buffers behind the third launch's five windows. -/
theorem image2 : (Finset.univ.image (Pipeline.arrRef spec2) : Finset (Ref sig .tc)) = {main_v34, main_arg5, main_v35_0, main_v35_1} := by decide

/-- The unscoped buffers are those four and the rest. -/
theorem split2 : (unscopedBufs (Ix := Unit) (Name := ℕ) (U := UR sig nD τ) (Lvl := ℕ) c Vc : sProp 𝕄)
    = iprop(Pipeline.arrBufs (Ix := Unit) (Name := ℕ) (U := UR sig nD τ) (Lvl := ℕ) spec2 c Vc ∗ Pipeline.unscopedRest (Ix := Unit) (Name := ℕ) (U := UR sig nD τ) (Lvl := ℕ) spec2 c Vc) := by
  classical
  have hA : Finset.univ.image (Pipeline.arrRef spec2) ⊆ Finset.univ.filter fun b : Ref sig .tc => ¬ b.isScoped := by decide
  unfold unscopedBufs Pipeline.unscopedRest Pipeline.arrBufs
  rw [BI.bigSep_sdiff_split hA]
  rfl

theorem arrBufs2_eq : (Pipeline.arrBufs (Ix := Unit) (Name := ℕ) (U := UR sig nD τ) (Lvl := ℕ) spec2 c Vc : sProp 𝕄)
    = iprop((((c : Thread nD τ).loc main_v34) ↦{fullShare} Vc main_v34) ∗ (((c : Thread nD τ).loc main_arg5) ↦{fullShare} Vc main_arg5)
        ∗ (((c : Thread nD τ).loc main_v35_0) ↦{fullShare} Vc main_v35_0) ∗ (((c : Thread nD τ).loc main_v35_1) ↦{fullShare} Vc main_v35_1)) := by
  unfold Pipeline.arrBufs
  rw [image2, BI.bigSep_insert (by decide), BI.bigSep_insert (by decide), BI.bigSep_insert (by decide), BI.bigSep_singleton]
  rfl

/-- The pipeline's arrays of the third launch, window by window: the sample matrix's buffer at the two halves of the
    share, the labels', the logits' and the partial sums' whole. -/
theorem arrays2_eq (V : (c : Dev nD) → (b : Ref sig .tc) → Buf (Elt F) ((c : Thread nD τ).loc b))
    (Fn : (w : Fin cfg2.W) → Buf (Elt F) ((cfg2.win w).arr.view.loc (c.tc : Thread nD τ))) :
    ((dat2 V c).arrays Fn : sProp 𝕄)
    = iprop((((c : Thread nD τ).loc main_v34) ↦{fullShare.left} Fn 0) ∗ (((c : Thread nD τ).loc main_v34) ↦{fullShare.right} Fn 1)
        ∗ (((c : Thread nD τ).loc main_arg5) ↦{fullShare} Fn 2)
        ∗ (((c : Thread nD τ).loc main_v35_0) ↦{fullShare} Fn 3) ∗ (((c : Thread nD τ).loc main_v35_1) ↦{fullShare} Fn 4)) := by
  unfold Pipeline.Dat.arrays
  rw [bigSep_W2, (arr_whole2 0).set_eq_univ, (arr_whole2 2).set_eq_univ, (arr_whole2 3).set_eq_univ, (arr_whole2 4).set_eq_univ]
  rfl

/-- ENTRY: the unscoped buffers make the third launch's arrays at their entry contents, the sample matrix's buffer
    split along its share, beside the rest. -/
theorem entry2 (V : (c : Dev nD) → (b : Ref sig .tc) → Buf (Elt F) ((c : Thread nD τ).loc b)) :
    (unscopedBufs (Ix := Unit) (Name := ℕ) (U := UR sig nD τ) (Lvl := ℕ) c (V c) : sProp 𝕄)
      ⊢ iprop((dat2 V c).arrays ((dat2 V c).arrAt · 0) ∗ Pipeline.unscopedRest (Ix := Unit) (Name := ℕ) (U := UR sig nD τ) (Lvl := ℕ) spec2 c (V c)) := by
  rw [split2, arrBufs2_eq, arrays2_eq]
  iintro ⟨⟨H34, H5, H350, H351⟩, Hrest⟩
  have hs : (((c : Thread nD τ).loc main_v34) ↦{fullShare} V c main_v34 : sProp 𝕄)
      ⊣⊢ iprop((((c : Thread nD τ).loc main_v34) ↦{fullShare.left} V c main_v34) ∗ (((c : Thread nD τ).loc main_v34) ↦{fullShare.right} V c main_v34)) :=
    pointsTo_share (PosShare.mem_left_op_right fullShare)
  ihave H := hs.1 $$ H34
  icases H with ⟨Hl, Hr⟩
  isplitr [Hrest]
  · isplitl [Hl]; · iexact Hl
    isplitl [Hr]; · iexact Hr
    isplitl [H5]; · iexact H5
    isplitl [H350]; · iexact H350
    iexact H351
  iexact Hrest

/-- EXIT: the arrays at contents `Fn` and the rest make the unscoped buffers at any contents `V'` that have the
    arrays at `Fn` and agree with the entry contents elsewhere; the two halves of the sample matrix's buffer join. -/
theorem exit2 (V : (c : Dev nD) → (b : Ref sig .tc) → Buf (Elt F) ((c : Thread nD τ).loc b))
    (V' : (b : Ref sig .tc) → Buf (Elt F) ((c : Thread nD τ).loc b))
    (Fn : (w : Fin cfg2.W) → Buf (Elt F) ((cfg2.win w).arr.view.loc (c.tc : Thread nD τ)))
    (hF : ∀ w, Fn w = V' (Pipeline.arrRef spec2 w))
    (hrest : ∀ b, b ∉ Finset.univ.image (Pipeline.arrRef spec2) → V' b = V c b) :
    iprop((dat2 V c).arrays Fn ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  rw [split2, arrBufs2_eq, arrays2_eq, hF 0, hF 1, hF 2, hF 3, hF 4]
  have hr : (Pipeline.unscopedRest (Ix := Unit) (Name := ℕ) (U := UR sig nD τ) (Lvl := ℕ) spec2 c (V c) : sProp 𝕄)
      = Pipeline.unscopedRest (Ix := Unit) (Name := ℕ) (U := UR sig nD τ) (Lvl := ℕ) spec2 c V' := by
    unfold Pipeline.unscopedRest
    exact BI.bigSep_congr fun b hb => by rw [hrest b (Finset.mem_sdiff.mp hb).2]
  rw [hr]
  iintro ⟨⟨Hl, Hr, H5, H350, H351⟩, Hrest⟩
  isplitr [Hrest]
  · isplitl [Hl Hr]
    · have hs : (((c : Thread nD τ).loc main_v34) ↦{fullShare} V' main_v34 : sProp 𝕄)
          ⊣⊢ iprop((((c : Thread nD τ).loc main_v34) ↦{fullShare.left} V' main_v34) ∗ (((c : Thread nD τ).loc main_v34) ↦{fullShare.right} V' main_v34)) :=
        pointsTo_share (PosShare.mem_left_op_right fullShare)
      iapply hs.2
      isplitl [Hl]; · iexact Hl
      iexact Hr
    isplitl [H5]; · iexact H5
    isplitl [H350]; · iexact H350
    iexact H351
  iexact Hrest

end Shared

set_option backward.isDefEq.respectTransparency.types false in
/-- The third launch as a segment: entered with every unscoped buffer at `W6`, left with them at `W7`. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (VV6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (VV6 m ρ c)
  hentry c := by
    rw [Pipeline.ownSems0_none]
    have hsplit := entry2 c (VV6 m ρ)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · (Pipeline.pin (pcfgs (F := F)) adm 2).N)
          ∗ Pipeline.unscopedRest (Ix := Unit) (Name := ℕ) (U := UR sig nD τ) (Lvl := ℕ) spec2 c (VV6 m ρ c))
        ⊢ (unscopedBufs (Ix := Unit) (Name := ℕ) (U := UR sig nD τ) (Lvl := ℕ) c (VV7 m ρ c) : sProp 𝕄) :=
      exit2 c (VV6 m ρ) (VV7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ),
    .host (hseg hostOps2 hostOps2_sub hostOps2_fresh (W5 m ρ)),
    .region (reg2 m ρ),
    .host (hseg hostOps3 hostOps3_sub hostOps3_fresh (W7 m ρ)) ]

theorem main_run (c : Dev nD) : main (F := F) c = Pipeline.Seg.run (segs m ρ) := (main_chain c).trans (by chain_rfl)

set_option backward.isDefEq.respectTransparency.types false in
/-- THE RUN: from any memory with zero counters every weakly fair execution of the entry function terminates, nothing
    faulting, and the final memory holds every unscoped buffer at the last contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩)
    (run_all m ρ)

end Cert.KernelIdeal.Fr

end
-- ==== Proof.BFrameR0.lean ====
/-
  Launch 0: a tiled matrix product.  At grid point t the body reads a [2048, 512] block of rows of the left
  operand and the whole right operand, and stores their product (into a zero accumulator) as the block of rows t of
  the result.  This module states what the body leaves in the result's staging buffer as a function of the two input
  blocks, runs the body against it, and gives the pipeline its proof data at any contents `V` of the buffers at entry:
  input windows hold their blocks of `V`'s arrays, the output window what the body stored; nothing is owed.
-/
import proofs.«116321_j12163347383058_2_alg».proof.Proof.Gen.Kernel.Launch
import proofs.«116321_j12163347383058_2_alg».proof.Proof.Gen.Kernel.Skeleton
import proofs.«116321_j12163347383058_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x512 := Rect.unit (s := S2048x512) ![0, 0] S2048x512.size inb_S2048x512_S2048x512_0_0
abbrev r0_1 : Rect S512x256 := Rect.unit (s := S512x256) ![0, 0] S512x256.size inb_S512x256_S512x256_0_0
abbrev r0_2 : Rect S2048x256 := Rect.unit (s := S2048x256) ![0, 0] S2048x256.size inb_S2048x256_S2048x256_0_0

/-- The result window's staging buffer after the body: one store of the product of the two loaded blocks. -/
def out0_2 (x0 : Vec F S2048x512 .f32) (x1 : Vec F S512x256 .f32) : Vec F S2048x256 .f32 :=
  View.canon [⟨r0_2, k0_pay1 (View.ld x0 r0_0) (View.ld x1 r0_1)⟩]

/-- The one store covers the whole buffer. -/
theorem cover0_2 (p0 : Vec F S2048x256 .f32) (y : S2048x256.Idx) :
    ∃ pc ∈ ([⟨r0_2, p0⟩] : List (View.Piece (Elt F) S2048x256 .f32)), y ∈ pc.1.set :=
  View.cover_of_tiled [⟨r0_2, p0⟩] S2048x256.size (by rfl) y

set_option maxHeartbeats 1000000 in
/-- The body on whole staging buffers, the inputs' at `x0`, `x1` and the output's at anything, runs to the
    continuation with the inputs' unchanged and the output's at `out0_2 x0 x1`. -/
theorem sound_kernel0 (c : Dev nD) (E : Set ℕ) (i : grid0.Coords) (arg1 : Memref sig .tc .vmem S2048x512 .f32) (harg1 : arg1.IsWhole) (arg2 : Memref sig .tc .vmem S512x256 .f32) (harg2 : arg2.IsWhole) (arg3 : Memref sig .tc .vmem S2048x256 .f32) (harg3 : arg3.IsWhole)
    (x0 : Vec F S2048x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this launch on core `c`: the arrays as the launch finds them; after the body at point `t` each
    input's buffer at its block and the output's at the product of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's run applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BFrameR1.lean ====
/-
  Launch 1: a tiled matrix product.  At grid point t the body reads a [2048, 256] block of rows of the left
  operand and the whole right operand, and stores their product (into a zero accumulator) as the block of rows t of
  the result.  This module states what the body leaves in the result's staging buffer as a function of the two input
  blocks, runs the body against it, and gives the pipeline its proof data at any contents `V` of the buffers at entry:
  input windows hold their blocks of `V`'s arrays, the output window what the body stored; nothing is owed.
-/
import proofs.«116321_j12163347383058_2_alg».proof.Proof.Gen.Kernel.Launch
import proofs.«116321_j12163347383058_2_alg».proof.Proof.Gen.Kernel.Skeleton
import proofs.«116321_j12163347383058_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2048x256 := Rect.unit (s := S2048x256) ![0, 0] S2048x256.size inb_S2048x256_S2048x256_0_0
abbrev r1_1 : Rect S256x128 := Rect.unit (s := S256x128) ![0, 0] S256x128.size inb_S256x128_S256x128_0_0
abbrev r1_2 : Rect S2048x128 := Rect.unit (s := S2048x128) ![0, 0] S2048x128.size inb_S2048x128_S2048x128_0_0

/-- The result window's staging buffer after the body: one store of the product of the two loaded blocks. -/
def out1_2 (x0 : Vec F S2048x256 .f32) (x1 : Vec F S256x128 .f32) : Vec F S2048x128 .f32 :=
  View.canon [⟨r1_2, k1_pay1 (View.ld x0 r1_0) (View.ld x1 r1_1)⟩]

/-- The one store covers the whole buffer. -/
theorem cover1_2 (p0 : Vec F S2048x128 .f32) (y : S2048x128.Idx) :
    ∃ pc ∈ ([⟨r1_2, p0⟩] : List (View.Piece (Elt F) S2048x128 .f32)), y ∈ pc.1.set :=
  View.cover_of_tiled [⟨r1_2, p0⟩] S2048x128.size (by rfl) y

set_option maxHeartbeats 1000000 in
/-- The body on whole staging buffers, the inputs' at `x0`, `x1` and the output's at anything, runs to the
    continuation with the inputs' unchanged and the output's at `out1_2 x0 x1`. -/
theorem sound_kernel1 (c : Dev nD) (E : Set ℕ) (i : grid1.Coords) (arg1 : Memref sig .tc .vmem S2048x256 .f32) (harg1 : arg1.IsWhole) (arg2 : Memref sig .tc .vmem S256x128 .f32) (harg2 : arg2.IsWhole) (arg3 : Memref sig .tc .vmem S2048x128 .f32) (harg3 : arg3.IsWhole)
    (x0 : Vec F S2048x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this launch on core `c`: the arrays as the launch finds them; after the body at point `t` each
    input's buffer at its block and the output's at the product of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's run applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.BFrameR2.lean ====
/-
  Launch 2: the fused decoder.  At grid point (i, j) the body reads block i of 1024 rows of the sample matrix, block j
  of 2048 rows of the SAME matrix through a second window, and the [1024, 2048] tile (i, j) of the labels; it stores
  the tile of inner products as tile (i, j) of the logits, and into its own [8, 128] tile of the partial-sum array the
  tile's weighted cross-entropy total at entry (0, 0) and zero elsewhere.  This module states what the body leaves in
  the two output staging buffers as functions of the three input blocks, runs the body against them, and gives the
  pipeline its proof data at any contents `V` of the buffers at entry.  The two windows on the sample matrix each
  hold half of the share of its buffer; every other window holds its array's buffer whole.
-/
import proofs.«116321_j12163347383058_2_alg».proof.Proof.Gen.Kernel.Launch
import proofs.«116321_j12163347383058_2_alg».proof.Proof.Gen.Kernel.Skeleton
import proofs.«116321_j12163347383058_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x64 := Rect.unit (s := S1024x64) ![0, 0] S1024x64.size inb_S1024x64_S1024x64_0_0
abbrev r2_1 : Rect S2048x64 := Rect.unit (s := S2048x64) ![0, 0] S2048x64.size inb_S2048x64_S2048x64_0_0
abbrev r2_2 : Rect S1024x2048 := Rect.unit (s := S1024x2048) ![0, 0] S1024x2048.size inb_S1024x2048_S1024x2048_0_0
abbrev r2_4 : Rect S8x128 := Rect.unit (s := S8x128) ![0, 0] S8x128.size inb_S8x128_S8x128_0_0

/-- The logits window's staging buffer after the body: one store of the tile of inner products. -/
def out2_3 (x0 : Vec F S1024x64 .f32) (x1 : Vec F S2048x64 .f32) : Vec F S1024x2048 .f32 :=
  View.canon [⟨r2_2, k2_pay2 (View.ld x0 r2_0) (View.ld x1 r2_1)⟩]

/-- The partial-sum window's staging buffer after the body: one store of the masked tile total. -/
def out2_4 (x0 : Vec F S1024x64 .f32) (x1 : Vec F S2048x64 .f32) (x2 : Vec F S1024x2048 .f32) : Vec F S8x128 .f32 :=
  View.canon [⟨r2_4, k2_pay1 (k2_pay3 (View.ld x0 r2_0) (View.ld x1 r2_1) (View.ld x2 r2_2)) (iota .tc S8x128 32 [1] iota_S8x128_d1_w32) k2_pay4⟩]

theorem cover2_3 (p0 : Vec F S1024x2048 .f32) (y : S1024x2048.Idx) :
    ∃ pc ∈ ([⟨r2_2, p0⟩] : List (View.Piece (Elt F) S1024x2048 .f32)), y ∈ pc.1.set :=
  View.cover_of_tiled [⟨r2_2, p0⟩] S1024x2048.size (by rfl) y
theorem cover2_4 (p0 : Vec F S8x128 .f32) (y : S8x128.Idx) :
    ∃ pc ∈ ([⟨r2_4, p0⟩] : List (View.Piece (Elt F) S8x128 .f32)), y ∈ pc.1.set :=
  View.cover_of_tiled [⟨r2_4, p0⟩] S8x128.size (by rfl) y

set_option maxHeartbeats 2000000 in
/-- The body on whole staging buffers, the inputs' at `x0`, `x1`, `x2` and the outputs' at anything, runs to the
    continuation with the inputs' unchanged and the outputs' at `out2_3 x0 x1` and `out2_4 x0 x1 x2`. -/
theorem sound_kernel2 (c : Dev nD) (E : Set ℕ) (i : grid2.Coords) (arg2 : Memref sig .tc .vmem S1024x64 .f32) (harg2 : arg2.IsWhole) (arg3 : Memref sig .tc .vmem S2048x64 .f32) (harg3 : arg3.IsWhole) (arg4 : Memref sig .tc .vmem S1024x2048 .f32) (harg4 : arg4.IsWhole) (arg5 : Memref sig .tc .vmem S1024x2048 .f32) (harg5 : arg5.IsWhole) (arg6 : Memref sig .tc .vmem S8x128 .f32) (harg6 : arg6.IsWhole)
    (x0 : Vec F S1024x64 .f32) (x1 : Vec F S2048x64 .f32) (x2 : Vec F S1024x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out2_3 x0 x1) ∗ owns (c : Thread nD τ) arg6 fullShare (out2_4 x0 x1 x2)) -∗ K ⟨⟩))
      ⊢ wp frame (wpE (defs₀ (F := F)) Variants.none c none) E (cc2__decode_loss_kernel i arg2 harg2 arg3 harg3 arg4 harg4 arg5 harg5 arg6 harg6) K := by
  simp only [cc2__decode_loss_kernel_eq_skeleton]; unfold cc2__decode_loss_kernel_skel
  rw [k2_part1_eq_skeleton]; unfold k2_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_4 _)

/-- The proof data of this launch on core `c`: the arrays as the launch finds them; after the body at point `t` each
    input's buffer at its block, the logits' at the inner products of the two sample blocks, the partial sums' at the
    masked tile total; nothing owed; the two windows on the sample matrix at the two halves of the share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t)
    | ⟨4, _⟩ => out2_4 (iblk2 V c 0 t) (iblk2 V c 1 t) (iblk2 V c 2 t)
  Φ _ := Pipeline.ΦA spec2 c
  q w := match w with
    | ⟨0, _⟩ => fullShare.left
    | ⟨1, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) := by dsimp only [dat2]
theorem after2_4 (c : Dev nD) (t : Fin cfg2.N) : (dat2 V c).after 4 t = out2_4 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.BFrameRun.lean ====
/-
  The run of the whole entry function: three launches among four stretches of host operations.  The contents of the
  unscoped buffers are followed from the launch memory through every item — a stretch applies its operations, a
  launch leaves its arrays at what its write-backs made of them and every other buffer as it was —, each launch is
  entered from and left at these contents, and every weakly fair execution ends with EVERY unscoped buffer at the
  last contents `W8`.  The third launch reads the sample matrix through two windows: the two hold the two halves
  of the share of its buffer, split at entry and joined at exit.
-/
import proofs.«116321_j12163347383058_2_alg».proof.Proof.Gen.Kernel.Launch
import proofs.«116321_j12163347383058_2_alg».proof.Proof.Gen.Kernel.Skeleton
import proofs.«116321_j12163347383058_2_alg».proof.Proof.Gen.Kernel.Points
import proofs.«116321_j12163347383058_2_alg».proof.Proof.Gen.Kernel.Regions
import proofs.«116321_j12163347383058_2_alg».proof.Proof.BFrameR0
import proofs.«116321_j12163347383058_2_alg».proof.Proof.BFrameR1
import proofs.«116321_j12163347383058_2_alg».proof.Proof.BFrameR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev VV0 : (c : Dev nD) → (b : Ref sig .tc) → Buf (Elt F) ((c : Thread nD τ).loc b) := fun c b => W0 m ρ c b
/-- At launch 0's exit: its arrays at what the pipeline leaves, every other buffer as entered. -/
def W1 (c : Dev nD) : Valuation τ sig (Elt F) :=
  Pipeline.withArrays spec0 c (W0 m ρ c) fun w => (dat0 (VV0 m ρ) c).arrAt w cfg0.N
theorem W1_arr (c : Dev nD) (w : Fin cfg0.W) :
    W1 m ρ c (Proc.devRef .tc (Pipeline.arrRef spec0 w)) = (dat0 (VV0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VV1 : (c : Dev nD) → (b : Ref sig .tc) → Buf (Elt F) ((c : Thread nD τ).loc b) := fun c b => W1 m ρ c b
theorem hF0 (c : Dev nD) (w : Fin cfg0.W) : (dat0 (VV0 m ρ) c).arrAt w cfg0.N = VV1 m ρ c (Pipeline.arrRef spec0 w) :=
  (W1_arr m ρ c w).symm
theorem hrest0 (c : Dev nD) : ∀ b, b ∉ Finset.univ.image (Pipeline.arrRef spec0) → VV1 m ρ c b = VV0 m ρ c b :=
  fun b hb => W1_of_ne m ρ c b fun w e => hb (Finset.mem_image.mpr ⟨w, Finset.mem_univ _, e⟩)

abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev VV4 : (c : Dev nD) → (b : Ref sig .tc) → Buf (Elt F) ((c : Thread nD τ).loc b) := fun c b => W4 m ρ c b
/-- At launch 1's exit: its arrays at what the pipeline leaves, every other buffer as entered. -/
def W5 (c : Dev nD) : Valuation τ sig (Elt F) :=
  Pipeline.withArrays spec1 c (W4 m ρ c) fun w => (dat1 (VV4 m ρ) c).arrAt w cfg1.N
theorem W5_arr (c : Dev nD) (w : Fin cfg1.W) :
    W5 m ρ c (Proc.devRef .tc (Pipeline.arrRef spec1 w)) = (dat1 (VV4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev VV5 : (c : Dev nD) → (b : Ref sig .tc) → Buf (Elt F) ((c : Thread nD τ).loc b) := fun c b => W5 m ρ c b
theorem hF1 (c : Dev nD) (w : Fin cfg1.W) : (dat1 (VV4 m ρ) c).arrAt w cfg1.N = VV5 m ρ c (Pipeline.arrRef spec1 w) :=
  (W5_arr m ρ c w).symm
theorem hrest1 (c : Dev nD) : ∀ b, b ∉ Finset.univ.image (Pipeline.arrRef spec1) → VV5 m ρ c b = VV4 m ρ c b :=
  fun b hb => W5_of_ne m ρ c b fun w e => hb (Finset.mem_image.mpr ⟨w, Finset.mem_univ _, e⟩)

abbrev W6 : Dev nD → Valuation τ sig (Elt F) := fun c => StableHlo.after hostOps2 (W5 m ρ c)
abbrev VV6 : (c : Dev nD) → (b : Ref sig .tc) → Buf (Elt F) ((c : Thread nD τ).loc b) := fun c b => W6 m ρ c b
/-- At launch 2's exit: the logits and the partial sums at what the pipeline leaves, every other buffer as entered. -/
def W7 (c : Dev nD) : Valuation τ sig (Elt F) :=
  Function.update (Function.update (W6 m ρ c) main_v35_0 ((dat2 (VV6 m ρ) c).arrAt 3 cfg2.N)) main_v35_1 ((dat2 (VV6 m ρ) c).arrAt 4 cfg2.N)
abbrev VV7 : (c : Dev nD) → (b : Ref sig .tc) → Buf (Elt F) ((c : Thread nD τ).loc b) := fun c b => W7 m ρ c b
theorem W7_of_ne (c : Dev nD) (b : Ref sig .tc) (h0 : b ≠ main_v35_0) (h1 : b ≠ main_v35_1) :
    W7 m ρ c (Proc.devRef .tc b) = W6 m ρ c (Proc.devRef .tc b) := by
  unfold W7
  rw [Function.update_of_ne (StableHlo.devRef_ne_of_ne h1 : (Proc.devRef .tc b : DevRef τ sig) ≠ Proc.devRef .tc main_v35_1),
    Function.update_of_ne (StableHlo.devRef_ne_of_ne h0 : (Proc.devRef .tc b : DevRef τ sig) ≠ Proc.devRef .tc main_v35_0)]
theorem W7_v35_0 (c : Dev nD) : W7 m ρ c (Proc.devRef .tc main_v35_0) = (dat2 (VV6 m ρ) c).arrAt 3 cfg2.N := by
  unfold W7
  rw [Function.update_of_ne (StableHlo.devRef_ne_of_ne (by decide) : (Proc.devRef .tc main_v35_0 : DevRef τ sig) ≠ Proc.devRef .tc main_v35_1),
    Function.update_self]
theorem W7_v35_1 (c : Dev nD) : W7 m ρ c (Proc.devRef .tc main_v35_1) = (dat2 (VV6 m ρ) c).arrAt 4 cfg2.N := by
  unfold W7
  rw [Function.update_self]
theorem hF2 (c : Dev nD) (w : Fin cfg2.W) : (dat2 (VV6 m ρ) c).arrAt w cfg2.N = VV7 m ρ c (Pipeline.arrRef spec2 w) :=
  match w with
  | ⟨0, _⟩ => (((dat2 (VV6 m ρ) c).arrAt_in 0 rfl _).trans (A_eq2 (VV6 m ρ) c 0)).trans (W7_of_ne m ρ c main_v34 (by decide) (by decide)).symm
  | ⟨1, _⟩ => (((dat2 (VV6 m ρ) c).arrAt_in 1 rfl _).trans (A_eq2 (VV6 m ρ) c 1)).trans (W7_of_ne m ρ c main_v34 (by decide) (by decide)).symm
  | ⟨2, _⟩ => (((dat2 (VV6 m ρ) c).arrAt_in 2 rfl _).trans (A_eq2 (VV6 m ρ) c 2)).trans (W7_of_ne m ρ c main_arg5 (by decide) (by decide)).symm
  | ⟨3, _⟩ => (W7_v35_0 m ρ c).symm
  | ⟨4, _⟩ => (W7_v35_1 m ρ c).symm
theorem hrest2 (c : Dev nD) : ∀ b, b ∉ Finset.univ.image (Pipeline.arrRef spec2) → VV7 m ρ c b = VV6 m ρ c b :=
  fun b hb => W7_of_ne m ρ c b
    (fun e => hb (Finset.mem_image.mpr ⟨3, Finset.mem_univ _, e.symm⟩))
    (fun e => hb (Finset.mem_image.mpr ⟨4, Finset.mem_univ _, e.symm⟩))
abbrev W8 : Dev nD → Valuation τ sig (Elt F) := fun c => StableHlo.after hostOps3 (W7 m ρ c)

/-! ### A buffer that no stretch writes and that is no array of launches 1 and 2 ends as launch 0 left it -/

theorem W8_of_W1 (c : Dev nD) (r : Ref sig .tc) (h1 : r ∉ hostOps1_W) (h11 : r ∉ hostOps1_1_W) (h12 : r ∉ hostOps1_2_W)
    (h2 : r ∉ hostOps2_W) (h3 : r ∉ hostOps3_W) (hr1 : ∀ w, Pipeline.arrRef spec1 w ≠ r) (hr20 : r ≠ main_v35_0) (hr21 : r ≠ main_v35_1) :
    W8 m ρ c (Proc.devRef .tc r) = W1 m ρ c (Proc.devRef .tc r) :=
  (StableHlo.after_of_writes_sub hostOps3 _ hostOps3_writes h3).trans <| (W7_of_ne m ρ c r hr20 hr21).trans <|
  (StableHlo.after_of_writes_sub hostOps2 _ hostOps2_writes h2).trans <| (W5_of_ne m ρ c r hr1).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1)

theorem W8_main_arg0 (c : Dev nD) : W8 m ρ c (Proc.devRef .tc main_arg0) = m ((c : Thread nD τ).loc main_arg0) :=
  (W8_of_W1 m ρ c main_arg0 (by decide) (by decide) (by decide) (by decide) (by decide) (by decide) (by decide) (by decide)).trans (((W1_arr m ρ c 0).trans (((dat0 (VV0 m ρ) c).arrAt_in 0 rfl _).trans (A_eq0 (VV0 m ρ) c 0))).trans rfl)
theorem W8_main_arg1 (c : Dev nD) : W8 m ρ c (Proc.devRef .tc main_arg1) = m ((c : Thread nD τ).loc main_arg1) :=
  (W8_of_W1 m ρ c main_arg1 (by decide) (by decide) (by decide) (by decide) (by decide) (by decide) (by decide) (by decide)).trans (((W1_arr m ρ c 1).trans (((dat0 (VV0 m ρ) c).arrAt_in 1 rfl _).trans (A_eq0 (VV0 m ρ) c 1))).trans rfl)
theorem W8_main_arg2 (c : Dev nD) : W8 m ρ c (Proc.devRef .tc main_arg2) = m ((c : Thread nD τ).loc main_arg2) :=
  (W8_of_W1 m ρ c main_arg2 (by decide) (by decide) (by decide) (by decide) (by decide) (by decide) (by decide) (by decide)).trans ((W1_of_ne m ρ c main_arg2 (by decide)).trans rfl)
theorem W8_main_arg3 (c : Dev nD) : W8 m ρ c (Proc.devRef .tc main_arg3) = m ((c : Thread nD τ).loc main_arg3) :=
  (W8_of_W1 m ρ c main_arg3 (by decide) (by decide) (by decide) (by decide) (by decide) (by decide) (by decide) (by decide)).trans ((W1_of_ne m ρ c main_arg3 (by decide)).trans rfl)
theorem W8_main_arg4 (c : Dev nD) : W8 m ρ c (Proc.devRef .tc main_arg4) = m ((c : Thread nD τ).loc main_arg4) :=
  (W8_of_W1 m ρ c main_arg4 (by decide) (by decide) (by decide) (by decide) (by decide) (by decide) (by decide) (by decide)).trans ((W1_of_ne m ρ c main_arg4 (by decide)).trans rfl)
theorem W8_main_arg5 (c : Dev nD) : W8 m ρ c (Proc.devRef .tc main_arg5) = m ((c : Thread nD τ).loc main_arg5) :=
  (W8_of_W1 m ρ c main_arg5 (by decide) (by decide) (by decide) (by decide) (by decide) (by decide) (by decide) (by decide)).trans ((W1_of_ne m ρ c main_arg5 (by decide)).trans rfl)
theorem W8_main_arg6 (c : Dev nD) : W8 m ρ c (Proc.devRef .tc main_arg6) = m ((c : Thread nD τ).loc main_arg6) :=
  (W8_of_W1 m ρ c main_arg6 (by decide) (by decide) (by decide) (by decide) (by decide) (by decide) (by decide) (by decide)).trans ((W1_of_ne m ρ c main_arg6 (by decide)).trans rfl)
theorem W8_main_arg7 (c : Dev nD) : W8 m ρ c (Proc.devRef .tc main_arg7) = m ((c : Thread nD τ).loc main_arg7) :=
  (W8_of_W1 m ρ c main_arg7 (by decide) (by decide) (by decide) (by decide) (by decide) (by decide) (by decide) (by decide)).trans ((W1_of_ne m ρ c main_arg7 (by decide)).trans rfl)
theorem W8_main_arg8 (c : Dev nD) : W8 m ρ c (Proc.devRef .tc main_arg8) = m ((c : Thread nD τ).loc main_arg8) :=
  (W8_of_W1 m ρ c main_arg8 (by decide) (by decide) (by decide) (by decide) (by decide) (by decide) (by decide) (by decide)).trans ((W1_of_ne m ρ c main_arg8 (by decide)).trans rfl)

/-! ## The proof data family and the thread state -/

/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (VV0 m ρ) c
  | ⟨1, _⟩ => fun c => dat1 (VV4 m ρ) c
  | ⟨2, _⟩ => fun c => dat2 (VV6 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)

/-! ## The launches as segments -/

set_option backward.isDefEq.respectTransparency.types false in
/-- Launch 0 as a segment: entered with every unscoped buffer at `W0`, left with them at `W1`. Its arrays are
    split out of the unscoped buffers at entry and put back at the exit contents; the generator register goes through
    the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VV0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VV0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VV0 m ρ c) (VV1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at `W4`, left with them at `W5`. Its arrays are
    split out of the unscoped buffers at entry and put back at the exit contents; the generator register goes through
    the invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (VV4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VV4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VV4 m ρ c) (VV5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Fr

end
-- ==== Proof.BFrameRun2.lean ====
/-
  The third launch as a segment of the run, the whole entry function as its eight segments, and the run itself.
  The third launch reads the sample matrix through two windows: its buffer is held once, so the two windows hold
  the two halves of its share, split at entry and joined again at exit.
-/
import proofs.«116321_j12163347383058_2_alg».proof.Proof.Gen.Kernel.Launch
import proofs.«116321_j12163347383058_2_alg».proof.Proof.Gen.Kernel.Skeleton
import proofs.«116321_j12163347383058_2_alg».proof.Proof.Gen.Kernel.Points
import proofs.«116321_j12163347383058_2_alg».proof.Proof.BFrameRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The third launch: one buffer behind two windows -/

section Shared
variable (c : Dev nD) (Vc : (b : Ref sig .tc) → Buf (Elt F) ((c : Thread nD τ).loc b))

/-- The distinct buffers behind the third launch's five windows. -/
theorem image2 : (Finset.univ.image (Pipeline.arrRef spec2) : Finset (Ref sig .tc)) = {main_v34, main_arg5, main_v35_0, main_v35_1} := by decide

/-- The unscoped buffers are those four and the rest. -/
theorem split2 : (unscopedBufs (Ix := Unit) (Name := ℕ) (U := UR sig nD τ) (Lvl := ℕ) c Vc : sProp 𝕄)
    = iprop(Pipeline.arrBufs (Ix := Unit) (Name := ℕ) (U := UR sig nD τ) (Lvl := ℕ) spec2 c Vc ∗ Pipeline.unscopedRest (Ix := Unit) (Name := ℕ) (U := UR sig nD τ) (Lvl := ℕ) spec2 c Vc) := by
  classical
  have hA : Finset.univ.image (Pipeline.arrRef spec2) ⊆ Finset.univ.filter fun b : Ref sig .tc => ¬ b.isScoped := by decide
  unfold unscopedBufs Pipeline.unscopedRest Pipeline.arrBufs
  rw [BI.bigSep_sdiff_split hA]
  rfl

theorem arrBufs2_eq : (Pipeline.arrBufs (Ix := Unit) (Name := ℕ) (U := UR sig nD τ) (Lvl := ℕ) spec2 c Vc : sProp 𝕄)
    = iprop((((c : Thread nD τ).loc main_v34) ↦{fullShare} Vc main_v34) ∗ (((c : Thread nD τ).loc main_arg5) ↦{fullShare} Vc main_arg5)
        ∗ (((c : Thread nD τ).loc main_v35_0) ↦{fullShare} Vc main_v35_0) ∗ (((c : Thread nD τ).loc main_v35_1) ↦{fullShare} Vc main_v35_1)) := by
  unfold Pipeline.arrBufs
  rw [image2, BI.bigSep_insert (by decide), BI.bigSep_insert (by decide), BI.bigSep_insert (by decide), BI.bigSep_singleton]
  rfl

/-- The pipeline's arrays of the third launch, window by window: the sample matrix's buffer at the two halves of the
    share, the labels', the logits' and the partial sums' whole. -/
theorem arrays2_eq (V : (c : Dev nD) → (b : Ref sig .tc) → Buf (Elt F) ((c : Thread nD τ).loc b))
    (Fn : (w : Fin cfg2.W) → Buf (Elt F) ((cfg2.win w).arr.view.loc (c.tc : Thread nD τ))) :
    ((dat2 V c).arrays Fn : sProp 𝕄)
    = iprop((((c : Thread nD τ).loc main_v34) ↦{fullShare.left} Fn 0) ∗ (((c : Thread nD τ).loc main_v34) ↦{fullShare.right} Fn 1)
        ∗ (((c : Thread nD τ).loc main_arg5) ↦{fullShare} Fn 2)
        ∗ (((c : Thread nD τ).loc main_v35_0) ↦{fullShare} Fn 3) ∗ (((c : Thread nD τ).loc main_v35_1) ↦{fullShare} Fn 4)) := by
  unfold Pipeline.Dat.arrays
  rw [bigSep_W2, (arr_whole2 0).set_eq_univ, (arr_whole2 2).set_eq_univ, (arr_whole2 3).set_eq_univ, (arr_whole2 4).set_eq_univ]
  rfl

/-- ENTRY: the unscoped buffers make the third launch's arrays at their entry contents, the sample matrix's buffer
    split along its share, beside the rest. -/
theorem entry2 (V : (c : Dev nD) → (b : Ref sig .tc) → Buf (Elt F) ((c : Thread nD τ).loc b)) :
    (unscopedBufs (Ix := Unit) (Name := ℕ) (U := UR sig nD τ) (Lvl := ℕ) c (V c) : sProp 𝕄)
      ⊢ iprop((dat2 V c).arrays ((dat2 V c).arrAt · 0) ∗ Pipeline.unscopedRest (Ix := Unit) (Name := ℕ) (U := UR sig nD τ) (Lvl := ℕ) spec2 c (V c)) := by
  rw [split2, arrBufs2_eq, arrays2_eq]
  iintro ⟨⟨H34, H5, H350, H351⟩, Hrest⟩
  have hs : (((c : Thread nD τ).loc main_v34) ↦{fullShare} V c main_v34 : sProp 𝕄)
      ⊣⊢ iprop((((c : Thread nD τ).loc main_v34) ↦{fullShare.left} V c main_v34) ∗ (((c : Thread nD τ).loc main_v34) ↦{fullShare.right} V c main_v34)) :=
    pointsTo_share (PosShare.mem_left_op_right fullShare)
  ihave H := hs.1 $$ H34
  icases H with ⟨Hl, Hr⟩
  isplitr [Hrest]
  · isplitl [Hl]; · iexact Hl
    isplitl [Hr]; · iexact Hr
    isplitl [H5]; · iexact H5
    isplitl [H350]; · iexact H350
    iexact H351
  iexact Hrest

/-- EXIT: the arrays at contents `Fn` and the rest make the unscoped buffers at any contents `V'` that have the
    arrays at `Fn` and agree with the entry contents elsewhere; the two halves of the sample matrix's buffer join. -/
theorem exit2 (V : (c : Dev nD) → (b : Ref sig .tc) → Buf (Elt F) ((c : Thread nD τ).loc b))
    (V' : (b : Ref sig .tc) → Buf (Elt F) ((c : Thread nD τ).loc b))
    (Fn : (w : Fin cfg2.W) → Buf (Elt F) ((cfg2.win w).arr.view.loc (c.tc : Thread nD τ)))
    (hF : ∀ w, Fn w = V' (Pipeline.arrRef spec2 w))
    (hrest : ∀ b, b ∉ Finset.univ.image (Pipeline.arrRef spec2) → V' b = V c b) :
    iprop((dat2 V c).arrays Fn ∗ Pipeline.unscopedRest (Ix := Unit) (Name := ℕ) (U := UR sig nD τ) (Lvl := ℕ) spec2 c (V c))
      ⊢ (unscopedBufs (Ix := Unit) (Name := ℕ) (U := UR sig nD τ) (Lvl := ℕ) c V' : sProp 𝕄) := by
  rw [split2, arrBufs2_eq, arrays2_eq, hF 0, hF 1, hF 2, hF 3, hF 4]
  have hr : (Pipeline.unscopedRest (Ix := Unit) (Name := ℕ) (U := UR sig nD τ) (Lvl := ℕ) spec2 c (V c) : sProp 𝕄)
      = Pipeline.unscopedRest (Ix := Unit) (Name := ℕ) (U := UR sig nD τ) (Lvl := ℕ) spec2 c V' := by
    unfold Pipeline.unscopedRest
    exact BI.bigSep_congr fun b hb => by rw [hrest b (Finset.mem_sdiff.mp hb).2]
  rw [hr]
  iintro ⟨⟨Hl, Hr, H5, H350, H351⟩, Hrest⟩
  isplitr [Hrest]
  · isplitl [Hl Hr]
    · have hs : (((c : Thread nD τ).loc main_v34) ↦{fullShare} V' main_v34 : sProp 𝕄)
          ⊣⊢ iprop((((c : Thread nD τ).loc main_v34) ↦{fullShare.left} V' main_v34) ∗ (((c : Thread nD τ).loc main_v34) ↦{fullShare.right} V' main_v34)) :=
        pointsTo_share (PosShare.mem_left_op_right fullShare)
      iapply hs.2
      isplitl [Hl]; · iexact Hl
      iexact Hr
    isplitl [H5]; · iexact H5
    isplitl [H350]; · iexact H350
    iexact H351
  iexact Hrest

end Shared

set_option backward.isDefEq.respectTransparency.types false in
/-- The third launch as a segment: entered with every unscoped buffer at `W6`, left with them at `W7`. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (VV6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (VV6 m ρ c)
  hentry c := by
    rw [Pipeline.ownSems0_none]
    have hsplit := entry2 c (VV6 m ρ)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · (Pipeline.pin (pcfgs (F := F)) adm 2).N)
          ∗ Pipeline.unscopedRest (Ix := Unit) (Name := ℕ) (U := UR sig nD τ) (Lvl := ℕ) spec2 c (VV6 m ρ c))
        ⊢ (unscopedBufs (Ix := Unit) (Name := ℕ) (U := UR sig nD τ) (Lvl := ℕ) c (VV7 m ρ c) : sProp 𝕄) :=
      exit2 c (VV6 m ρ) (VV7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ),
    .host (hseg hostOps2 hostOps2_sub hostOps2_fresh (W5 m ρ)),
    .region (reg2 m ρ),
    .host (hseg hostOps3 hostOps3_sub hostOps3_fresh (W7 m ρ)) ]

theorem main_run (c : Dev nD) : main (F := F) c = Pipeline.Seg.run (segs m ρ) := (main_chain c).trans (by chain_rfl)

set_option backward.isDefEq.respectTransparency.types false in
/-- THE RUN: from any memory with zero counters every weakly fair execution of the entry function terminates, nothing
    faulting, and the final memory holds every unscoped buffer at the last contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩)
    (run_all m ρ)

end Cert.Kernel.Fr

end
-- ==== Proof.KerTerms.lean ====
/-
  The host side of the kernel's entry function as pure terms.  Between its three kernel launches the program
  applies plain array operations: the sparse aggregation `adj · H` (gather the rows of `H` at the wrapped source
  words, scale row `e` by `vals e`, scatter-add into row `row e` of a zero matrix), a rectifier, the concatenation
  `[Wm | Ws]`, the split of the aggregated `[8192,128]` product into mean and log-deviation halves, the sample
  `Z = mean + eps · exp(logσ)`, and, after the last launch, the total of the per-tile partial sums and the
  Kullback-Leibler term.  Each is written here as a function of the launches' results (`mm0`, `mm1`, `partials`)
  and of the arguments, in the order and with the literals the program has them.
-/
import proofs.«116321_j12163347383058_2_alg».proof.Proof.Gen.KernelIdeal

noncomputable section

namespace Cert.KernelIdeal.Terms

open Cert.KernelIdeal Cert.KernelIdeal.Gen Idealize.ShloMosaic

variable {F : FTy → Type} [FloatOps F]

/-- The source words with a negative word wrapped by the row count, as an `[E,1]` column. -/
def src (x8 : (⟨S262144, .i32⟩ : BufTy).Contents (Elt F)) : (⟨S262144x1, .i32⟩ : BufTy).Contents (Elt F) :=
  broadcastInDim S262144x1 ![0] bcast_S262144_S262144x1_0
    (select (cmpi .slt x8 (broadcastInDim S262144 ![] bcast_S_S262144 (constantI S_ 32 0#32)))
      (addi x8 (broadcastInDim S262144 ![] bcast_S_S262144 (constantI S_ 32 8192#32))) x8)

/-- `adj · mm0` on 256 feature columns. -/
def v13 (mm0 : (⟨S8192x256, .f32⟩ : BufTy).Contents (Elt F)) (x4 : (⟨S262144, .f32⟩ : BufTy).Contents (Elt F))
    (x7 x8 : (⟨S262144, .i32⟩ : BufTy).Contents (Elt F)) : (⟨S8192x256, .f32⟩ : BufTy).Contents (Elt F) :=
  Host.scatterAdd scatter_S8192x256_S262144x1_S262144x256_1_0_0_1
    (broadcastInDim S8192x256 ![] bcast_S_S8192x256 (constant S_ .f32 0x00000000#32))
    (broadcastInDim S262144x1 ![0] bcast_S262144_S262144x1_0 x7)
    (mulf (broadcastInDim S262144x256 ![0, 1] bcast_S262144x1_S262144x256_0_1 (broadcastInDim S262144x1 ![0] bcast_S262144_S262144x1_0 x4))
      (Host.gather gather_S8192x256_S262144x1_S262144x256_1_0_n_n_0_1_1256 mm0 (src x8)))

/-- The first layer's activations: the rectifier of `adj · mm0`. -/
def v14 (mm0 : (⟨S8192x256, .f32⟩ : BufTy).Contents (Elt F)) (x4 : (⟨S262144, .f32⟩ : BufTy).Contents (Elt F))
    (x7 x8 : (⟨S262144, .i32⟩ : BufTy).Contents (Elt F)) : (⟨S8192x256, .f32⟩ : BufTy).Contents (Elt F) :=
  maximumf (v13 mm0 x4 x7 x8) (broadcastInDim S8192x256 ![] bcast_S_S8192x256 (constant S_ .f32 0x00000000#32))

/-- `[Wm | Ws]`. -/
def v15 (x2 x3 : (⟨S256x64, .f32⟩ : BufTy).Contents (Elt F)) : (⟨S256x128, .f32⟩ : BufTy).Contents (Elt F) :=
  concatenate S256x128 1 [⟨S256x64, x2⟩, ⟨S256x64, x3⟩] concatenates_S256x64_S256x64_S256x128_d1

/-- `adj · mm1` on 128 feature columns. -/
def v29 (mm1 : (⟨S8192x128, .f32⟩ : BufTy).Contents (Elt F)) (x4 : (⟨S262144, .f32⟩ : BufTy).Contents (Elt F))
    (x7 x8 : (⟨S262144, .i32⟩ : BufTy).Contents (Elt F)) : (⟨S8192x128, .f32⟩ : BufTy).Contents (Elt F) :=
  Host.scatterAdd scatter_S8192x128_S262144x1_S262144x128_1_0_0_1
    (broadcastInDim S8192x128 ![] bcast_S_S8192x128 (constant S_ .f32 0x00000000#32))
    (broadcastInDim S262144x1 ![0] bcast_S262144_S262144x1_0 x7)
    (mulf (broadcastInDim S262144x128 ![0, 1] bcast_S262144x1_S262144x128_0_1 (broadcastInDim S262144x1 ![0] bcast_S262144_S262144x1_0 x4))
      (Host.gather gather_S8192x128_S262144x1_S262144x128_1_0_n_n_0_1_1128 mm1 (src x8)))

/-- The mean half: columns 0 … 63 of `adj · mm1`. -/
def v30 (mm1 : (⟨S8192x128, .f32⟩ : BufTy).Contents (Elt F)) (x4 : (⟨S262144, .f32⟩ : BufTy).Contents (Elt F))
    (x7 x8 : (⟨S262144, .i32⟩ : BufTy).Contents (Elt F)) : (⟨S8192x64, .f32⟩ : BufTy).Contents (Elt F) :=
  extractStridedSlice S8192x64 ![0, 0] (v29 mm1 x4 x7 x8) slices_S8192x128_S8192x64_0_0

/-- The log-deviation half: columns 64 … 127 of `adj · mm1`. -/
def v31 (mm1 : (⟨S8192x128, .f32⟩ : BufTy).Contents (Elt F)) (x4 : (⟨S262144, .f32⟩ : BufTy).Contents (Elt F))
    (x7 x8 : (⟨S262144, .i32⟩ : BufTy).Contents (Elt F)) : (⟨S8192x64, .f32⟩ : BufTy).Contents (Elt F) :=
  extractStridedSlice S8192x64 ![0, 64] (v29 mm1 x4 x7 x8) slices_S8192x128_S8192x64_0_64

/-- The sample `Z = mean + eps · exp(logσ)`. -/
def v34 (mean logs x6 : (⟨S8192x64, .f32⟩ : BufTy).Contents (Elt F)) : (⟨S8192x64, .f32⟩ : BufTy).Contents (Elt F) :=
  addf mean (mulf x6 (Host.exp logs))

/-- The loss: the scaled mean of the partial sums plus the scaled Kullback-Leibler term of the two halves. -/
def v53 (partials : (⟨S64x512, .f32⟩ : BufTy).Contents (Elt F)) (mean logs : (⟨S8192x64, .f32⟩ : BufTy).Contents (Elt F)) :
    (⟨S_, .f32⟩ : BufTy).Contents (Elt F) :=
  addf
    (mulf (constant S_ .f32 0x3F008081#32)
      (Host.divf (Host.reduceAdd partials (constant S_ .f32 0x00000000#32) reducesTo_S64x512_S_d0_1 h_S_) (constant S_ .f32 0x4C800000#32)))
    (mulf (constant S_ .f32 0x39000000#32)
      (mulf (constant S_ .f32 0xBF000000#32)
        (Host.divf
          (Host.reduceAdd
            (Host.reduceAdd
              (subf
                (subf (addf (broadcastInDim S8192x64 ![] bcast_S_S8192x64 (constant S_ .f32 0x3F800000#32))
                        (mulf (broadcastInDim S8192x64 ![] bcast_S_S8192x64 (constant S_ .f32 0x40000000#32)) logs))
                  (mulf mean mean))
                (mulf (Host.exp logs) (Host.exp logs)))
              (constant S_ .f32 0x00000000#32) reducesTo_S8192x64_S8192_d1 h_S_)
            (constant S_ .f32 0x00000000#32) reducesTo_S8192_S_d0 h_S_)
          (constant S_ .f32 0x46000000#32))))

end Cert.KernelIdeal.Terms

end
-- ==== Proof.KerValueArgs.lean ====
/-
  The host stretches of the kernel's entry function, read back as pure terms.

  Between the launches the program applies plain array operations to the buffers.  A buffer no operation of a
  stretch writes keeps its contents through the stretch, and a launch leaves every buffer that is not one of its
  arrays as it was; so the arguments are read, at every boundary, as the launch memory holds them.  Each result a
  later launch or the final sum reads is then the term the operations of its stretch build, over the previous
  launch's result and the arguments.
-/
import proofs.«116321_j12163347383058_2_alg».proof.Proof.FrameRun
import proofs.«116321_j12163347383058_2_alg».proof.Proof.KerTerms

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-! ## The arguments at every boundary -/

theorem W1_arg2 (c : Dev nD) : W1 m ρ c (Proc.devRef .tc main_arg2) = (m ((c.tc : Thread nD τ).loc main_arg2)) :=
  (W1_of_ne m ρ c main_arg2 (by decide)).trans rfl
theorem W2_arg2 (c : Dev nD) : W2 m ρ c (Proc.devRef .tc main_arg2) = (m ((c.tc : Thread nD τ).loc main_arg2)) :=
  (StableHlo.after_of_writes_sub hostOps1 _ hostOps1_writes (by decide)).trans (W1_arg2 m ρ c)
theorem W3_arg2 (c : Dev nD) : W3 m ρ c (Proc.devRef .tc main_arg2) = (m ((c.tc : Thread nD τ).loc main_arg2)) :=
  (StableHlo.after_of_writes_sub hostOps1_1 _ hostOps1_1_writes (by decide)).trans (W2_arg2 m ρ c)
theorem W4_arg2 (c : Dev nD) : W4 m ρ c (Proc.devRef .tc main_arg2) = (m ((c.tc : Thread nD τ).loc main_arg2)) :=
  (StableHlo.after_of_writes_sub hostOps1_2 _ hostOps1_2_writes (by decide)).trans (W3_arg2 m ρ c)
theorem W5_arg2 (c : Dev nD) : W5 m ρ c (Proc.devRef .tc main_arg2) = (m ((c.tc : Thread nD τ).loc main_arg2)) :=
  (W5_of_ne m ρ c main_arg2 (by decide)).trans (W4_arg2 m ρ c)
theorem W6_arg2 (c : Dev nD) : W6 m ρ c (Proc.devRef .tc main_arg2) = (m ((c.tc : Thread nD τ).loc main_arg2)) :=
  (StableHlo.after_of_writes_sub hostOps2 _ hostOps2_writes (by decide)).trans (W5_arg2 m ρ c)

theorem W1_arg3 (c : Dev nD) : W1 m ρ c (Proc.devRef .tc main_arg3) = (m ((c.tc : Thread nD τ).loc main_arg3)) :=
  (W1_of_ne m ρ c main_arg3 (by decide)).trans rfl
theorem W2_arg3 (c : Dev nD) : W2 m ρ c (Proc.devRef .tc main_arg3) = (m ((c.tc : Thread nD τ).loc main_arg3)) :=
  (StableHlo.after_of_writes_sub hostOps1 _ hostOps1_writes (by decide)).trans (W1_arg3 m ρ c)
theorem W3_arg3 (c : Dev nD) : W3 m ρ c (Proc.devRef .tc main_arg3) = (m ((c.tc : Thread nD τ).loc main_arg3)) :=
  (StableHlo.after_of_writes_sub hostOps1_1 _ hostOps1_1_writes (by decide)).trans (W2_arg3 m ρ c)
theorem W4_arg3 (c : Dev nD) : W4 m ρ c (Proc.devRef .tc main_arg3) = (m ((c.tc : Thread nD τ).loc main_arg3)) :=
  (StableHlo.after_of_writes_sub hostOps1_2 _ hostOps1_2_writes (by decide)).trans (W3_arg3 m ρ c)
theorem W5_arg3 (c : Dev nD) : W5 m ρ c (Proc.devRef .tc main_arg3) = (m ((c.tc : Thread nD τ).loc main_arg3)) :=
  (W5_of_ne m ρ c main_arg3 (by decide)).trans (W4_arg3 m ρ c)
theorem W6_arg3 (c : Dev nD) : W6 m ρ c (Proc.devRef .tc main_arg3) = (m ((c.tc : Thread nD τ).loc main_arg3)) :=
  (StableHlo.after_of_writes_sub hostOps2 _ hostOps2_writes (by decide)).trans (W5_arg3 m ρ c)

theorem W1_arg4 (c : Dev nD) : W1 m ρ c (Proc.devRef .tc main_arg4) = (m ((c.tc : Thread nD τ).loc main_arg4)) :=
  (W1_of_ne m ρ c main_arg4 (by decide)).trans rfl
theorem W2_arg4 (c : Dev nD) : W2 m ρ c (Proc.devRef .tc main_arg4) = (m ((c.tc : Thread nD τ).loc main_arg4)) :=
  (StableHlo.after_of_writes_sub hostOps1 _ hostOps1_writes (by decide)).trans (W1_arg4 m ρ c)
theorem W3_arg4 (c : Dev nD) : W3 m ρ c (Proc.devRef .tc main_arg4) = (m ((c.tc : Thread nD τ).loc main_arg4)) :=
  (StableHlo.after_of_writes_sub hostOps1_1 _ hostOps1_1_writes (by decide)).trans (W2_arg4 m ρ c)
theorem W4_arg4 (c : Dev nD) : W4 m ρ c (Proc.devRef .tc main_arg4) = (m ((c.tc : Thread nD τ).loc main_arg4)) :=
  (StableHlo.after_of_writes_sub hostOps1_2 _ hostOps1_2_writes (by decide)).trans (W3_arg4 m ρ c)
theorem W5_arg4 (c : Dev nD) : W5 m ρ c (Proc.devRef .tc main_arg4) = (m ((c.tc : Thread nD τ).loc main_arg4)) :=
  (W5_of_ne m ρ c main_arg4 (by decide)).trans (W4_arg4 m ρ c)
theorem W6_arg4 (c : Dev nD) : W6 m ρ c (Proc.devRef .tc main_arg4) = (m ((c.tc : Thread nD τ).loc main_arg4)) :=
  (StableHlo.after_of_writes_sub hostOps2 _ hostOps2_writes (by decide)).trans (W5_arg4 m ρ c)

theorem W1_arg5 (c : Dev nD) : W1 m ρ c (Proc.devRef .tc main_arg5) = (m ((c.tc : Thread nD τ).loc main_arg5)) :=
  (W1_of_ne m ρ c main_arg5 (by decide)).trans rfl
theorem W2_arg5 (c : Dev nD) : W2 m ρ c (Proc.devRef .tc main_arg5) = (m ((c.tc : Thread nD τ).loc main_arg5)) :=
  (StableHlo.after_of_writes_sub hostOps1 _ hostOps1_writes (by decide)).trans (W1_arg5 m ρ c)
theorem W3_arg5 (c : Dev nD) : W3 m ρ c (Proc.devRef .tc main_arg5) = (m ((c.tc : Thread nD τ).loc main_arg5)) :=
  (StableHlo.after_of_writes_sub hostOps1_1 _ hostOps1_1_writes (by decide)).trans (W2_arg5 m ρ c)
theorem W4_arg5 (c : Dev nD) : W4 m ρ c (Proc.devRef .tc main_arg5) = (m ((c.tc : Thread nD τ).loc main_arg5)) :=
  (StableHlo.after_of_writes_sub hostOps1_2 _ hostOps1_2_writes (by decide)).trans (W3_arg5 m ρ c)
theorem W5_arg5 (c : Dev nD) : W5 m ρ c (Proc.devRef .tc main_arg5) = (m ((c.tc : Thread nD τ).loc main_arg5)) :=
  (W5_of_ne m ρ c main_arg5 (by decide)).trans (W4_arg5 m ρ c)
theorem W6_arg5 (c : Dev nD) : W6 m ρ c (Proc.devRef .tc main_arg5) = (m ((c.tc : Thread nD τ).loc main_arg5)) :=
  (StableHlo.after_of_writes_sub hostOps2 _ hostOps2_writes (by decide)).trans (W5_arg5 m ρ c)

theorem W1_arg6 (c : Dev nD) : W1 m ρ c (Proc.devRef .tc main_arg6) = (m ((c.tc : Thread nD τ).loc main_arg6)) :=
  (W1_of_ne m ρ c main_arg6 (by decide)).trans rfl
theorem W2_arg6 (c : Dev nD) : W2 m ρ c (Proc.devRef .tc main_arg6) = (m ((c.tc : Thread nD τ).loc main_arg6)) :=
  (StableHlo.after_of_writes_sub hostOps1 _ hostOps1_writes (by decide)).trans (W1_arg6 m ρ c)
theorem W3_arg6 (c : Dev nD) : W3 m ρ c (Proc.devRef .tc main_arg6) = (m ((c.tc : Thread nD τ).loc main_arg6)) :=
  (StableHlo.after_of_writes_sub hostOps1_1 _ hostOps1_1_writes (by decide)).trans (W2_arg6 m ρ c)
theorem W4_arg6 (c : Dev nD) : W4 m ρ c (Proc.devRef .tc main_arg6) = (m ((c.tc : Thread nD τ).loc main_arg6)) :=
  (StableHlo.after_of_writes_sub hostOps1_2 _ hostOps1_2_writes (by decide)).trans (W3_arg6 m ρ c)
theorem W5_arg6 (c : Dev nD) : W5 m ρ c (Proc.devRef .tc main_arg6) = (m ((c.tc : Thread nD τ).loc main_arg6)) :=
  (W5_of_ne m ρ c main_arg6 (by decide)).trans (W4_arg6 m ρ c)
theorem W6_arg6 (c : Dev nD) : W6 m ρ c (Proc.devRef .tc main_arg6) = (m ((c.tc : Thread nD τ).loc main_arg6)) :=
  (StableHlo.after_of_writes_sub hostOps2 _ hostOps2_writes (by decide)).trans (W5_arg6 m ρ c)

theorem W1_arg7 (c : Dev nD) : W1 m ρ c (Proc.devRef .tc main_arg7) = (m ((c.tc : Thread nD τ).loc main_arg7)) :=
  (W1_of_ne m ρ c main_arg7 (by decide)).trans rfl
theorem W2_arg7 (c : Dev nD) : W2 m ρ c (Proc.devRef .tc main_arg7) = (m ((c.tc : Thread nD τ).loc main_arg7)) :=
  (StableHlo.after_of_writes_sub hostOps1 _ hostOps1_writes (by decide)).trans (W1_arg7 m ρ c)
theorem W3_arg7 (c : Dev nD) : W3 m ρ c (Proc.devRef .tc main_arg7) = (m ((c.tc : Thread nD τ).loc main_arg7)) :=
  (StableHlo.after_of_writes_sub hostOps1_1 _ hostOps1_1_writes (by decide)).trans (W2_arg7 m ρ c)
theorem W4_arg7 (c : Dev nD) : W4 m ρ c (Proc.devRef .tc main_arg7) = (m ((c.tc : Thread nD τ).loc main_arg7)) :=
  (StableHlo.after_of_writes_sub hostOps1_2 _ hostOps1_2_writes (by decide)).trans (W3_arg7 m ρ c)
theorem W5_arg7 (c : Dev nD) : W5 m ρ c (Proc.devRef .tc main_arg7) = (m ((c.tc : Thread nD τ).loc main_arg7)) :=
  (W5_of_ne m ρ c main_arg7 (by decide)).trans (W4_arg7 m ρ c)
theorem W6_arg7 (c : Dev nD) : W6 m ρ c (Proc.devRef .tc main_arg7) = (m ((c.tc : Thread nD τ).loc main_arg7)) :=
  (StableHlo.after_of_writes_sub hostOps2 _ hostOps2_writes (by decide)).trans (W5_arg7 m ρ c)

theorem W1_arg8 (c : Dev nD) : W1 m ρ c (Proc.devRef .tc main_arg8) = (m ((c.tc : Thread nD τ).loc main_arg8)) :=
  (W1_of_ne m ρ c main_arg8 (by decide)).trans rfl
theorem W2_arg8 (c : Dev nD) : W2 m ρ c (Proc.devRef .tc main_arg8) = (m ((c.tc : Thread nD τ).loc main_arg8)) :=
  (StableHlo.after_of_writes_sub hostOps1 _ hostOps1_writes (by decide)).trans (W1_arg8 m ρ c)
theorem W3_arg8 (c : Dev nD) : W3 m ρ c (Proc.devRef .tc main_arg8) = (m ((c.tc : Thread nD τ).loc main_arg8)) :=
  (StableHlo.after_of_writes_sub hostOps1_1 _ hostOps1_1_writes (by decide)).trans (W2_arg8 m ρ c)
theorem W4_arg8 (c : Dev nD) : W4 m ρ c (Proc.devRef .tc main_arg8) = (m ((c.tc : Thread nD τ).loc main_arg8)) :=
  (StableHlo.after_of_writes_sub hostOps1_2 _ hostOps1_2_writes (by decide)).trans (W3_arg8 m ρ c)
theorem W5_arg8 (c : Dev nD) : W5 m ρ c (Proc.devRef .tc main_arg8) = (m ((c.tc : Thread nD τ).loc main_arg8)) :=
  (W5_of_ne m ρ c main_arg8 (by decide)).trans (W4_arg8 m ρ c)
theorem W6_arg8 (c : Dev nD) : W6 m ρ c (Proc.devRef .tc main_arg8) = (m ((c.tc : Thread nD τ).loc main_arg8)) :=
  (StableHlo.after_of_writes_sub hostOps2 _ hostOps2_writes (by decide)).trans (W5_arg8 m ρ c)

end Cert.KernelIdeal.Fr

end
-- ==== Proof.KerValueOps1.lean ====
/-
  The host stretches of the kernel's entry function as functions of the contents they start from.

  A stretch applies its operations in order: the buffer an operation writes then holds the operation's function of
  what its operand buffers held, and every other buffer is as it was.  Read back from the last operation to the
  first, each buffer a later launch or the final sum reads is the term the program's operations build, in its order
  and with its literals, over the contents `V` of the buffers the stretch started from.
-/
import proofs.«116321_j12163347383058_2_alg».proof.Proof.Gen.KernelIdeal.Launch
import proofs.«116321_j12163347383058_2_alg».proof.Proof.KerTerms
import Idealize.ShloMosaic.Lib.StableHlo.Run

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.Sem

variable {F : FTy → Type} [FloatOps F]

/-- The aggregated first product. -/
theorem ops1_v13 (V : Valuation τ sig (Elt F)) :
    StableHlo.after hostOps1 V (Proc.devRef .tc main_v13)
      = Terms.v13 (V (Proc.devRef .tc main_v0)) (V (Proc.devRef .tc main_arg4)) (V (Proc.devRef .tc main_arg7)) (V (Proc.devRef .tc main_arg8)) := by
  after_results_simp
  rfl

/-- The rectifier. -/
theorem ops1_1_v14 (V : Valuation τ sig (Elt F)) :
    StableHlo.after hostOps1_1 V (Proc.devRef .tc main_v14)
      = maximumf (V (Proc.devRef .tc main_v13)) (broadcastInDim S8192x256 ![] bcast_S_S8192x256 (constant S_ .f32 0x00000000#32)) := by
  after_results
  rfl

/-- The concatenated weights. -/
theorem ops1_2_v15 (V : Valuation τ sig (Elt F)) :
    StableHlo.after hostOps1_2 V (Proc.devRef .tc main_v15) = Terms.v15 (V (Proc.devRef .tc main_arg2)) (V (Proc.devRef .tc main_arg3)) := by
  after_results
  rfl

end Cert.KernelIdeal.Fr

end
-- ==== Proof.KerValueOps2.lean ====
/-
  The host stretch between the second and the third launch as a function of the contents it starts from: the
  aggregation of the second product, its mean and log-deviation halves, and the sample.
-/
import proofs.«116321_j12163347383058_2_alg».proof.Proof.Gen.KernelIdeal.Launch
import proofs.«116321_j12163347383058_2_alg».proof.Proof.KerTerms
import Idealize.ShloMosaic.Lib.StableHlo.Run

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.Sem

variable {F : FTy → Type} [FloatOps F]

/-- The mean half. -/
theorem ops2_v30 (V : Valuation τ sig (Elt F)) :
    StableHlo.after hostOps2 V (Proc.devRef .tc main_v30)
      = Terms.v30 (V (Proc.devRef .tc main_v16)) (V (Proc.devRef .tc main_arg4)) (V (Proc.devRef .tc main_arg7)) (V (Proc.devRef .tc main_arg8)) := by
  after_results_simp
  rfl

/-- The log-deviation half. -/
theorem ops2_v31 (V : Valuation τ sig (Elt F)) :
    StableHlo.after hostOps2 V (Proc.devRef .tc main_v31)
      = Terms.v31 (V (Proc.devRef .tc main_v16)) (V (Proc.devRef .tc main_arg4)) (V (Proc.devRef .tc main_arg7)) (V (Proc.devRef .tc main_arg8)) := by
  after_results_simp
  rfl

/-- The sample. -/
theorem ops2_v34 (V : Valuation τ sig (Elt F)) :
    StableHlo.after hostOps2 V (Proc.devRef .tc main_v34)
      = Terms.v34 (Terms.v30 (V (Proc.devRef .tc main_v16)) (V (Proc.devRef .tc main_arg4)) (V (Proc.devRef .tc main_arg7)) (V (Proc.devRef .tc main_arg8)))
          (Terms.v31 (V (Proc.devRef .tc main_v16)) (V (Proc.devRef .tc main_arg4)) (V (Proc.devRef .tc main_arg7)) (V (Proc.devRef .tc main_arg8))) (V (Proc.devRef .tc main_arg6)) := by
  after_results_simp
  rfl

end Cert.KernelIdeal.Fr

end
-- ==== Proof.KerValueOps3.lean ====
/-
  The host stretch after the third launch as a function of the contents it starts from: the loss, from the partial
  sums and the two halves.
-/
import proofs.«116321_j12163347383058_2_alg».proof.Proof.Gen.KernelIdeal.Launch
import proofs.«116321_j12163347383058_2_alg».proof.Proof.KerTerms
import Idealize.ShloMosaic.Lib.StableHlo.Run

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.Sem

variable {F : FTy → Type} [FloatOps F]

/-- The loss. -/
theorem ops3_v53 (V : Valuation τ sig (Elt F)) :
    StableHlo.after hostOps3 V (Proc.devRef .tc main_v53)
      = Terms.v53 (V (Proc.devRef .tc main_v35_1)) (V (Proc.devRef .tc main_v30)) (V (Proc.devRef .tc main_v31)) := by
  after_results_simp
  rfl

end Cert.KernelIdeal.Fr

end
-- ==== Proof.KerValueHost.lean ====
/-
  The results of the host stretches at the boundaries of the run, over the launches' results and the arguments.

  Each stretch's results are its operations' terms over the contents it starts from; the arguments are read, at every
  boundary, as the launch memory holds them, and a launch leaves every buffer that is not one of its arrays as it was.
-/
import proofs.«116321_j12163347383058_2_alg».proof.Proof.KerValueArgs
import proofs.«116321_j12163347383058_2_alg».proof.Proof.KerValueOps1
import proofs.«116321_j12163347383058_2_alg».proof.Proof.KerValueOps2
import proofs.«116321_j12163347383058_2_alg».proof.Proof.KerValueOps3

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-! ## After the first launch -/

theorem W2_v13 (c : Dev nD) :
    W2 m ρ c (Proc.devRef .tc main_v13) = Terms.v13 (W1 m ρ c (Proc.devRef .tc main_v0)) (m ((c.tc : Thread nD τ).loc main_arg4)) (m ((c.tc : Thread nD τ).loc main_arg7)) (m ((c.tc : Thread nD τ).loc main_arg8)) :=
  (ops1_v13 (W1 m ρ c)).trans (by rw [W1_arg4 m ρ c, W1_arg7 m ρ c, W1_arg8 m ρ c])

theorem W4_v14 (c : Dev nD) :
    W4 m ρ c (Proc.devRef .tc main_v14) = Terms.v14 (W1 m ρ c (Proc.devRef .tc main_v0)) (m ((c.tc : Thread nD τ).loc main_arg4)) (m ((c.tc : Thread nD τ).loc main_arg7)) (m ((c.tc : Thread nD τ).loc main_arg8)) :=
  (StableHlo.after_of_writes_sub hostOps1_2 _ hostOps1_2_writes (by decide)).trans
    ((ops1_1_v14 (W2 m ρ c)).trans (congrArg (fun t => maximumf t (broadcastInDim S8192x256 ![] bcast_S_S8192x256 (constant S_ .f32 0x00000000#32))) (W2_v13 m ρ c)))

theorem W4_v15 (c : Dev nD) :
    W4 m ρ c (Proc.devRef .tc main_v15) = Terms.v15 (m ((c.tc : Thread nD τ).loc main_arg2)) (m ((c.tc : Thread nD τ).loc main_arg3)) :=
  (ops1_2_v15 (W3 m ρ c)).trans (by rw [W3_arg2 m ρ c, W3_arg3 m ρ c])

/-! ## After the second launch -/

theorem W6_v30 (c : Dev nD) :
    W6 m ρ c (Proc.devRef .tc main_v30) = Terms.v30 (W5 m ρ c (Proc.devRef .tc main_v16)) (m ((c.tc : Thread nD τ).loc main_arg4)) (m ((c.tc : Thread nD τ).loc main_arg7)) (m ((c.tc : Thread nD τ).loc main_arg8)) :=
  (ops2_v30 (W5 m ρ c)).trans (by rw [W5_arg4 m ρ c, W5_arg7 m ρ c, W5_arg8 m ρ c])

theorem W6_v31 (c : Dev nD) :
    W6 m ρ c (Proc.devRef .tc main_v31) = Terms.v31 (W5 m ρ c (Proc.devRef .tc main_v16)) (m ((c.tc : Thread nD τ).loc main_arg4)) (m ((c.tc : Thread nD τ).loc main_arg7)) (m ((c.tc : Thread nD τ).loc main_arg8)) :=
  (ops2_v31 (W5 m ρ c)).trans (by rw [W5_arg4 m ρ c, W5_arg7 m ρ c, W5_arg8 m ρ c])

theorem W6_v34 (c : Dev nD) :
    W6 m ρ c (Proc.devRef .tc main_v34) = Terms.v34 (W6 m ρ c (Proc.devRef .tc main_v30)) (W6 m ρ c (Proc.devRef .tc main_v31)) (m ((c.tc : Thread nD τ).loc main_arg6)) :=
  (ops2_v34 (W5 m ρ c)).trans (by rw [← ops2_v30 (W5 m ρ c), ← ops2_v31 (W5 m ρ c), W5_arg6 m ρ c])

/-! ## After the third launch -/

theorem W8_v53 (c : Dev nD) :
    W8 m ρ c (Proc.devRef .tc main_v53) = Terms.v53 (W7 m ρ c (Proc.devRef .tc main_v35_1)) (W6 m ρ c (Proc.devRef .tc main_v30)) (W6 m ρ c (Proc.devRef .tc main_v31)) :=
  (ops3_v53 (W7 m ρ c)).trans
    (by rw [W7_of_ne m ρ c main_v30 (by decide) (by decide), W7_of_ne m ρ c main_v31 (by decide) (by decide)])

theorem W8_v35_0 (c : Dev nD) : W8 m ρ c (Proc.devRef .tc main_v35_0) = W7 m ρ c (Proc.devRef .tc main_v35_0) :=
  StableHlo.after_of_writes_sub hostOps3 _ hostOps3_writes (by decide)

end Cert.KernelIdeal.Fr

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibMatmulTransposedRhs.lean ====
/-
  A matrix product whose right operand is contracted on its LAST axis, into a zero accumulator, read at an entry, over
  the extended reals.

  For the dimension numbers `DotDims.transposedRhs M K N` (an `M × K` left operand, an `N × K` right operand, the
  columns of both contracted, no batch axis: the product of the left operand with the right one's transpose) entry
  `(p, q)` of the product accumulated into the zero matrix is `Σ_{k < K} l (p, k) * r (q, k)`: the contraction index
  has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem transposedRhs_lhsIdx (M K N : Nat) (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 p q) _).trans hk

/-- The right operand's index there is `(q, k)`: its row is the output's column. -/
theorem transposedRhs_rhsIdx (M K N : Nat) (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 p q) _).trans hk

/-- ENTRY `(p, q)` OF A PRODUCT WITH THE TRANSPOSE, INTO ZERO: the sum over `k : Fin K` of `l (p, k) * r (q, k)`. -/
theorem matmul_transposedRhs_zero_apply {φ₁ φ₂ : FTy} (M K N : Nat) (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  rw [transposedRhs_lhsIdx, transposedRhs_rhsIdx]

end Cert.Lib

end
-- ==== Proof.BridgeLayersPay.lean ====
/-
  The three matrix products of the kernels' bodies, read at an entry.

  Each body multiplies a block of rows by a whole right operand into a zero accumulator.  Entry `(p, q)` of the
  first two products is `Σ_k a (p, k) * b (k, q)`; the decoder's product contracts the last axis of both operands,
  so its entry `(p, q)` is `Σ_k a (p, k) * b (q, k)`.  A shape cast of a block to its own shape is the identity.
-/
import proofs.«116321_j12163347383058_2_alg».proof.Proof.Gen.KernelIdeal.Skeleton
import proofs.«116321_j12163347383058_2_alg».proof.Proof.LibMatmulPlain
import proofs.«116321_j12163347383058_2_alg».proof.Proof.LibMatmulTransposedRhs
import Idealize.ShloMosaic.Lib.Pipeline.Value

noncomputable section

open scoped BigOperators

namespace Cert.Bridge

open Idealize.ShloMosaic Idealize.ShloMosaic.ValueIdx

/-- Entry `(p, q)` of the first layer's block product: `Σ_k a (p, k) * b (k, q)` over the 512 input features. -/
theorem pay_mm0 (v0 : Vec Ideal Cert.KernelIdeal.S2048x512 .f32) (v1 : Vec Ideal Cert.KernelIdeal.S512x256 .f32)
    (p : Fin 2048) (q : Fin 256) :
    Cert.KernelIdeal.Gen.k0_pay1 (F := Ideal) v0 v1 (ix2 p q) = ∑ k : Fin 512, v0 (ix2 p k) * v1 (ix2 k q) :=
  Cert.Lib.matmul_plain_zero_apply 2048 512 256 (some .fp32) v0 v1 p q

/-- Entry `(p, q)` of the second layer's block product: `Σ_k a (p, k) * b (k, q)` over the 256 hidden features. -/
theorem pay_mm1 (v0 : Vec Ideal Cert.KernelIdeal.S2048x256 .f32) (v2 : Vec Ideal Cert.KernelIdeal.S256x128 .f32)
    (p : Fin 2048) (q : Fin 128) :
    Cert.KernelIdeal.Gen.k1_pay1 (F := Ideal) v0 v2 (ix2 p q) = ∑ k : Fin 256, v0 (ix2 p k) * v2 (ix2 k q) := by
  unfold Cert.KernelIdeal.Gen.k1_pay1
  rw [shapeCast_self, shapeCast_self]
  exact Cert.Lib.matmul_plain_zero_apply 2048 256 128 (some .fp32) v0 v2 p q

/-- Entry `(p, q)` of the decoder's block product: `Σ_k a (p, k) * b (q, k)` over the 64 latent features. -/
theorem pay_dec (v0 : Vec Ideal Cert.KernelIdeal.S1024x64 .f32) (v2 : Vec Ideal Cert.KernelIdeal.S2048x64 .f32)
    (p : Fin 1024) (q : Fin 2048) :
    Cert.KernelIdeal.Gen.k2_pay2 (F := Ideal) v0 v2 (ix2 p q) = ∑ k : Fin 64, v0 (ix2 p k) * v2 (ix2 q k) := by
  unfold Cert.KernelIdeal.Gen.k2_pay2
  rw [shapeCast_self, shapeCast_self]
  exact Cert.Lib.matmul_transposedRhs_zero_apply 1024 64 2048 (some .fp32) v0 v2 p q

end Cert.Bridge

end
-- ==== Proof.LaunchVal0.lean ====
/-
  Launch 0 read as a value: the result array after all write-backs is the matrix product of the two operand arrays.

  At grid point `t` the body multiplies rows `2048 t … 2048 t + 2047` of the left operand by the whole right operand
  and the write-back puts the product in the same rows of the result.  Entry `(p, q)` of a block product is
  `Σ_k a (p, k) * b (k, q)`, which only looks at row `p` of the block, so the block products are the blocks of rows of
  ONE whole-array product; the four blocks of rows cover the result array, so the array ends holding that product.
-/
import proofs.«116321_j12163347383058_2_alg».proof.Proof.FrameR0
import proofs.«116321_j12163347383058_2_alg».proof.Proof.BridgeLayersPay
import Idealize.ShloMosaic.Lib.Pipeline.Value
import Idealize.ShloMosaic.Lib.ValueIdx

noncomputable section

open scoped BigOperators

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Zero offsets, spelt either way. -/
private theorem zero_offsets2 : (![0, 0] : Fin 2 → Nat) = fun _ => 0 := funext fun a => by fin_cases a <;> rfl

/-- The product of the two whole operands, entry by entry. -/
def mm0 (a : S8192x512.Idx → Elt Ideal .f32) (b : S512x256.Idx → Elt Ideal .f32) : S8192x256.Idx → Elt Ideal .f32 :=
  fun i => ∑ k : Fin 512, a (ix2 (i 0) k) * b (ix2 k (i 1))

/-- The printed index maps over the grid: the left operand's and the result's blocks are the rows `t`, the right
    operand's is the whole array. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of 2048 rows starting at row `r * 2048` of the left operand, times the whole right operand, is the same
    rows of the product. -/
theorem block_mm0 (A : S8192x512.Idx → Elt Ideal .f32) (B : S512x256.Idx → Elt Ideal .f32)
    (x0 : Vec Ideal S2048x512 .f32) (x1 : Vec Ideal S512x256 .f32) (r : Nat)
    (h0 : ∀ (y : S2048x512.Idx) (i : S8192x512.Idx), (i 0).val = r * 2048 + (y 0).val → (i 1).val = (y 1).val → x0 y = A i)
    (h1 : ∀ y, x1 y = B y)
    (j : S2048x256.Idx) (i : S8192x256.Idx) (hi0 : (i 0).val = r * 2048 + (j 0).val) (hi1 : (i 1).val = (j 1).val) :
    k0_pay1 (F := Ideal) x0 x1 j = mm0 A B i := by
  obtain ⟨p, q, rfl⟩ : ∃ (p : Fin 2048) (q : Fin 256), j = ix2 p q := ⟨j 0, j 1, eq_ix2 j⟩
  rw [Cert.Bridge.pay_mm0]
  unfold mm0
  refine Finset.sum_congr rfl fun k _ => ?_
  rw [h0 (ix2 p k) (ix2 (i 0) k) hi0 rfl, h1]
  have e : q = i 1 := Fin.ext hi1.symm
  rw [e]

/-- The left operand's block at point `t` is rows `2048 t …` of the array. -/
theorem iblk0_0_apply (c : Dev nD) (t : Fin cfg0.N) (y : S2048x512.Idx) (i : S8192x512.Idx)
    (h0 : (i 0).val = t.val * 2048 + (y 0).val) (h1 : (i 1).val = (y 1).val) :
    (iblk0 V c 0 t : Vec Ideal S2048x512 .f32) y = (V c main_arg0 : S8192x512.Idx → Elt Ideal .f32) i := by
  obtain ⟨e0, e1, -⟩ := index_maps0 t
  unfold iblk0
  rw [View.read_apply]
  show V c main_arg0 _ = V c main_arg0 _
  congr 1
  funext a
  apply Fin.ext
  match a with
  | ⟨0, _⟩ => show win0_0.index t (0 : Fin 2) * 2048 + 1 * (y 0).val = (i 0).val; rw [e0, h0]; omega
  | ⟨1, _⟩ => show win0_0.index t (1 : Fin 2) * 512 + 1 * (y 1).val = (i 1).val; rw [e1, h1]; omega

/-- The right operand's block at any point is the whole array. -/
theorem iblk0_1_apply (c : Dev nD) (t : Fin cfg0.N) (y : S512x256.Idx) :
    (iblk0 V c 1 t : Vec Ideal S512x256 .f32) y = (V c main_arg1 : S512x256.Idx → Elt Ideal .f32) y := by
  obtain ⟨-, -, e2, e3, -⟩ := index_maps0 t
  unfold iblk0
  rw [View.read_apply]
  show V c main_arg1 _ = V c main_arg1 _
  congr 1
  funext a
  apply Fin.ext
  match a with
  | ⟨0, _⟩ => show win0_1.index t (0 : Fin 2) * 512 + 1 * (y 0).val = (y 0).val; rw [e2]; omega
  | ⟨1, _⟩ => show win0_1.index t (1 : Fin 2) * 256 + 1 * (y 1).val = (y 1).val; rw [e3]; omega

/-- What point `t` writes back is block `t` of the product of the arrays as the launch finds them. -/
theorem flushed0_eq (c : Dev nD) (t : Fin cfg0.N) :
    (dat0 (F := Ideal) V c).flushed 2 t = ((cfg0.win 2).blk t).view.read (Elt Ideal) (mm0 (V c main_arg0) (V c main_arg1)) := by
  show (cfg0.win 2).cut (grid0.coords t) ((dat0 V c).after 2 t) = _
  rw [after0_2]
  unfold out0_2
  rw [View.canon_unit_zero zero_offsets2]
  simp only [View.ld_unit_zero (S := S2048x512) zero_offsets2, View.ld_unit_zero (S := S512x256) zero_offsets2]
  obtain ⟨-, -, -, -, e4, e5⟩ := index_maps0 t
  funext j
  show k0_pay1 (iblk0 V c 0 t) (iblk0 V c 1 t) j = mm0 (V c main_arg0) (V c main_arg1) (((cfg0.win 2).blk t).view.emb j)
  refine block_mm0 _ _ _ _ t.val (fun y i h0 h1 => iblk0_0_apply V c t y i h0 h1) (fun y => iblk0_1_apply V c t y) j _ ?_ ?_
  · show win0_2.index t (0 : Fin 2) * 2048 + 1 * (j 0).val = t.val * 2048 + (j 0).val
    rw [e4]; omega
  · show win0_2.index t (1 : Fin 2) * 256 + 1 * (j 1).val = (j 1).val
    rw [e5]; omega

/-- An index of the result array is in point `t`'s block iff each coordinate is in the block's range on its axis. -/
theorem mem_blk0 (t : Fin cfg0.N) (i : S8192x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v0).slice (win0_2.rect t)).set ↔ _
  rw [View.set_slice_whole, Rect.mem_set_unit]
  exact Iff.rfl

/-- Every entry of the result is in the block of the point its row names: row `r` is in block `r / 2048`. -/
theorem cover0 (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 4 := N_0
  refine ⟨⟨(i 0).val / 2048, by rw [hN]; omega⟩, flush0_2 _, ?_⟩
  rw [mem_blk0]
  obtain ⟨-, -, -, -, e4, e5⟩ := index_maps0 ⟨(i 0).val / 2048, by rw [hN]; omega⟩
  intro a
  match a with
  | ⟨0, _⟩ =>
    show win0_2.index _ (0 : Fin 2) * 2048 ≤ (i 0).val ∧ (i 0).val < win0_2.index _ (0 : Fin 2) * 2048 + 2048
    rw [e4]; show (i 0).val / 2048 * 2048 ≤ (i 0).val ∧ (i 0).val < (i 0).val / 2048 * 2048 + 2048; omega
  | ⟨1, _⟩ =>
    show win0_2.index _ (1 : Fin 2) * 256 ≤ (i 1).val ∧ (i 1).val < win0_2.index _ (1 : Fin 2) * 256 + 256
    rw [e5]; omega

/-- The result array after the launch is the product of the two operand arrays as the launch finds them. -/
theorem mm0_array (c : Dev nD) : (dat0 (F := Ideal) V c).arrAt 2 cfg0.N = mm0 (V c main_arg0) (V c main_arg1) :=
  (dat0 V c).arrAt_eq_of_cover 2 _ (fun t _ => flushed0_eq V c t) cover0

/-- The product at an entry: `Σ_k a (p, k) * b (k, q)` over the 512 input features. -/
theorem mm0_apply (a : S8192x512.Idx → Elt Ideal .f32) (b : S512x256.Idx → Elt Ideal .f32) (p : Fin 8192) (q : Fin 256) :
    mm0 a b (ix2 p q) = ∑ k : Fin 512, a (ix2 p k) * b (ix2 k q) := rfl

/-- Entry `(p, q)` of the result array after the launch. -/
theorem mm0_val (c : Dev nD) (p : Fin 8192) (q : Fin 256) :
    (dat0 (F := Ideal) V c).arrAt 2 cfg0.N (ix2 p q) = mm0 (V c main_arg0) (V c main_arg1) (ix2 p q) := by
  rw [mm0_array]

end Cert.KernelIdeal.Fr

end
-- ==== Proof.LaunchVal1.lean ====
/-
  Launch 1 read as a value: the result array after all write-backs is the matrix product of the two operand arrays.

  At grid point `t` the body multiplies rows `2048 t … 2048 t + 2047` of the left operand by the whole right operand
  and the write-back puts the product in the same rows of the result.  Entry `(p, q)` of a block product is
  `Σ_k a (p, k) * b (k, q)`, which only looks at row `p` of the block, so the block products are the blocks of rows of
  ONE whole-array product; the four blocks of rows cover the result array, so the array ends holding that product.
-/
import proofs.«116321_j12163347383058_2_alg».proof.Proof.FrameR1
import proofs.«116321_j12163347383058_2_alg».proof.Proof.BridgeLayersPay
import Idealize.ShloMosaic.Lib.Pipeline.Value
import Idealize.ShloMosaic.Lib.ValueIdx

noncomputable section

open scoped BigOperators

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Zero offsets, spelt either way. -/
private theorem zero_offsets2 : (![0, 0] : Fin 2 → Nat) = fun _ => 0 := funext fun a => by fin_cases a <;> rfl

/-- The product of the two whole operands, entry by entry. -/
def mm1 (a : S8192x256.Idx → Elt Ideal .f32) (b : S256x128.Idx → Elt Ideal .f32) : S8192x128.Idx → Elt Ideal .f32 :=
  fun i => ∑ k : Fin 256, a (ix2 (i 0) k) * b (ix2 k (i 1))

/-- The printed index maps over the grid: the left operand's and the result's blocks are the rows `t`, the right
    operand's is the whole array. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A block of 2048 rows starting at row `r * 2048` of the left operand, times the whole right operand, is the same
    rows of the product. -/
theorem block_mm1 (A : S8192x256.Idx → Elt Ideal .f32) (B : S256x128.Idx → Elt Ideal .f32)
    (x0 : Vec Ideal S2048x256 .f32) (x1 : Vec Ideal S256x128 .f32) (r : Nat)
    (h0 : ∀ (y : S2048x256.Idx) (i : S8192x256.Idx), (i 0).val = r * 2048 + (y 0).val → (i 1).val = (y 1).val → x0 y = A i)
    (h1 : ∀ y, x1 y = B y)
    (j : S2048x128.Idx) (i : S8192x128.Idx) (hi0 : (i 0).val = r * 2048 + (j 0).val) (hi1 : (i 1).val = (j 1).val) :
    k1_pay1 (F := Ideal) x0 x1 j = mm1 A B i := by
  obtain ⟨p, q, rfl⟩ : ∃ (p : Fin 2048) (q : Fin 128), j = ix2 p q := ⟨j 0, j 1, eq_ix2 j⟩
  rw [Cert.Bridge.pay_mm1]
  unfold mm1
  refine Finset.sum_congr rfl fun k _ => ?_
  rw [h0 (ix2 p k) (ix2 (i 0) k) hi0 rfl, h1]
  have e : q = i 1 := Fin.ext hi1.symm
  rw [e]

/-- The left operand's block at point `t` is rows `2048 t …` of the array. -/
theorem iblk1_0_apply (c : Dev nD) (t : Fin cfg1.N) (y : S2048x256.Idx) (i : S8192x256.Idx)
    (h0 : (i 0).val = t.val * 2048 + (y 0).val) (h1 : (i 1).val = (y 1).val) :
    (iblk1 V c 0 t : Vec Ideal S2048x256 .f32) y = (V c main_v14 : S8192x256.Idx → Elt Ideal .f32) i := by
  obtain ⟨e0, e1, -⟩ := index_maps1 t
  unfold iblk1
  rw [View.read_apply]
  show V c main_v14 _ = V c main_v14 _
  congr 1
  funext a
  apply Fin.ext
  match a with
  | ⟨0, _⟩ => show win1_0.index t (0 : Fin 2) * 2048 + 1 * (y 0).val = (i 0).val; rw [e0, h0]; omega
  | ⟨1, _⟩ => show win1_0.index t (1 : Fin 2) * 256 + 1 * (y 1).val = (i 1).val; rw [e1, h1]; omega

/-- The right operand's block at any point is the whole array. -/
theorem iblk1_1_apply (c : Dev nD) (t : Fin cfg1.N) (y : S256x128.Idx) :
    (iblk1 V c 1 t : Vec Ideal S256x128 .f32) y = (V c main_v15 : S256x128.Idx → Elt Ideal .f32) y := by
  obtain ⟨-, -, e2, e3, -⟩ := index_maps1 t
  unfold iblk1
  rw [View.read_apply]
  show V c main_v15 _ = V c main_v15 _
  congr 1
  funext a
  apply Fin.ext
  match a with
  | ⟨0, _⟩ => show win1_1.index t (0 : Fin 2) * 256 + 1 * (y 0).val = (y 0).val; rw [e2]; omega
  | ⟨1, _⟩ => show win1_1.index t (1 : Fin 2) * 128 + 1 * (y 1).val = (y 1).val; rw [e3]; omega

/-- What point `t` writes back is block `t` of the product of the arrays as the launch finds them. -/
theorem flushed1_eq (c : Dev nD) (t : Fin cfg1.N) :
    (dat1 (F := Ideal) V c).flushed 2 t = ((cfg1.win 2).blk t).view.read (Elt Ideal) (mm1 (V c main_v14) (V c main_v15)) := by
  show (cfg1.win 2).cut (grid1.coords t) ((dat1 V c).after 2 t) = _
  rw [after1_2]
  unfold out1_2
  rw [View.canon_unit_zero zero_offsets2]
  simp only [View.ld_unit_zero (S := S2048x256) zero_offsets2, View.ld_unit_zero (S := S256x128) zero_offsets2]
  obtain ⟨-, -, -, -, e4, e5⟩ := index_maps1 t
  funext j
  show k1_pay1 (iblk1 V c 0 t) (iblk1 V c 1 t) j = mm1 (V c main_v14) (V c main_v15) (((cfg1.win 2).blk t).view.emb j)
  refine block_mm1 _ _ _ _ t.val (fun y i h0 h1 => iblk1_0_apply V c t y i h0 h1) (fun y => iblk1_1_apply V c t y) j _ ?_ ?_
  · show win1_2.index t (0 : Fin 2) * 2048 + 1 * (j 0).val = t.val * 2048 + (j 0).val
    rw [e4]; omega
  · show win1_2.index t (1 : Fin 2) * 128 + 1 * (j 1).val = (j 1).val
    rw [e5]; omega

/-- An index of the result array is in point `t`'s block iff each coordinate is in the block's range on its axis. -/
theorem mem_blk1 (t : Fin cfg1.N) (i : S8192x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v16).slice (win1_2.rect t)).set ↔ _
  rw [View.set_slice_whole, Rect.mem_set_unit]
  exact Iff.rfl

/-- Every entry of the result is in the block of the point its row names: row `r` is in block `r / 2048`. -/
theorem cover1 (i : S8192x128.Idx) :
    ∃ t : Fin cfg1.N, (cfg1.win 2).flush t = true ∧ i ∈ ((cfg1.win 2).blk t).view.set := by
  have hi0 : (i 0).val < 8192 := (i 0).isLt
  have hi1 : (i 1).val < 128 := (i 1).isLt
  have hN : cfg1.N = 4 := N_1
  refine ⟨⟨(i 0).val / 2048, by rw [hN]; omega⟩, flush1_2 _, ?_⟩
  rw [mem_blk1]
  obtain ⟨-, -, -, -, e4, e5⟩ := index_maps1 ⟨(i 0).val / 2048, by rw [hN]; omega⟩
  intro a
  match a with
  | ⟨0, _⟩ =>
    show win1_2.index _ (0 : Fin 2) * 2048 ≤ (i 0).val ∧ (i 0).val < win1_2.index _ (0 : Fin 2) * 2048 + 2048
    rw [e4]; show (i 0).val / 2048 * 2048 ≤ (i 0).val ∧ (i 0).val < (i 0).val / 2048 * 2048 + 2048; omega
  | ⟨1, _⟩ =>
    show win1_2.index _ (1 : Fin 2) * 128 ≤ (i 1).val ∧ (i 1).val < win1_2.index _ (1 : Fin 2) * 128 + 128
    rw [e5]; omega

/-- The result array after the launch is the product of the two operand arrays as the launch finds them. -/
theorem mm1_array (c : Dev nD) : (dat1 (F := Ideal) V c).arrAt 2 cfg1.N = mm1 (V c main_v14) (V c main_v15) :=
  (dat1 V c).arrAt_eq_of_cover 2 _ (fun t _ => flushed1_eq V c t) cover1

/-- The product at an entry: `Σ_k a (p, k) * b (k, q)` over the 256 hidden features. -/
theorem mm1_apply (a : S8192x256.Idx → Elt Ideal .f32) (b : S256x128.Idx → Elt Ideal .f32) (p : Fin 8192) (q : Fin 128) :
    mm1 a b (ix2 p q) = ∑ k : Fin 256, a (ix2 p k) * b (ix2 k q) := rfl

/-- Entry `(p, q)` of the result array after the launch. -/
theorem mm1_val (c : Dev nD) (p : Fin 8192) (q : Fin 128) :
    (dat1 (F := Ideal) V c).arrAt 2 cfg1.N (ix2 p q) = mm1 (V c main_v14) (V c main_v15) (ix2 p q) := by
  rw [mm1_array]

end Cert.KernelIdeal.Fr

end
-- ==== Proof.LibDotGeneralPlain.lean ====
/-
  A host `dot_general` with the plain dimension numbers, read at an entry, over the extended reals.

  For `DotDims.plain M K N` (an `M × K` left operand, a `K × N` right operand, the left one's columns contracted with
  the right one's rows, no batch axis) entry `(p, q)` of the host's product is `Σ_{k < K} l (p, k) * r (k, q)`, whatever
  the precision attribute: the contraction index has one coordinate, which runs over `Fin K`.
-/
import Idealize.ShloMosaic.PureOps.Ideal.Laws
import Idealize.ShloMosaic.Lib.ValueIdx
import proofs.«116321_j12163347383058_2_alg».proof.Proof.LibMatmulPlain

noncomputable section

open scoped BigOperators

namespace Cert.Lib

open Idealize.ShloMosaic Idealize.ShloMosaic.ValueIdx

/-- ENTRY `(p, q)` OF A PLAIN HOST PRODUCT: the sum over `k : Fin K` of `l (p, k) * r (k, q)`. -/
theorem dotGeneral_plain_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.Lib

end
-- ==== Proof.BridgeLayers1.lean ====
/-
  The first layer: the first launch's product is the reference's, and the aggregation and rectifier that follow it
  are the same operations on both sides.

  Entry `(p, q)` of the reference's `X · W1` is `Σ_k X (p, k) * W1 (k, q)`, which is what the launch's result is assumed
  to hold entry by entry.  The sparse aggregation and the rectifier after it are written with the same operations,
  in the same order, over the same shape records on both sides, so once the products agree the activations agree.
-/
import proofs.«116321_j12163347383058_2_alg».proof.Proof.KerTerms
import proofs.«116321_j12163347383058_2_alg».proof.Proof.Gen.ReferenceIdeal.Read
import proofs.«116321_j12163347383058_2_alg».proof.Proof.LibDotGeneralPlain

noncomputable section

open scoped BigOperators

namespace Cert.Bridge

open Idealize.ShloMosaic Idealize.ShloMosaic.ValueIdx

/-- A matrix holding `Σ_k X (p, k) * W1 (k, q)` at every entry is the reference's first product. -/
theorem mm0_eq (x0 : (⟨Cert.KernelIdeal.S8192x512, .f32⟩ : BufTy).Contents (Elt Ideal))
    (x1 : (⟨Cert.KernelIdeal.S512x256, .f32⟩ : BufTy).Contents (Elt Ideal))
    (mm0 : (⟨Cert.KernelIdeal.S8192x256, .f32⟩ : BufTy).Contents (Elt Ideal))
    (h0 : ∀ (p : Fin 8192) (q : Fin 256), mm0 (ix2 p q) = ∑ k : Fin 512, x0 (ix2 p k) * x1 (ix2 k q)) :
    mm0 = Cert.ReferenceIdeal.Read.val_main_v0 (F := Ideal) x0 x1 := by
  funext j
  obtain ⟨p, q, rfl⟩ : ∃ (p : Fin 8192) (q : Fin 256), j = ix2 p q := ⟨j 0, j 1, eq_ix2 j⟩
  rw [h0]
  exact (Cert.Lib.dotGeneral_plain_apply 8192 512 256 none x0 x1 p q).symm

/-- The first layer's activations over the reference's product are the reference's activations: the same
    gather, scaling, scatter-add and rectifier, term by term. -/
theorem v14_eq (x0 : (⟨Cert.KernelIdeal.S8192x512, .f32⟩ : BufTy).Contents (Elt Ideal))
    (x1 : (⟨Cert.KernelIdeal.S512x256, .f32⟩ : BufTy).Contents (Elt Ideal))
    (x4 : (⟨Cert.KernelIdeal.S262144, .f32⟩ : BufTy).Contents (Elt Ideal))
    (x7 x8 : (⟨Cert.KernelIdeal.S262144, .i32⟩ : BufTy).Contents (Elt Ideal)) :
    Cert.KernelIdeal.Terms.v14 (F := Ideal) (Cert.ReferenceIdeal.Read.val_main_v0 (F := Ideal) x0 x1) x4 x7 x8
      = Cert.ReferenceIdeal.Read.val_main_v14 (F := Ideal) x0 x1 x4 x7 x8 := rfl

end Cert.Bridge

end
-- ==== Proof.LibRowGather.lean ====
import Idealize.ShloMosaic.Lib.ValueIdx

/-!
# A gather of whole rows, read at an index

`stablehlo.gather` with offset axes the result's trailing ones, collapsed slice axis `[0]`, start index map `[0]`,
index vector axis `1` and slice sizes one row: what `x[idx]` lowers to for an operand `x : [N, C]` (or
`[N, H, D]`) and a column `idx : [E, 1]` of row numbers. StableHLO's operand index is, axis by axis, the clamped
start plus the batching coordinate plus the offset coordinate. Here there is no batching axis; on axis 0 (named by the
start index map, collapsed) the start is the word `idx[e, 0]` read as a signed integer, taken as a natural number
(a negative one is `0`) and clamped to `N − 1` so that the one-row slice fits, and the offset coordinate is `0`;
on every other axis (not named by the start index map, kept) the start is `0` and the offset coordinate is the
result's own coordinate on that axis. So result entry `(e, c)` is `x (min idx[e, 0] (N − 1), c)`:
`gather_rows2_apply` for a rank-2 operand, `gather_rows3_apply` for a rank-3 one. The rank-1 case (no kept axis) is
the library's `gather_take_apply`.
-/

noncomputable section
open scoped BigOperators
open Idealize.ShloMosaic Idealize.ShloMosaic.ValueIdx

namespace Cert.Lib
variable {α : Type}

/-- The dimension numbers of a row gather: operand `[N, C]`, start indices `[E, 1]`, result `[E, C]`. Axis 0 of the operand
    is collapsed and is the one the start index names; axis 1 is kept whole (slice sizes `[1, C]`) and becomes the
    result's offset axis 1; the result's axis 0 runs over the start indices. The conditions `wf` are decided on a
    program's literal shapes. -/
abbrev rowGather2 (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`, rank 2: the operand's entry in column `c` of the row the start index `idx[e, 0]`
    names — read signed, as a natural number, clamped into `[0, N − 1]`. On axis 0 the operand index is the clamped
    start alone (no batching axis; the axis is collapsed, so no offset); on axis 1 it is the offset coordinate `c` alone
    (the start index map does not name the axis, so the start is `0`). -/
theorem gather_rows2_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather2 N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather2 N E C wf).start (ix2 e c) idx 0 + (rowGather2 N E C wf).batchCoord (ix2 e c) 0
      + (rowGather2 N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2 N E C wf).startIndexMap from List.mem_singleton.mpr rfl)]
    have hsi : (rowGather2 N E C wf).siIdx (ix2 e c) ⟨List.idxOf (0 : Fin 2) (rowGather2 N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather2 N E C wf).start (ix2 e c) idx 1 + (rowGather2 N E C wf).batchCoord (ix2 e c) 1
      + (rowGather2 N E C wf).offCoord (ix2 e c) 1 = c.val
    rw [GatherDims.batchCoord_eq_zero _ _ _ List.not_mem_nil]
    unfold GatherDims.start
    have h10 : (1 : Fin 2) ∉ ([0] : List (Fin 2)) := by decide
    rw [dif_neg (show ¬ (1 : Fin 2) ∈ (rowGather2 N E C wf).startIndexMap from h10)]
    unfold GatherDims.offCoord
    rw [dif_pos (show (1 : Fin 2) ∈ (rowGather2 N E C wf).sKept from
      (GatherDims.mem_sKept _ _).mpr ⟨h10, List.not_mem_nil⟩)]
    simp only [Nat.add_zero, Nat.zero_add]
    rfl

/-- The dimension numbers of a row gather of a rank-3 operand: operand `[N, H, D]`, start indices `[E, 1]`, result
    `[E, H, D]`. Axis 0 of the operand is collapsed and is the one the start index names; axes 1 and 2 are kept whole
    (slice sizes `[1, H, D]`) and become the result's offset axes 1 and 2. -/
abbrev rowGather3 (N E H D : Nat)
    (wf : GatherDims.WF ⟨3, ![N, H, D]⟩ ⟨2, ![E, 1]⟩ ⟨3, ![E, H, D]⟩ [1, 2] [0] [] [0] [] 1 ![1, H, D]) :
    GatherDims ⟨3, ![N, H, D]⟩ ⟨2, ![E, 1]⟩ ⟨3, ![E, H, D]⟩ where
  offsetDims := [1, 2]
  collapsedSliceDims := [0]
  operandBatchingDims := []
  startIndicesBatchingDims := []
  startIndexMap := [0]
  indexVectorDim := 1
  sliceSizes := ![1, H, D]
  wf := wf

/-- THE ROW GATHER READ AT `(e, h, d)`, rank 3: the operand's entry `(h, d)` of the row the start index `idx[e, 0]`
    names — read signed, as a natural number, clamped into `[0, N − 1]`. Axis 0 as in the rank-2 case; on axes 1 and 2
    the start is `0` and the offset coordinate is the result's coordinate on the offset axis in the same position. -/
theorem gather_rows3_apply {N E H D w : Nat} (hN : 0 < N)
    (wf : GatherDims.WF ⟨3, ![N, H, D]⟩ ⟨2, ![E, 1]⟩ ⟨3, ![E, H, D]⟩ [1, 2] [0] [] [0] [] 1 ![1, H, D])
    (x : (⟨3, ![N, H, D]⟩ : Shape).Idx → α) (idx : IVec ⟨2, ![E, 1]⟩ w) (e : Fin E) (h : Fin H) (d : Fin D) :
    Host.gather (rowGather3 N E H D wf) x idx (ix3 e h d)
      = x (ix3 (⟨min (idx (ix2 e (0 : Fin 1))).toInt.toNat (N - 1), by omega⟩ : Fin N) h d) := by
  unfold Host.gather
  congr 1
  funext a
  refine Fin.ext ?_
  have h10 : (1 : Fin 3) ∉ ([0] : List (Fin 3)) := by decide
  have h20 : (2 : Fin 3) ∉ ([0] : List (Fin 3)) := by decide
  match a with
  | ⟨0, _⟩ =>
    show (rowGather3 N E H D wf).start (ix3 e h d) idx 0 + (rowGather3 N E H D wf).batchCoord (ix3 e h d) 0
      + (rowGather3 N E H D wf).offCoord (ix3 e h d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowGather3 N E H D wf).startIndexMap from List.mem_singleton.mpr rfl)]
    have hsi : (rowGather3 N E H D wf).siIdx (ix3 e h d)
        ⟨List.idxOf (0 : Fin 3) (rowGather3 N E H D wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather3 N E H D wf).start (ix3 e h d) idx 1 + (rowGather3 N E H D wf).batchCoord (ix3 e h d) 1
      + (rowGather3 N E H D wf).offCoord (ix3 e h d) 1 = h.val
    rw [GatherDims.batchCoord_eq_zero _ _ _ List.not_mem_nil]
    unfold GatherDims.start
    rw [dif_neg (show ¬ (1 : Fin 3) ∈ (rowGather3 N E H D wf).startIndexMap from h10)]
    unfold GatherDims.offCoord
    rw [dif_pos (show (1 : Fin 3) ∈ (rowGather3 N E H D wf).sKept from
      (GatherDims.mem_sKept _ _).mpr ⟨h10, List.not_mem_nil⟩)]
    simp only [Nat.add_zero, Nat.zero_add]
    rfl
  | ⟨2, _⟩ =>
    show (rowGather3 N E H D wf).start (ix3 e h d) idx 2 + (rowGather3 N E H D wf).batchCoord (ix3 e h d) 2
      + (rowGather3 N E H D wf).offCoord (ix3 e h d) 2 = d.val
    rw [GatherDims.batchCoord_eq_zero _ _ _ List.not_mem_nil]
    unfold GatherDims.start
    rw [dif_neg (show ¬ (2 : Fin 3) ∈ (rowGather3 N E H D wf).startIndexMap from h20)]
    unfold GatherDims.offCoord
    rw [dif_pos (show (2 : Fin 3) ∈ (rowGather3 N E H D wf).sKept from
      (GatherDims.mem_sKept _ _).mpr ⟨h20, List.not_mem_nil⟩)]
    simp only [Nat.add_zero, Nat.zero_add]
    rfl

end Cert.Lib
end
-- ==== Proof.LibRowScatterAdd.lean ====
import Idealize.ShloMosaic.Lib.ValueIdx
import Idealize.ShloMosaic.PureOps.Ideal

/-!
# Accumulating scatters of whole rows, entry by entry, over the extended reals

An accumulating scatter adds every entry of an update array into the operand entry it lands at. Here the update array
is a stack of rows, `[E, C]` (resp. `[E, H, D]`), the operand is `[N, C]` (resp. `[N, H, D]`), and an `[E, 1]`
array of integer words says, for each update row `e`, which operand row it is added into: update entry `(e, c)` lands
at `(w e, c)`, where `w e` is the word of row `e` read as a SIGNED integer and NOT clamped. An update row whose word is
negative or at least `N` lands nowhere and contributes nothing.

Over the extended reals the order of the additions does not matter, so entry `(n, c)` of the result is

  `x (n, c) + Σ_{e : w e = n} upd (e, c)`,

written below as a sum over all update rows of an `if`. The proof has two steps: the landing index of an update entry
is computed axis by axis (start of the window plus coordinate inside the window), which says exactly when it equals a
given operand index; then the sum over the update entries that land there is split into the sum over the coordinates,
and the sums over the trailing coordinates collapse to the one term whose coordinates agree.
-/

noncomputable section
open scoped BigOperators
open Idealize.ShloMosaic Idealize.ShloMosaic.ValueIdx

namespace Cert.Lib

/-! ## Rank 2: operand `[N, C]`, words `[E, 1]`, updates `[E, C]` -/

/-- dimension numbers of an accumulating row scatter: operand [N, C], scatter indices [E, 1], updates [E, C]: the
    updates' axis 1 is the window axis, the operand's axis 0 is inserted and is the one the index words name. -/
abbrev rowScatter2 (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section R2
variable {N E C w : Nat}
  (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update entry `(e, c')` starts at the word of update row `e`, read signed. -/
theorem rowScatter2_start0 :
    (rowScatter2 N E C wf).start (ix2 e c') idx 0 = (idx (ix2 e (0 : Fin 1))).toInt := by
  unfold ScatterDims.start
  rw [dif_pos (show (0 : Fin 2) ∈ (rowScatter2 N E C wf).scatterDimsToOperandDims from List.mem_singleton.mpr rfl)]
  have hsi : (rowScatter2 N E C wf).siIdx (ix2 e c') ⟨List.idxOf (0 : Fin 2) (rowScatter2 N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis every window starts at `0`: the index words name rows only. -/
theorem rowScatter2_start1 :
    (rowScatter2 N E C wf).start (ix2 e c') idx 1 = 0 := by
  unfold ScatterDims.start
  rw [dif_neg]
  intro h
  exact absurd (congrArg Fin.val (List.mem_singleton.mp h)) Nat.one_ne_zero

/-- The row axis is inserted: an update entry has window coordinate `0` there. -/
theorem rowScatter2_window0 :
    (rowScatter2 N E C wf).window (ix2 e c') 0 = 0 := by
  unfold ScatterDims.window
  rw [dif_neg]
  intro h
  have := (List.mem_filter.mp h).2
  simp at this

/-- On the column axis the window coordinate of update entry `(e, c')` is its own column `c'`. -/
theorem rowScatter2_window1 :
    (rowScatter2 N E C wf).window (ix2 e c') 1 = c'.val := by
  unfold ScatterDims.window
  rw [dif_pos (show (1 : Fin 2) ∈ (rowScatter2 N E C wf).sKept from
    List.mem_filter.mpr ⟨List.mem_finRange _, by simp⟩)]
  rfl

/-- WHERE AN UPDATE ENTRY LANDS: entry `(e, c')` lands at `(n, c)` exactly when the word of row `e`, read signed, is `n`
    and the columns agree. A word outside `[0, N)` lands nowhere, so it satisfies neither side for any `n`. -/
theorem rowScatter2_resultIdx_iff (n : Fin N) (c : Fin C) :
    (rowScatter2 N E C wf).resultIdx? (ix2 e c') idx = some (ix2 n c)
      ↔ (idx (ix2 e (0 : Fin 1))).toInt = (n.val : ℤ) ∧ c' = c := by
  have s0 := rowScatter2_start0 wf idx e c'
  have s1 := rowScatter2_start1 wf idx e c'
  have w0 := rowScatter2_window0 wf e c'
  have w1 := rowScatter2_window1 wf e c'
  unfold ScatterDims.resultIdx?
  split_ifs with h
  · rw [Option.some.injEq]
    constructor
    · intro heq
      have h0 : ((rowScatter2 N E C wf).start (ix2 e c') idx 0 + (rowScatter2 N E C wf).window (ix2 e c') 0).toNat = n.val :=
        congrArg Fin.val (congrFun heq 0)
      have h1 : ((rowScatter2 N E C wf).start (ix2 e c') idx 1 + (rowScatter2 N E C wf).window (ix2 e c') 1).toNat = c.val :=
        congrArg Fin.val (congrFun heq 1)
      have p0 := (h 0).1
      rw [s0, w0] at h0 p0
      rw [s1, w1] at h1
      refine ⟨by omega, Fin.ext (by omega)⟩
    · rintro ⟨hn, hc⟩
      funext a; refine Fin.ext ?_
      match a with
      | ⟨0, _⟩ =>
        show ((rowScatter2 N E C wf).start (ix2 e c') idx 0 + (rowScatter2 N E C wf).window (ix2 e c') 0).toNat = n.val
        rw [s0, w0]; omega
      | ⟨1, _⟩ =>
        show ((rowScatter2 N E C wf).start (ix2 e c') idx 1 + (rowScatter2 N E C wf).window (ix2 e c') 1).toNat = c.val
        rw [s1, w1, hc]; omega
  · constructor
    · intro heq; exact absurd heq (by simp)
    · rintro ⟨hn, hc⟩
      refine absurd ?_ h
      intro a
      match a with
      | ⟨0, _⟩ =>
        show 0 ≤ (rowScatter2 N E C wf).start (ix2 e c') idx 0 + (rowScatter2 N E C wf).window (ix2 e c') 0
          ∧ (rowScatter2 N E C wf).start (ix2 e c') idx 0 + (rowScatter2 N E C wf).window (ix2 e c') 0 < (N : ℤ)
        rw [s0, w0]; have := n.isLt; omega
      | ⟨1, _⟩ =>
        show 0 ≤ (rowScatter2 N E C wf).start (ix2 e c') idx 1 + (rowScatter2 N E C wf).window (ix2 e c') 1
          ∧ (rowScatter2 N E C wf).start (ix2 e c') idx 1 + (rowScatter2 N E C wf).window (ix2 e c') 1 < (C : ℤ)
        rw [s1, w1]; have := c'.isLt; omega

end R2

/-- THE ROW SCATTER AT `(n, c)`, rank 2: the operand's entry plus the sum, over the update rows `e` whose word read
    signed equals `n`, of `upd (e, c)`. The sum over all update entries that land at `(n, c)` is split by coordinates
    and the column coordinate is fixed to `c` by the characterisation above. -/
theorem scatterAdd_rows2_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (rowScatter2 N E C wf) x idx upd (ix2 n c)
      = x (ix2 n c) + ∑ e : Fin E, if (idx (ix2 e (0 : Fin 1))).toInt = (n.val : ℤ) then upd (ix2 e c) else 0 := by
  show x (ix2 n c) + ∑ j ∈ Finset.univ.filter (fun j => (rowScatter2 N E C wf).resultIdx? j idx = some (ix2 n c)), upd j = _
  congr 1
  rw [Finset.sum_filter, sum_idx2]
  refine Finset.sum_congr rfl fun e _ => ?_
  have hinner : ∀ c' : Fin C,
      (if (rowScatter2 N E C wf).resultIdx? (ix2 e c') idx = some (ix2 n c) then upd (ix2 e c') else 0)
        = if c' = c then (if (idx (ix2 e (0 : Fin 1))).toInt = (n.val : ℤ) then upd (ix2 e c) else 0) else 0 := by
    intro c'
    by_cases hc : c' = c
    · subst hc
      rw [if_pos rfl]
      exact if_congr ((rowScatter2_resultIdx_iff wf idx e c' n c').trans (and_iff_left rfl)) rfl rfl
    · rw [if_neg hc, if_neg]
      intro hr
      exact hc ((rowScatter2_resultIdx_iff wf idx e c' n c).mp hr).2
  rw [Finset.sum_congr rfl fun c' _ => hinner c', Finset.sum_ite_eq' Finset.univ c]
  rw [if_pos (Finset.mem_univ c)]

/-! ## Rank 3: operand `[N, H, D]`, words `[E, 1]`, updates `[E, H, D]` -/

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- dimension numbers of an accumulating row scatter: operand [N, H, D], scatter indices [E, 1], updates [E, H, D]: the
    updates' axes 1 and 2 are the window axes, the operand's axis 0 is inserted and is the one the index words name. -/
abbrev rowScatter3 (N E H D : Nat)
    (wf : ScatterDims.WF ⟨3, ![N, H, D]⟩ ⟨2, ![E, 1]⟩ ⟨3, ![E, H, D]⟩ [1, 2] [0] [0] 1) :
    ScatterDims ⟨3, ![N, H, D]⟩ ⟨2, ![E, 1]⟩ ⟨3, ![E, H, D]⟩ where
  updateWindowDims := [1, 2]
  insertedWindowDims := [0]
  scatterDimsToOperandDims := [0]
  indexVectorDim := 1
  wf := wf

section R3
variable {N E H D w : Nat}
  (wf : ScatterDims.WF ⟨3, ![N, H, D]⟩ ⟨2, ![E, 1]⟩ ⟨3, ![E, H, D]⟩ [1, 2] [0] [0] 1)
  (idx : IVec ⟨2, ![E, 1]⟩ w) (e : Fin E) (h' : Fin H) (d' : Fin D)

/-- On the row axis the window of update entry `(e, h', d')` starts at the word of update row `e`, read signed. -/
theorem rowScatter3_start0 :
    (rowScatter3 N E H D wf).start (ix3 e h' d') idx 0 = (idx (ix2 e (0 : Fin 1))).toInt := by
  unfold ScatterDims.start
  rw [dif_pos (show (0 : Fin 3) ∈ (rowScatter3 N E H D wf).scatterDimsToOperandDims from List.mem_singleton.mpr rfl)]
  have hsi : (rowScatter3 N E H D wf).siIdx (ix3 e h' d') ⟨List.idxOf (0 : Fin 3) (rowScatter3 N E H D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the second axis every window starts at `0`. -/
theorem rowScatter3_start1 :
    (rowScatter3 N E H D wf).start (ix3 e h' d') idx 1 = 0 := by
  unfold ScatterDims.start
  rw [dif_neg]
  intro hm
  exact absurd (congrArg Fin.val (List.mem_singleton.mp hm)) Nat.one_ne_zero

/-- On the third axis every window starts at `0`. -/
theorem rowScatter3_start2 :
    (rowScatter3 N E H D wf).start (ix3 e h' d') idx 2 = 0 := by
  unfold ScatterDims.start
  rw [dif_neg]
  intro hm
  exact absurd (congrArg Fin.val (List.mem_singleton.mp hm)) (by norm_num)

/-- The row axis is inserted: an update entry has window coordinate `0` there. -/
theorem rowScatter3_window0 :
    (rowScatter3 N E H D wf).window (ix3 e h' d') 0 = 0 := by
  unfold ScatterDims.window
  rw [dif_neg]
  intro hm
  have := (List.mem_filter.mp hm).2
  simp at this

/-- On the second axis the window coordinate of update entry `(e, h', d')` is `h'`. -/
theorem rowScatter3_window1 :
    (rowScatter3 N E H D wf).window (ix3 e h' d') 1 = h'.val := by
  unfold ScatterDims.window
  rw [dif_pos (show (1 : Fin 3) ∈ (rowScatter3 N E H D wf).sKept from
    List.mem_filter.mpr ⟨List.mem_finRange _, by simp⟩)]
  rfl

/-- On the third axis the window coordinate of update entry `(e, h', d')` is `d'`. -/
theorem rowScatter3_window2 :
    (rowScatter3 N E H D wf).window (ix3 e h' d') 2 = d'.val := by
  unfold ScatterDims.window
  rw [dif_pos (show (2 : Fin 3) ∈ (rowScatter3 N E H D wf).sKept from
    List.mem_filter.mpr ⟨List.mem_finRange _, by simp⟩)]
  rfl

/-- WHERE AN UPDATE ENTRY LANDS: entry `(e, h', d')` lands at `(n, h, d)` exactly when the word of row `e`, read signed,
    is `n` and the two trailing coordinates agree. A word outside `[0, N)` lands nowhere. -/
theorem rowScatter3_resultIdx_iff (n : Fin N) (h : Fin H) (d : Fin D) :
    (rowScatter3 N E H D wf).resultIdx? (ix3 e h' d') idx = some (ix3 n h d)
      ↔ (idx (ix2 e (0 : Fin 1))).toInt = (n.val : ℤ) ∧ h' = h ∧ d' = d := by
  have s0 := rowScatter3_start0 wf idx e h' d'
  have s1 := rowScatter3_start1 wf idx e h' d'
  have s2 := rowScatter3_start2 wf idx e h' d'
  have w0 := rowScatter3_window0 wf e h' d'
  have w1 := rowScatter3_window1 wf e h' d'
  have w2 := rowScatter3_window2 wf e h' d'
  unfold ScatterDims.resultIdx?
  split_ifs with hb
  · rw [Option.some.injEq]
    constructor
    · intro heq
      have h0 : ((rowScatter3 N E H D wf).start (ix3 e h' d') idx 0 + (rowScatter3 N E H D wf).window (ix3 e h' d') 0).toNat = n.val :=
        congrArg Fin.val (congrFun heq 0)
      have h1 : ((rowScatter3 N E H D wf).start (ix3 e h' d') idx 1 + (rowScatter3 N E H D wf).window (ix3 e h' d') 1).toNat = h.val :=
        congrArg Fin.val (congrFun heq 1)
      have h2 : ((rowScatter3 N E H D wf).start (ix3 e h' d') idx 2 + (rowScatter3 N E H D wf).window (ix3 e h' d') 2).toNat = d.val :=
        congrArg Fin.val (congrFun heq 2)
      have p0 := (hb 0).1
      rw [s0, w0] at h0 p0
      rw [s1, w1] at h1
      rw [s2, w2] at h2
      refine ⟨by omega, Fin.ext (by omega), Fin.ext (by omega)⟩
    · rintro ⟨hn, hh, hd⟩
      funext a; refine Fin.ext ?_
      match a with
      | ⟨0, _⟩ =>
        show ((rowScatter3 N E H D wf).start (ix3 e h' d') idx 0 + (rowScatter3 N E H D wf).window (ix3 e h' d') 0).toNat = n.val
        rw [s0, w0]; omega
      | ⟨1, _⟩ =>
        show ((rowScatter3 N E H D wf).start (ix3 e h' d') idx 1 + (rowScatter3 N E H D wf).window (ix3 e h' d') 1).toNat = h.val
        rw [s1, w1, hh]; omega
      | ⟨2, _⟩ =>
        show ((rowScatter3 N E H D wf).start (ix3 e h' d') idx 2 + (rowScatter3 N E H D wf).window (ix3 e h' d') 2).toNat = d.val
        rw [s2, w2, hd]; omega
  · constructor
    · intro heq; exact absurd heq (by simp)
    · rintro ⟨hn, hh, hd⟩
      refine absurd ?_ hb
      intro a
      match a with
      | ⟨0, _⟩ =>
        show 0 ≤ (rowScatter3 N E H D wf).start (ix3 e h' d') idx 0 + (rowScatter3 N E H D wf).window (ix3 e h' d') 0
          ∧ (rowScatter3 N E H D wf).start (ix3 e h' d') idx 0 + (rowScatter3 N E H D wf).window (ix3 e h' d') 0 < (N : ℤ)
        rw [s0, w0]; have := n.isLt; omega
      | ⟨1, _⟩ =>
        show 0 ≤ (rowScatter3 N E H D wf).start (ix3 e h' d') idx 1 + (rowScatter3 N E H D wf).window (ix3 e h' d') 1
          ∧ (rowScatter3 N E H D wf).start (ix3 e h' d') idx 1 + (rowScatter3 N E H D wf).window (ix3 e h' d') 1 < (H : ℤ)
        rw [s1, w1]; have := h'.isLt; omega
      | ⟨2, _⟩ =>
        show 0 ≤ (rowScatter3 N E H D wf).start (ix3 e h' d') idx 2 + (rowScatter3 N E H D wf).window (ix3 e h' d') 2
          ∧ (rowScatter3 N E H D wf).start (ix3 e h' d') idx 2 + (rowScatter3 N E H D wf).window (ix3 e h' d') 2 < (D : ℤ)
        rw [s2, w2]; have := d'.isLt; omega

end R3

/-- THE ROW SCATTER AT `(n, h, d)`, rank 3: the operand's entry plus the sum, over the update rows `e` whose word read
    signed equals `n`, of `upd (e, h, d)`. -/
theorem scatterAdd_rows3_apply {N E H D w : Nat} {φ : FTy}
    (wf : ScatterDims.WF ⟨3, ![N, H, D]⟩ ⟨2, ![E, 1]⟩ ⟨3, ![E, H, D]⟩ [1, 2] [0] [0] 1)
    (x : FVec Ideal ⟨3, ![N, H, D]⟩ φ) (idx : IVec ⟨2, ![E, 1]⟩ w) (upd : FVec Ideal ⟨3, ![E, H, D]⟩ φ)
    (n : Fin N) (h : Fin H) (d : Fin D) :
    Host.scatterAdd (rowScatter3 N E H D wf) x idx upd (ix3 n h d)
      = x (ix3 n h d) + ∑ e : Fin E, if (idx (ix2 e (0 : Fin 1))).toInt = (n.val : ℤ) then upd (ix3 e h d) else 0 := by
  show x (ix3 n h d) + ∑ j ∈ Finset.univ.filter (fun j => (rowScatter3 N E H D wf).resultIdx? j idx = some (ix3 n h d)), upd j = _
  congr 1
  rw [Finset.sum_filter, sum_idx3]
  refine Finset.sum_congr rfl fun e _ => ?_
  have hinner : ∀ (h' : Fin H) (d' : Fin D),
      (if (rowScatter3 N E H D wf).resultIdx? (ix3 e h' d') idx = some (ix3 n h d) then upd (ix3 e h' d') else 0)
        = if d' = d then (if h' = h then (if (idx (ix2 e (0 : Fin 1))).toInt = (n.val : ℤ) then upd (ix3 e h d) else 0) else 0) else 0 := by
    intro h' d'
    by_cases hd : d' = d
    · subst hd
      rw [if_pos rfl]
      by_cases hh : h' = h
      · subst hh
        rw [if_pos rfl]
        exact if_congr ((rowScatter3_resultIdx_iff wf idx e h' d' n h' d').trans
          ((and_congr_right_iff.mpr fun _ => and_iff_left rfl).trans (and_iff_left rfl))) rfl rfl
      · rw [if_neg hh, if_neg]
        intro hr
        exact hh ((rowScatter3_resultIdx_iff wf idx e h' d' n h d').mp hr).2.1
    · rw [if_neg hd, if_neg]
      intro hr
      exact hd ((rowScatter3_resultIdx_iff wf idx e h' d' n h d).mp hr).2.2
  have hrow : ∀ h' : Fin H,
      (∑ d' : Fin D, if (rowScatter3 N E H D wf).resultIdx? (ix3 e h' d') idx = some (ix3 n h d) then upd (ix3 e h' d') else 0)
        = if h' = h then (if (idx (ix2 e (0 : Fin 1))).toInt = (n.val : ℤ) then upd (ix3 e h d) else 0) else 0 := by
    intro h'
    rw [Finset.sum_congr rfl fun d' _ => hinner h' d', Finset.sum_ite_eq' Finset.univ d, if_pos (Finset.mem_univ d)]
  rw [Finset.sum_congr rfl fun h' _ => hrow h', Finset.sum_ite_eq' Finset.univ h, if_pos (Finset.mem_univ h)]

end Cert.Lib

end
-- ==== Proof.LibHostKeptAxis.lean ====
/-
  A reduced axis kept as a unit axis, and a unit axis spread back, by `broadcast_in_dim`: read at an entry.

  A reduction along the last axis of an `[B, C]` (or `[B, P, C]`) array leaves an `[B]` (or `[B, P]`) array; keeping the
  axis views it as `[B, 1]` (or `[B, P, 1]`), every axis mapped to itself, and spreading it back repeats it along the
  last axis. Read at an entry:
    * `[B] → [B, 1]` at `(b, u)` is the operand at `b`;           `[B, 1] → [B, C]` at `(b, c)` is the operand at `(b, 0)`;
    * `[B, P] → [B, P, 1]` at `(b, p, u)` is the operand at `(b, p)`; `[B, P, 1] → [B, P, C]` at `(b, p, c)` is the operand
      at `(b, p, 0)`.
-/
import Idealize.ShloMosaic.Lib.Pipeline.Value
import Idealize.ShloMosaic.Lib.ValueIdx

noncomputable section

namespace Cert.Lib

open Idealize.ShloMosaic Idealize.ShloMosaic.ValueIdx

variable {α : Type}

/-- A `[B]` array viewed as `[B, 1]` reads, at `(b, u)`, the operand at `b`. -/
theorem broadcastInDim_a_a1_apply {B : ℕ} (x : (⟨1, ![B]⟩ : Shape).Idx → α)
    (h : (⟨1, ![B]⟩ : Shape).BroadcastsInDim ⟨2, ![B, 1]⟩ (![0] : Fin 1 → Fin (⟨2, ![B, 1]⟩ : Shape).rank))
    (b : Fin B) (u : Fin 1) : broadcastInDim ⟨2, ![B, 1]⟩ ![0] h x (ix2 b u) = x (ix1 b) := by
  refine broadcastInDim_apply _ h x (ix2 b u) (ix1 b) fun ax => ?_
  match ax with
  | ⟨0, _⟩ =>
    show b.val = if B = 1 then 0 else b.val
    split
    · have := b.isLt; omega
    · rfl

/-- A `[B, 1]` column spread to `[B, C]` reads, at `(b, c)`, the column at `(b, 0)`. -/
theorem broadcastInDim_a1_ab_apply {B C : ℕ} (x : (⟨2, ![B, 1]⟩ : Shape).Idx → α)
    (h : (⟨2, ![B, 1]⟩ : Shape).BroadcastsInDim ⟨2, ![B, C]⟩ (![0, 1] : Fin 2 → Fin (⟨2, ![B, C]⟩ : Shape).rank))
    (b : Fin B) (c : Fin C) : broadcastInDim ⟨2, ![B, C]⟩ ![0, 1] h x (ix2 b c) = x (ix2 b (0 : Fin 1)) := by
  refine broadcastInDim_apply _ h x (ix2 b c) (ix2 b (0 : Fin 1)) fun ax => ?_
  match ax with
  | ⟨0, _⟩ =>
    show b.val = if B = 1 then 0 else b.val
    split
    · have := b.isLt; omega
    · rfl
  | ⟨1, _⟩ =>
    show 0 = if (1 : ℕ) = 1 then 0 else c.val
    rw [if_pos rfl]

/-- A `[B, P]` array viewed as `[B, P, 1]` reads, at `(b, p, u)`, the operand at `(b, p)`. -/
theorem broadcastInDim_ab_ab1_apply {B P : ℕ} (x : (⟨2, ![B, P]⟩ : Shape).Idx → α)
    (h : (⟨2, ![B, P]⟩ : Shape).BroadcastsInDim ⟨3, ![B, P, 1]⟩ (![0, 1] : Fin 2 → Fin (⟨3, ![B, P, 1]⟩ : Shape).rank))
    (b : Fin B) (p : Fin P) (u : Fin 1) : broadcastInDim ⟨3, ![B, P, 1]⟩ ![0, 1] h x (ix3 b p u) = x (ix2 b p) := by
  refine broadcastInDim_apply _ h x (ix3 b p u) (ix2 b p) fun ax => ?_
  match ax with
  | ⟨0, _⟩ =>
    show b.val = if B = 1 then 0 else b.val
    split
    · have := b.isLt; omega
    · rfl
  | ⟨1, _⟩ =>
    show p.val = if P = 1 then 0 else p.val
    split
    · have := p.isLt; omega
    · rfl

/-- A `[B, P, 1]` array spread to `[B, P, C]` reads, at `(b, p, c)`, the operand at `(b, p, 0)`. -/
theorem broadcastInDim_ab1_abc_apply {B P C : ℕ} (x : (⟨3, ![B, P, 1]⟩ : Shape).Idx → α)
    (h : (⟨3, ![B, P, 1]⟩ : Shape).BroadcastsInDim ⟨3, ![B, P, C]⟩ (![0, 1, 2] : Fin 3 → Fin (⟨3, ![B, P, C]⟩ : Shape).rank))
    (b : Fin B) (p : Fin P) (c : Fin C) :
    broadcastInDim ⟨3, ![B, P, C]⟩ ![0, 1, 2] h x (ix3 b p c) = x (ix3 b p (0 : Fin 1)) := by
  refine broadcastInDim_apply _ h x (ix3 b p c) (ix3 b p (0 : Fin 1)) fun ax => ?_
  match ax with
  | ⟨0, _⟩ =>
    show b.val = if B = 1 then 0 else b.val
    split
    · have := b.isLt; omega
    · rfl
  | ⟨1, _⟩ =>
    show p.val = if P = 1 then 0 else p.val
    split
    · have := p.isLt; omega
    · rfl
  | ⟨2, _⟩ =>
    show 0 = if (1 : ℕ) = 1 then 0 else c.val
    rw [if_pos rfl]

end Cert.Lib

end
-- ==== Proof.LibThreePasses.lean ====
/-
  Real-valued arrays over the extended reals, and a matrix product computed in three passes from split operands.

  An array of extended reals is REAL-VALUED when no entry is an infinity. Such arrays are closed under sums, products,
  maxima and finite sums, and a real-valued entry minus itself is zero — which an infinite entry's is not.

  A product of two matrices is sometimes computed from operands split as `x = hi + lo`: the three passes
  `hi·hi' + hi·lo' + lo·hi'`, the second-order pass `lo·lo'` left out. When the split is exact on one side — `hi = x`,
  `lo = x - x` — and both operands are real-valued, `lo` is the zero matrix, the two mixed passes vanish, and the three
  passes together are the one product `x·x'`, whatever the contraction's dimension numbers.
-/
import Idealize.ShloMosaic.PureOps.Ideal.Laws
import Idealize.ShloMosaic.Lib.ValueIdx

noncomputable section

open scoped BigOperators

namespace Cert.Lib

open Idealize.ShloMosaic Idealize.ShloMosaic.ValueIdx

/-- No entry of the array is an infinity. -/
def RealValued {ι : Type} (x : ι → EReal) : Prop := ∀ i, ∃ r : ℝ, x i = (r : EReal)

/-- An extended real that is a real number. -/
def IsReal (x : EReal) : Prop := ∃ r : ℝ, x = (r : EReal)

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem isReal_sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-- A real number minus itself is zero (an infinity minus itself is not). -/
theorem IsReal.sub_self {x : EReal} (hx : IsReal x) : x - x = 0 := by
  obtain ⟨a, rfl⟩ := hx
  rw [← EReal.coe_sub, _root_.sub_self, EReal.coe_zero]

/-- A product of real-valued operands into a zero accumulator is real-valued: each entry is a finite sum of products. -/
theorem realValued_matmul {sl sr so : Shape} {φ₁ φ₂ : FTy} (d : DotDims sl sr so) (prec : Option ContractPrecision)
    (a : FVec Ideal sl φ₁) (b : FVec Ideal sr φ₂) (ha : RealValued a) (hb : RealValued b) :
    RealValued (matmul d prec a b (constant so .f32 0x00000000#32)) := fun j => by
  simp only [matmul]
  rw [Ideal.matmul_constant_zero_apply]
  exact isReal_sum _ _ fun k _ => IsReal.mul (ha _) (hb _)

/-- THE THREE PASSES ARE ONE PRODUCT. For real-valued operands `a`, `b` of any contraction `d`, the product of `a` and
    `b`, plus the product of `a` and `b - b`, plus the product of `a - a` and `b`, each into a zero accumulator and with
    any change of float format on the way in, is the product of `a` and `b`: `b - b` and `a - a` are zero matrices. -/
theorem matmul_three_passes {sl sr so : Shape} (d : DotDims sl sr so) (prec : Option ContractPrecision)
    (a : FVec Ideal sl .f32) (b : FVec Ideal sr .f32) (ha : RealValued a) (hb : RealValued b)
    (hφ : FTy.bf16.bits < FTy.f32.bits) :
    addf (addf (matmul d prec (truncf .bf16 a hφ) (truncf .bf16 b hφ) (constant so .f32 0x00000000#32))
               (matmul d prec (truncf .bf16 a hφ) (truncf .bf16 (subf b b) hφ) (constant so .f32 0x00000000#32)))
         (matmul d prec (truncf .bf16 (subf a a) hφ) (truncf .bf16 b hφ) (constant so .f32 0x00000000#32))
      = matmul d prec a b (constant so .f32 0x00000000#32) := by
  funext j
  rw [addf_apply, addf_apply]
  simp only [matmul]
  rw [Ideal.matmul_constant_zero_apply, Ideal.matmul_constant_zero_apply, Ideal.matmul_constant_zero_apply,
    Ideal.matmul_constant_zero_apply]
  have h2 : (∑ k : d.contr.Idx, (truncf .bf16 a hφ : FVec Ideal sl .bf16) (d.lhsIdx j k)
      * (truncf .bf16 (subf b b) hφ : FVec Ideal sr .bf16) (d.rhsIdx j k)) = 0 :=
    Finset.sum_eq_zero fun k _ => by
      rw [truncf_apply, truncf_apply, subf_apply, IsReal.sub_self (hb _), mul_zero]
  have h3 : (∑ k : d.contr.Idx, (truncf .bf16 (subf a a) hφ : FVec Ideal sl .bf16) (d.lhsIdx j k)
      * (truncf .bf16 b hφ : FVec Ideal sr .bf16) (d.rhsIdx j k)) = 0 :=
    Finset.sum_eq_zero fun k _ => by
      rw [truncf_apply, truncf_apply, subf_apply, IsReal.sub_self (ha _), zero_mul]
  rw [h2, h3, add_zero, add_zero]
  exact Finset.sum_congr rfl fun k _ => by rw [truncf_apply, truncf_apply]

end Cert.Lib

end
-- ==== Proof.LibTotalSum.lean ====
/-
  Totals. A sum over every index of an array survives the operations that only regroup it: a reduction by
  addition along any axes (each source index lands in exactly one fibre), a change of shape (a bijection of
  index sets), and the reading of a one-element array at its only index. Beside these, the one arithmetic
  fact about counting: a wrapping 32-bit sum of zero-or-one words, over fewer than 2^31 indices, read as a
  signed integer, is the number of ones — so it is the sum of the words read one at a time.
-/
import Idealize.ShloMosaic.PureOps.Ideal.Laws
import Idealize.ShloMosaic.PureOps.Reduce
import Idealize.ShloMosaic.Lib.ValueIdx

noncomputable section

namespace TotalSum

open Idealize.ShloMosaic

/-- The real-to-extended-real inclusion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A reduction by addition keeps the total: summing the reduced array over its indices is summing the
    source over its own, because the fibres of the index projection partition the source's indices. -/
theorem sum_reduceAdd {s t : Shape} {axes : List (Fin s.rank)} (h : s.Reduces axes t) (x : s.Idx → EReal) :
    ∑ j : t.Idx, Ideal.reduceAdd h x j = ∑ i : s.Idx, x i := by
  unfold Ideal.reduceAdd
  exact Finset.sum_fiberwise Finset.univ (fun i => h.drop i) x

/-- The same for the vector reduction as a kernel body prints it, read at the exact instance. -/
theorem sum_multiReduction_add {φ : FTy} {s t : Shape} {axes : List (Fin s.rank)} (src : FVec Ideal s φ)
    (acc : BitVec φ.bits) (h : s.Reduces axes t) (hφ : FKind.Formats φ) (hacc : acc = FKind.add.neutral φ hφ) :
    ∑ j : t.Idx, multiReduction .add axes t src acc h hφ hacc j = ∑ i : s.Idx, src i :=
  sum_reduceAdd h src

/-- The same with the accumulator spelt as a kernel body prints it: the 32-bit zero word, known to be itself. -/
theorem sum_multiReduction_add_zero {s t : Shape} {axes : List (Fin s.rank)} (src : FVec Ideal s .f32)
    (h : s.Reduces axes t) (hacc : (0x00000000#32 : BitVec 32) = 0x00000000#32) :
    ∑ j : t.Idx, multiReduction .add axes t src 0x00000000#32 h (.inl rfl) hacc j = ∑ i : s.Idx, src i :=
  sum_reduceAdd h src

/-- A change of shape keeps the total: it reads the source through a bijection of the index sets. -/
theorem sum_shapeCast {M : Type} [AddCommMonoid M] {s t : Shape} (x : s.Idx → M) (h : s.ShapeCasts t) :
    ∑ j : t.Idx, shapeCast t x h j = ∑ i : s.Idx, x i := by
  unfold shapeCast
  exact Equiv.sum_comp (Shape.reshapeEquiv h) x

/-- Summing `g` of two arrays read through the same change of shape is summing `g` of the arrays. -/
theorem sum_shapeCast₂ {M : Type} [AddCommMonoid M] {α : Type} {s t : Shape} (x y : s.Idx → α) (h : s.ShapeCasts t)
    (g : α → α → M) :
    ∑ j : t.Idx, g (shapeCast t x h j) (shapeCast t y h j) = ∑ i : s.Idx, g (x i) (y i) := by
  unfold shapeCast
  exact Equiv.sum_comp (Shape.reshapeEquiv h) fun i => g (x i) (y i)

/-- An array with one index is, at that index, its own total. -/
theorem eq_sum_of_subsingleton {M : Type*} [AddCommMonoid M] {ι : Type*} [Fintype ι] [Subsingleton ι] (w : ι → M) (i : ι) :
    w i = ∑ j : ι, w j :=
  (Fintype.sum_subsingleton w i).symm

/-- The number of indices of a shape is its number of elements. -/
theorem card_idx (s : Shape) : Fintype.card s.Idx = s.numel := by
  rw [Fintype.card_congr s.rowMajor, Fintype.card_fin]

/-! ## Counting ones in 32-bit words -/

/-- The unsigned value of a wrapping sum of words is the sum of their unsigned values, modulo 2^32. -/
theorem toNat_fold_add {ι : Type*} (s : Finset ι) (f : ι → BitVec 32) :
    (s.fold IntOp.addi 0#32 f).toNat = (∑ i ∈ s, (f i).toNat) % 2 ^ 32 := by
  classical
  induction s using Finset.induction_on with
  | empty => simp
  | insert a s ha ih =>
    rw [Finset.fold_insert ha, Finset.sum_insert ha]
    show (f a + s.fold IntOp.addi 0#32 f).toNat = _
    rw [BitVec.toNat_add, ih]
    omega

/-- A one-bit word widened to 32 bits is 0 or 1, whether read unsigned or signed. -/
theorem toNat_setWidth_le_one (b : BitVec 1) : (b.setWidth 32).toNat ≤ 1 := by
  have := b.isLt
  rw [BitVec.toNat_setWidth]
  have : b.toNat < 2 := by simpa using b.isLt
  omega

theorem toInt_setWidth_eq (b : BitVec 1) : ((b.setWidth 32).toInt : ℝ) = ((b.setWidth 32).toNat : ℝ) := by
  have h := toNat_setWidth_le_one b
  rw [BitVec.toInt_eq_toNat_of_lt (by omega)]
  exact Int.cast_natCast _

/-- COUNTING. Over fewer than 2^31 indices, the wrapping 32-bit sum of widened one-bit words, read as a signed
    integer and then as a real, is the sum of the words each read that way: the true count never reaches the
    sign bit, so nothing wraps. -/
theorem toInt_fold_add_bits {ι : Type*} [Fintype ι] (hcard : Fintype.card ι < 2 ^ 31) (b : ι → BitVec 1) :
    (((Finset.univ.fold IntOp.addi 0#32 fun i => (b i).setWidth 32).toInt : ℝ) : EReal)
      = ∑ i : ι, ((((b i).setWidth 32).toInt : ℝ) : EReal) := by
  have hle : ∑ i : ι, ((b i).setWidth 32).toNat ≤ Fintype.card ι := by
    calc ∑ i : ι, ((b i).setWidth 32).toNat ≤ ∑ _i : ι, 1 := Finset.sum_le_sum fun i _ => toNat_setWidth_le_one (b i)
      _ = Fintype.card ι := by simp
  have hN : (Finset.univ.fold IntOp.addi 0#32 fun i => (b i).setWidth 32).toNat = ∑ i : ι, ((b i).setWidth 32).toNat := by
    rw [toNat_fold_add]
    exact Nat.mod_eq_of_lt (by omega)
  rw [BitVec.toInt_eq_toNat_of_lt (by rw [hN]; omega), hN, ← coe_sum]
  congr 1
  rw [Int.cast_natCast, Nat.cast_sum]
  exact Finset.sum_congr rfl fun i _ => (toInt_setWidth_eq (b i)).symm

end TotalSum

end
-- ==== Proof.LibPropagate.lean ====
import Idealize.ShloMosaic.Lib.ValueIdx
import Idealize.ShloMosaic.PureOps.Ideal
import Idealize.ShloMosaic.PureOps.Ideal.Laws
import proofs.«116321_j12163347383058_2_alg».proof.Proof.LibRowGather
import proofs.«116321_j12163347383058_2_alg».proof.Proof.LibRowScatterAdd
import proofs.«116321_j12163347383058_2_alg».proof.Proof.LibHostKeptAxis
import proofs.«116321_j12163347383058_2_alg».proof.Proof.LibThreePasses
import proofs.«116321_j12163347383058_2_alg».proof.Proof.LibTotalSum

/-!
# One hop of a weighted graph propagation, entry by entry, over the extended reals

A hop sends a node-feature matrix `h : [N, C]` to the matrix whose row `n` is the sum, over the edges `e` whose
target word is `n`, of the source row of `e` (the source word clamped into `[0, N − 1]`) scaled by the edge's weight.
-/

noncomputable section
open scoped BigOperators
open Idealize.ShloMosaic Idealize.ShloMosaic.ValueIdx

namespace Cert.Lib

/-- The node whose row edge `e` reads: its source word read signed, as a natural number, clamped to `N − 1`. -/
def srcRow {N E : Nat} (hN : 0 < N) (rowI : IVec ⟨2, ![E, 1]⟩ 32) (e : Fin E) : Fin N :=
  ⟨min (rowI (ix2 e (0 : Fin 1))).toInt.toNat (N - 1), by omega⟩

/-- One hop as the host computes it: gather the source rows, scale row `e` by the weight of edge `e` (kept as a column
    and spread along the features), and add each scaled row into the row its target word names, starting from zero. -/
def hop {N E C : Nat}
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (hz : (⟨0, ![]⟩ : Shape).BroadcastsInDim ⟨2, ![N, C]⟩ (![] : Fin 0 → Fin (⟨2, ![N, C]⟩ : Shape).rank))
    (hb1 : (⟨1, ![E]⟩ : Shape).BroadcastsInDim ⟨2, ![E, 1]⟩ (![0] : Fin 1 → Fin (⟨2, ![E, 1]⟩ : Shape).rank))
    (hb2 : (⟨2, ![E, 1]⟩ : Shape).BroadcastsInDim ⟨2, ![E, C]⟩ (![0, 1] : Fin 2 → Fin (⟨2, ![E, C]⟩ : Shape).rank))
    (h : FVec Ideal ⟨2, ![N, C]⟩ .f32) (rowI colI : IVec ⟨2, ![E, 1]⟩ 32) (nrm : FVec Ideal ⟨1, ![E]⟩ .f32) :
    FVec Ideal ⟨2, ![N, C]⟩ .f32 :=
  Host.scatterAdd (rowScatter2 N E C wfs)
    (broadcastInDim ⟨2, ![N, C]⟩ ![] hz (constant (F := Ideal) ⟨0, ![]⟩ .f32 0x00000000#32)) colI
    (mulf (Host.gather (rowGather2 N E C wfg) h rowI)
      (broadcastInDim ⟨2, ![E, C]⟩ ![0, 1] hb2 (broadcastInDim ⟨2, ![E, 1]⟩ ![0] hb1 nrm)))

/-- The accumulator a hop starts from, the scalar zero spread over the whole matrix, reads `0` at every entry: a
    spread scalar reads the scalar, and the word `0` denotes the number `0`. -/
theorem zeroAcc_apply {N C : Nat}
    (hz : (⟨0, ![]⟩ : Shape).BroadcastsInDim ⟨2, ![N, C]⟩ (![] : Fin 0 → Fin (⟨2, ![N, C]⟩ : Shape).rank))
    (i : (⟨2, ![N, C]⟩ : Shape).Idx) :
    broadcastInDim ⟨2, ![N, C]⟩ ![] hz (constant (F := Ideal) ⟨0, ![]⟩ .f32 0x00000000#32) i = 0 := by
  show constant (F := Ideal) ⟨0, ![]⟩ .f32 0x00000000#32 _ = 0
  rw [constant_apply, Ideal.ofBits_zero_f32]

/-- In the reals the double sum over the edges and over `k` can be taken in either order: for each edge the weight
    moves inside the sum over `k`, an edge that is left out contributes `0` to every `k`, and the two finite sums
    are exchanged. -/
theorem real_hop_exchange {E K : Nat} (c : Fin E → Prop) [DecidablePred c]
    (a : Fin E → Fin K → ℝ) (b : Fin K → ℝ) (ν : Fin E → ℝ) :
    (∑ e : Fin E, if c e then (∑ k : Fin K, a e k * b k) * ν e else 0)
      = ∑ k : Fin K, (∑ e : Fin E, if c e then a e k * ν e else 0) * b k := by
  calc (∑ e : Fin E, if c e then (∑ k : Fin K, a e k * b k) * ν e else 0)
      = ∑ e : Fin E, ∑ k : Fin K, (if c e then a e k * ν e else 0) * b k := by
        refine Finset.sum_congr rfl fun e _ => ?_
        by_cases hc : c e
        · rw [if_pos hc, Finset.sum_mul]
          refine Finset.sum_congr rfl fun k _ => ?_
          rw [if_pos hc]
          ring
        · rw [if_neg hc]
          refine (Finset.sum_eq_zero fun k _ => ?_).symm
          rw [if_neg hc, zero_mul]
    _ = ∑ k : Fin K, ∑ e : Fin E, (if c e then a e k * ν e else 0) * b k := Finset.sum_comm
    _ = ∑ k : Fin K, (∑ e : Fin E, if c e then a e k * ν e else 0) * b k :=
        Finset.sum_congr rfl fun k _ => (Finset.sum_mul _ _ _).symm

section
variable {N E C : Nat} (hN : 0 < N)
  (wfg : GatherDims.WF ⟨2, ![N, C]⟩ ⟨2, ![E, 1]⟩ ⟨2, ![E, C]⟩ [1] [0] [] [0] [] 1 ![1, C])
  (wfs : ScatterDims.WF ⟨2, ![N, C]⟩ ⟨2, ![E, 1]⟩ ⟨2, ![E, C]⟩ [1] [0] [0] 1)
  (hz : (⟨0, ![]⟩ : Shape).BroadcastsInDim ⟨2, ![N, C]⟩ (![] : Fin 0 → Fin (⟨2, ![N, C]⟩ : Shape).rank))
  (hb1 : (⟨1, ![E]⟩ : Shape).BroadcastsInDim ⟨2, ![E, 1]⟩ (![0] : Fin 1 → Fin (⟨2, ![E, 1]⟩ : Shape).rank))
  (hb2 : (⟨2, ![E, 1]⟩ : Shape).BroadcastsInDim ⟨2, ![E, C]⟩ (![0, 1] : Fin 2 → Fin (⟨2, ![E, C]⟩ : Shape).rank))
  (h : FVec Ideal ⟨2, ![N, C]⟩ .f32) (rowI colI : IVec ⟨2, ![E, 1]⟩ 32) (nrm : FVec Ideal ⟨1, ![E]⟩ .f32)

/-- ENTRY `(n, j)` OF A HOP: the sum over the edges whose target word, read signed, is `n` of the source row's entry
    `j` times the edge's weight. -/
theorem hop_apply (n : Fin N) (j : Fin C) :
    hop wfg wfs hz hb1 hb2 h rowI colI nrm (ix2 n j)
      = ∑ e : Fin E, if (colI (ix2 e (0 : Fin 1))).toInt = (n.val : ℤ)
          then h (ix2 (srcRow hN rowI e) j) * nrm (ix1 e) else 0 := by
  unfold hop
  rw [scatterAdd_rows2_apply, zeroAcc_apply, zero_add]
  refine Finset.sum_congr rfl fun e _ => ?_
  rw [mulf_apply, gather_rows2_apply hN, broadcastInDim_a1_ab_apply, broadcastInDim_a_a1_apply]
  rfl

/-- A hop of a real-valued matrix along real weights is real-valued. -/
theorem realValued_hop (hh : RealValued h) (hn : RealValued nrm) :
    RealValued (hop wfg wfs hz hb1 hb2 h rowI colI nrm) := by
  intro i
  -- an index of `[N, C]` has a first coordinate below `N`, so `N` is positive
  have hN : 0 < N := Nat.lt_of_le_of_lt (Nat.zero_le _) (idx2_lt0 i)
  have key : ∀ (p : Fin N) (q : Fin C), IsReal (hop wfg wfs hz hb1 hb2 h rowI colI nrm (ix2 p q)) := by
    intro p q
    rw [hop_apply hN]
    refine isReal_sum _ _ fun e _ => ?_
    by_cases hc : (colI (ix2 e (0 : Fin 1))).toInt = (p.val : ℤ)
    · rw [if_pos hc]
      exact IsReal.mul (hh _) (hn _)
    · rw [if_neg hc]
      exact isReal_zero
  rw [eq_ix2 i]
  exact key (i 0) (i 1)

end

/-- A HOP COMMUTES WITH A PRODUCT ON THE FEATURE AXIS. If `y = h · w` entry by entry, with `h : [N, K]`, `w : [K, M]`
    and the edge weights all real-valued, then the hop of `y` is the hop of `h` times `w`: each side is the double
    sum over edges and over `k` of real numbers, taken in the two orders. -/
theorem hop_matmul {N E K M : Nat} (hN : 0 < N)
    (wfgK : GatherDims.WF ⟨2, ![N, K]⟩ ⟨2, ![E, 1]⟩ ⟨2, ![E, K]⟩ [1] [0] [] [0] [] 1 ![1, K])
    (wfsK : ScatterDims.WF ⟨2, ![N, K]⟩ ⟨2, ![E, 1]⟩ ⟨2, ![E, K]⟩ [1] [0] [0] 1)
    (hzK : (⟨0, ![]⟩ : Shape).BroadcastsInDim ⟨2, ![N, K]⟩ (![] : Fin 0 → Fin (⟨2, ![N, K]⟩ : Shape).rank))
    (hb2K : (⟨2, ![E, 1]⟩ : Shape).BroadcastsInDim ⟨2, ![E, K]⟩ (![0, 1] : Fin 2 → Fin (⟨2, ![E, K]⟩ : Shape).rank))
    (wfgM : GatherDims.WF ⟨2, ![N, M]⟩ ⟨2, ![E, 1]⟩ ⟨2, ![E, M]⟩ [1] [0] [] [0] [] 1 ![1, M])
    (wfsM : ScatterDims.WF ⟨2, ![N, M]⟩ ⟨2, ![E, 1]⟩ ⟨2, ![E, M]⟩ [1] [0] [0] 1)
    (hzM : (⟨0, ![]⟩ : Shape).BroadcastsInDim ⟨2, ![N, M]⟩ (![] : Fin 0 → Fin (⟨2, ![N, M]⟩ : Shape).rank))
    (hb2M : (⟨2, ![E, 1]⟩ : Shape).BroadcastsInDim ⟨2, ![E, M]⟩ (![0, 1] : Fin 2 → Fin (⟨2, ![E, M]⟩ : Shape).rank))
    (hb1 : (⟨1, ![E]⟩ : Shape).BroadcastsInDim ⟨2, ![E, 1]⟩ (![0] : Fin 1 → Fin (⟨2, ![E, 1]⟩ : Shape).rank))
    (h : FVec Ideal ⟨2, ![N, K]⟩ .f32) (w : FVec Ideal ⟨2, ![K, M]⟩ .f32) (y : FVec Ideal ⟨2, ![N, M]⟩ .f32)
    (rowI colI : IVec ⟨2, ![E, 1]⟩ 32) (nrm : FVec Ideal ⟨1, ![E]⟩ .f32)
    (hh : RealValued h) (hw : RealValued w) (hn : RealValued nrm)
    (hy : ∀ (n : Fin N) (q : Fin M), y (ix2 n q) = ∑ k : Fin K, h (ix2 n k) * w (ix2 k q))
    (n : Fin N) (q : Fin M) :
    hop wfgM wfsM hzM hb1 hb2M y rowI colI nrm (ix2 n q)
      = ∑ k : Fin K, hop wfgK wfsK hzK hb1 hb2K h rowI colI nrm (ix2 n k) * w (ix2 k q) := by
  unfold RealValued at hh hw hn
  choose h' hh' using hh
  choose w' hw' using hw
  choose ν' hν' using hn
  -- the left side is the inclusion of a real double sum, the edges outside
  have hL : hop wfgM wfsM hzM hb1 hb2M y rowI colI nrm (ix2 n q)
      = ((∑ e : Fin E, if (colI (ix2 e (0 : Fin 1))).toInt = (n.val : ℤ)
          then (∑ k : Fin K, h' (ix2 (srcRow hN rowI e) k) * w' (ix2 k q)) * ν' (ix1 e) else 0 : ℝ) : EReal) := by
    refine (hop_apply hN wfgM wfsM hzM hb1 hb2M y rowI colI nrm n q).trans ?_
    refine Eq.trans ?_ (TotalSum.coe_sum _ _).symm
    refine Finset.sum_congr rfl fun e _ => ?_
    by_cases hc : (colI (ix2 e (0 : Fin 1))).toInt = (n.val : ℤ)
    · rw [if_pos hc, if_pos hc, hy, hν', EReal.coe_mul, TotalSum.coe_sum]
      congr 1
      refine Finset.sum_congr rfl fun k _ => ?_
      rw [hh', hw', EReal.coe_mul]
    · rw [if_neg hc, if_neg hc, EReal.coe_zero]
  -- each term of the right side is the inclusion of a real product, the edges inside
  have hR : ∀ k : Fin K, hop wfgK wfsK hzK hb1 hb2K h rowI colI nrm (ix2 n k) * w (ix2 k q)
      = (((∑ e : Fin E, if (colI (ix2 e (0 : Fin 1))).toInt = (n.val : ℤ)
          then h' (ix2 (srcRow hN rowI e) k) * ν' (ix1 e) else 0) * w' (ix2 k q) : ℝ) : EReal) := by
    intro k
    rw [EReal.coe_mul, ← hw', TotalSum.coe_sum]
    congr 1
    refine (hop_apply hN wfgK wfsK hzK hb1 hb2K h rowI colI nrm n k).trans ?_
    refine Finset.sum_congr rfl fun e _ => ?_
    by_cases hc : (colI (ix2 e (0 : Fin 1))).toInt = (n.val : ℤ)
    · rw [if_pos hc, if_pos hc, hh', hν', EReal.coe_mul]
    · rw [if_neg hc, if_neg hc, EReal.coe_zero]
  rw [hL, Finset.sum_congr rfl fun k _ => hR k, ← TotalSum.coe_sum]
  exact congrArg _ (real_hop_exchange _ _ _ _)

end Cert.Lib

end
-- ==== Proof.LibAggregate.lean ====
/-
  One sparse aggregation read at an entry, over the extended reals.

  The aggregation gathers the rows of a node matrix `M : [N, C]` at the source words, scales row `e` by the weight of
  edge `e` (the weights kept as an `[E, 1]` column and spread along the features), and adds each scaled row into the
  row its target word names, starting from the zero matrix.  Entry `(n, c)` of the result is

    `Σ_{e : target word of e, read signed, is n}  w e * M (srcRow e, c)`,

  where `srcRow e` is the source word of edge `e` read signed, as a natural number, clamped into `[0, N − 1]`.  Only
  column `c` of `M` enters entry `(n, c)`: the aggregation acts on each feature column by itself.  Over the extended
  reals the order of the additions does not matter, so the sum is over all edges of an `if`.

  The lemma here is for the product written with the spread WEIGHTS AS THE LEFT FACTOR and the gathered rows as the
  right one, `mulf (weights) (gather …)`; the other order is `Cert.Lib.hop_apply`.
-/
import proofs.«116321_j12163347383058_2_alg».proof.Proof.LibRowGather
import proofs.«116321_j12163347383058_2_alg».proof.Proof.LibRowScatterAdd
import proofs.«116321_j12163347383058_2_alg».proof.Proof.LibHostKeptAxis
import proofs.«116321_j12163347383058_2_alg».proof.Proof.LibPropagate

noncomputable section

open scoped BigOperators

namespace Cert.Lib

open Idealize.ShloMosaic Idealize.ShloMosaic.ValueIdx

/-- ENTRY `(n, c)` OF AN AGGREGATION, THE WEIGHTS ON THE LEFT.  The scatter-add, into the zero matrix and along the
    target words `tgt` (kept as an `[E, 1]` column), of `mulf (weights spread over [E, C]) (rows of M gathered at the
    source words)` reads, at `(n, c)`, the sum over the edges `e` whose target word read signed is `n` of
    `w e * M (srcRow e, c)`. -/
theorem agg_apply {N E C : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (hz : (⟨0, ![]⟩ : Shape).BroadcastsInDim ⟨2, ![N, C]⟩ (![] : Fin 0 → Fin (⟨2, ![N, C]⟩ : Shape).rank))
    (hb1 : (⟨1, ![E]⟩ : Shape).BroadcastsInDim ⟨2, ![E, 1]⟩ (![0] : Fin 1 → Fin (⟨2, ![E, 1]⟩ : Shape).rank))
    (hb1' : (⟨1, ![E]⟩ : Shape).BroadcastsInDim ⟨2, ![E, 1]⟩ (![0] : Fin 1 → Fin (⟨2, ![E, 1]⟩ : Shape).rank))
    (hb2 : (⟨2, ![E, 1]⟩ : Shape).BroadcastsInDim ⟨2, ![E, C]⟩ (![0, 1] : Fin 2 → Fin (⟨2, ![E, C]⟩ : Shape).rank))
    (M : FVec Ideal ⟨2, ![N, C]⟩ .f32) (srcI : IVec ⟨2, ![E, 1]⟩ 32) (tgt : IVec ⟨1, ![E]⟩ 32)
    (w : FVec Ideal ⟨1, ![E]⟩ .f32) (n : Fin N) (c : Fin C) :
    Host.scatterAdd (rowScatter2 N E C wfs)
        (broadcastInDim ⟨2, ![N, C]⟩ ![] hz (constant (F := Ideal) ⟨0, ![]⟩ .f32 0x00000000#32))
        (broadcastInDim ⟨2, ![E, 1]⟩ ![0] hb1' tgt)
        (mulf (broadcastInDim ⟨2, ![E, C]⟩ ![0, 1] hb2 (broadcastInDim ⟨2, ![E, 1]⟩ ![0] hb1 w))
          (Host.gather (rowGather2 N E C wfg) M srcI)) (ix2 n c)
      = ∑ e : Fin E, if (tgt (ix1 e)).toInt = (n.val : ℤ)
          then w (ix1 e) * M (ix2 (srcRow hN srcI e) c) else 0 := by
  rw [scatterAdd_rows2_apply, zeroAcc_apply, zero_add]
  refine Finset.sum_congr rfl fun e _ => ?_
  rw [mulf_apply, gather_rows2_apply hN, broadcastInDim_a1_ab_apply, broadcastInDim_a_a1_apply,
    broadcastInDim_a_a1_apply]
  rfl

end Cert.Lib

end
-- ==== Proof.LibConcat2.lean ====
/-
  Two arrays laid side by side along the columns, read at an entry.

  The concatenation along axis 1 of `y0 : [B, n0]` and `y1 : [B, n1]` is an `[B, N]` array, `N = n0 + n1`. At row `b`
  and column `n` it reads `y0 (b, n)` for `n < n0` and `y1 (b, n - n0)` for the remaining `n1` columns.
-/
import Idealize.ShloMosaic.Lib.Pipeline.Value
import Idealize.ShloMosaic.Lib.ValueIdx

noncomputable section

namespace Cert.Lib

open Idealize.ShloMosaic Idealize.ShloMosaic.ValueIdx

section
variable {α : Type} {B N n0 n1 : ℕ}
  (y0 : (⟨2, ![B, n0]⟩ : Shape).Idx → α) (y1 : (⟨2, ![B, n1]⟩ : Shape).Idx → α)
  (h : Shape.Concatenates [(⟨2, ![B, n0]⟩ : Shape), ⟨2, ![B, n1]⟩] ⟨2, ![B, N]⟩ 1)

/-- A column among the first `n0` reads the first array. -/
theorem concat2_apply_first (b : Fin B) (n : Fin N) (q : Fin n0) (hn : n.val = q.val) :
    concatenate ⟨2, ![B, N]⟩ 1 [⟨⟨2, ![B, n0]⟩, y0⟩, ⟨⟨2, ![B, n1]⟩, y1⟩] h (ix2 b n) = y0 (ix2 b q) := by
  refine concatenate_apply_piece (t := ⟨2, ![B, N]⟩) (1 : Fin 2) [(⟨⟨2, ![B, n0]⟩, y0⟩ : (s : Shape) × (s.Idx → α)), ⟨⟨2, ![B, n1]⟩, y1⟩] h (ix2 b n) 0
    (by show (0 : ℕ) < 2; decide) ⟨2, ![B, n0]⟩ y0 rfl rfl 0 rfl (ix2 b q) ?_ ?_
  · intro b' hb'
    match b' with
    | ⟨0, _⟩ => rfl
    | ⟨1, _⟩ => exact absurd rfl hb'
  · show 0 + q.val = n.val
    omega

/-- A column among the last `n1` reads the second array, `n0` columns back. -/
theorem concat2_apply_second (b : Fin B) (n : Fin N) (j : Fin n1) (hn : n.val = n0 + j.val) :
    concatenate ⟨2, ![B, N]⟩ 1 [⟨⟨2, ![B, n0]⟩, y0⟩, ⟨⟨2, ![B, n1]⟩, y1⟩] h (ix2 b n) = y1 (ix2 b j) := by
  refine concatenate_apply_piece (t := ⟨2, ![B, N]⟩) (1 : Fin 2) [(⟨⟨2, ![B, n0]⟩, y0⟩ : (s : Shape) × (s.Idx → α)), ⟨⟨2, ![B, n1]⟩, y1⟩] h (ix2 b n) 1
    (by show (1 : ℕ) < 2; decide) ⟨2, ![B, n1]⟩ y1 rfl rfl n0 ?_ (ix2 b j) ?_ ?_
  · show n0 + 0 = n0
    rfl
  · intro b' hb'
    match b' with
    | ⟨0, _⟩ => rfl
    | ⟨1, _⟩ => exact absurd rfl hb'
  · show n0 + j.val = n.val
    omega

end

end Cert.Lib

end
-- ==== Proof.BridgeLayers2a.lean ====
/-
  The second layer: the mean and log-deviation halves of the aggregated `h1 · [Wm | Ws]` are the reference's aggregated
  `h1 · Wm` and `h1 · Ws`.

  A sparse aggregation acts on each feature column by itself: entry `(n, c)` of the aggregation of `M` is the sum over
  the edges `e` whose target word is `n` of `w e * M (srcRow e, c)`.  The slice `[0:8192, 0:64]` (resp. `[0:8192, 64:128]`)
  of the aggregated `[8192, 128]` matrix reads its column `c` (resp. `64 + c`); column `c` of `h1 · [Wm | Ws]` is
  `Σ_k h1 (p, k) * Wm (k, c)` and column `64 + c` is `Σ_k h1 (p, k) * Ws (k, c)`, which are the entries of the reference's
  two products.  The source words, the target words and the weights are the same terms on both sides, so the two
  sums over the edges agree term by term.
-/
import proofs.«116321_j12163347383058_2_alg».proof.Proof.KerTerms
import proofs.«116321_j12163347383058_2_alg».proof.Proof.Gen.ReferenceIdeal.Read
import proofs.«116321_j12163347383058_2_alg».proof.Proof.LibAggregate
import proofs.«116321_j12163347383058_2_alg».proof.Proof.LibConcat2
import proofs.«116321_j12163347383058_2_alg».proof.Proof.LibDotGeneralPlain
import Idealize.ShloMosaic.Lib.Pipeline.Value

noncomputable section

open scoped BigOperators

namespace Cert.Bridge

open Idealize.ShloMosaic Idealize.ShloMosaic.ValueIdx

/-- The wrapped source words are the same column on both sides (the mean branch). -/
theorem src_eq_v22 (x8 : (⟨Cert.KernelIdeal.S262144, .i32⟩ : BufTy).Contents (Elt Ideal)) :
    Cert.KernelIdeal.Terms.src (F := Ideal) x8 = Cert.ReferenceIdeal.Read.val_main_v22 (F := Ideal) x8 := rfl

/-- The wrapped source words are the same column on both sides (the log-deviation branch). -/
theorem src_eq_v36 (x8 : (⟨Cert.KernelIdeal.S262144, .i32⟩ : BufTy).Contents (Elt Ideal)) :
    Cert.KernelIdeal.Terms.src (F := Ideal) x8 = Cert.ReferenceIdeal.Read.val_main_v36 (F := Ideal) x8 := rfl

/-- Entry `(p, c)` of the aggregated `[8192, 128]` matrix. -/
theorem kv29_apply (mm1 : (⟨Cert.KernelIdeal.S8192x128, .f32⟩ : BufTy).Contents (Elt Ideal)) (x4 : (⟨Cert.KernelIdeal.S262144, .f32⟩ : BufTy).Contents (Elt Ideal))
    (x7 x8 : (⟨Cert.KernelIdeal.S262144, .i32⟩ : BufTy).Contents (Elt Ideal)) (p : Fin 8192) (c : Fin 128) :
    Cert.KernelIdeal.Terms.v29 (F := Ideal) mm1 x4 x7 x8 (ix2 p c)
      = ∑ e : Fin 262144, if BitVec.toInt (x7 (ix1 e)) = (p.val : ℤ)
          then x4 (ix1 e) * mm1 (ix2 (Cert.Lib.srcRow (N := 8192) (by decide) (Cert.KernelIdeal.Terms.src (F := Ideal) x8) e) c) else 0 :=
  Cert.Lib.agg_apply (N := 8192) (E := 262144) (C := 128) (by decide)
    Cert.KernelIdeal.Facts₀.gather_S8192x128_S262144x1_S262144x128_1_0_n_n_0_1_1128_wf Cert.KernelIdeal.Facts₀.scatter_S8192x128_S262144x1_S262144x128_1_0_0_1_wf
    Cert.KernelIdeal.Facts₀.bcast_S_S8192x128 Cert.KernelIdeal.Facts₀.bcast_S262144_S262144x1_0 Cert.KernelIdeal.Facts₀.bcast_S262144_S262144x1_0
    Cert.KernelIdeal.Facts₀.bcast_S262144x1_S262144x128_0_1 mm1 (Cert.KernelIdeal.Terms.src (F := Ideal) x8) x7 x4 p c

/-- Entry `(p, c)` of the reference's aggregated mean product. -/
theorem ref28_apply (x0 : (⟨Cert.KernelIdeal.S8192x512, .f32⟩ : BufTy).Contents (Elt Ideal)) (x1 : (⟨Cert.KernelIdeal.S512x256, .f32⟩ : BufTy).Contents (Elt Ideal)) (x2 : (⟨Cert.KernelIdeal.S256x64, .f32⟩ : BufTy).Contents (Elt Ideal)) (x4 : (⟨Cert.KernelIdeal.S262144, .f32⟩ : BufTy).Contents (Elt Ideal))
    (x7 x8 : (⟨Cert.KernelIdeal.S262144, .i32⟩ : BufTy).Contents (Elt Ideal)) (p : Fin 8192) (c : Fin 64) :
    Cert.ReferenceIdeal.Read.val_main_v28 (F := Ideal) x0 x1 x2 x4 x7 x8 (ix2 p c)
      = ∑ e : Fin 262144, if BitVec.toInt (x7 (ix1 e)) = (p.val : ℤ)
          then x4 (ix1 e) * Cert.ReferenceIdeal.Read.val_main_v15 (F := Ideal) x0 x1 x2 x4 x7 x8
            (ix2 (Cert.Lib.srcRow (N := 8192) (by decide) (Cert.ReferenceIdeal.Read.val_main_v22 (F := Ideal) x8) e) c) else 0 :=
  Cert.Lib.agg_apply (N := 8192) (E := 262144) (C := 64) (by decide)
    Cert.ReferenceIdeal.Facts₀.gather_S8192x64_S262144x1_S262144x64_1_0_n_n_0_1_164_wf Cert.ReferenceIdeal.Facts₀.scatter_S8192x64_S262144x1_S262144x64_1_0_0_1_wf
    Cert.ReferenceIdeal.Facts₀.bcast_S_S8192x64 Cert.ReferenceIdeal.Facts₀.bcast_S262144_S262144x1_0 Cert.ReferenceIdeal.Facts₀.bcast_S262144_S262144x1_0
    Cert.ReferenceIdeal.Facts₀.bcast_S262144x1_S262144x64_0_1 (Cert.ReferenceIdeal.Read.val_main_v15 (F := Ideal) x0 x1 x2 x4 x7 x8)
    (Cert.ReferenceIdeal.Read.val_main_v22 (F := Ideal) x8) x7 x4 p c

/-- Entry `(p, c)` of the reference's aggregated log-deviation product. -/
theorem ref42_apply (x0 : (⟨Cert.KernelIdeal.S8192x512, .f32⟩ : BufTy).Contents (Elt Ideal)) (x1 : (⟨Cert.KernelIdeal.S512x256, .f32⟩ : BufTy).Contents (Elt Ideal)) (x3 : (⟨Cert.KernelIdeal.S256x64, .f32⟩ : BufTy).Contents (Elt Ideal)) (x4 : (⟨Cert.KernelIdeal.S262144, .f32⟩ : BufTy).Contents (Elt Ideal))
    (x7 x8 : (⟨Cert.KernelIdeal.S262144, .i32⟩ : BufTy).Contents (Elt Ideal)) (p : Fin 8192) (c : Fin 64) :
    Cert.ReferenceIdeal.Read.val_main_v42 (F := Ideal) x0 x1 x3 x4 x7 x8 (ix2 p c)
      = ∑ e : Fin 262144, if BitVec.toInt (x7 (ix1 e)) = (p.val : ℤ)
          then x4 (ix1 e) * Cert.ReferenceIdeal.Read.val_main_v29 (F := Ideal) x0 x1 x3 x4 x7 x8
            (ix2 (Cert.Lib.srcRow (N := 8192) (by decide) (Cert.ReferenceIdeal.Read.val_main_v36 (F := Ideal) x8) e) c) else 0 :=
  Cert.Lib.agg_apply (N := 8192) (E := 262144) (C := 64) (by decide)
    Cert.ReferenceIdeal.Facts₀.gather_S8192x64_S262144x1_S262144x64_1_0_n_n_0_1_164_wf Cert.ReferenceIdeal.Facts₀.scatter_S8192x64_S262144x1_S262144x64_1_0_0_1_wf
    Cert.ReferenceIdeal.Facts₀.bcast_S_S8192x64 Cert.ReferenceIdeal.Facts₀.bcast_S262144_S262144x1_0 Cert.ReferenceIdeal.Facts₀.bcast_S262144_S262144x1_0
    Cert.ReferenceIdeal.Facts₀.bcast_S262144x1_S262144x64_0_1 (Cert.ReferenceIdeal.Read.val_main_v29 (F := Ideal) x0 x1 x3 x4 x7 x8)
    (Cert.ReferenceIdeal.Read.val_main_v36 (F := Ideal) x8) x7 x4 p c

end Cert.Bridge

end
-- ==== Proof.BridgeLayers2.lean ====
/-
  The second layer, continued: the two halves of the aggregated `h1 · [Wm | Ws]` against the reference.

  Both sides are read at an entry `(p, c)` as a sum over the edges; the sums agree term by term because column `c`
  (resp. `64 + c`) of `h1 · [Wm | Ws]` is column `c` of `h1 · Wm` (resp. `h1 · Ws`).
-/
import proofs.«116321_j12163347383058_2_alg».proof.Proof.BridgeLayers2a

noncomputable section

open scoped BigOperators

namespace Cert.Bridge

open Idealize.ShloMosaic Idealize.ShloMosaic.ValueIdx

/-- Entry `(r, c)` of the reference's `h1 · Wm`. -/
theorem ref15_apply (x0 : (⟨Cert.KernelIdeal.S8192x512, .f32⟩ : BufTy).Contents (Elt Ideal)) (x1 : (⟨Cert.KernelIdeal.S512x256, .f32⟩ : BufTy).Contents (Elt Ideal)) (x2 : (⟨Cert.KernelIdeal.S256x64, .f32⟩ : BufTy).Contents (Elt Ideal)) (x4 : (⟨Cert.KernelIdeal.S262144, .f32⟩ : BufTy).Contents (Elt Ideal))
    (x7 x8 : (⟨Cert.KernelIdeal.S262144, .i32⟩ : BufTy).Contents (Elt Ideal)) (r : Fin 8192) (c : Fin 64) :
    Cert.ReferenceIdeal.Read.val_main_v15 (F := Ideal) x0 x1 x2 x4 x7 x8 (ix2 r c)
      = ∑ k : Fin 256, Cert.ReferenceIdeal.Read.val_main_v14 (F := Ideal) x0 x1 x4 x7 x8 (ix2 r k) * x2 (ix2 k c) :=
  Cert.Lib.dotGeneral_plain_apply (φ₁ := .f32) (φ₂ := .f32) 8192 256 64 none (Cert.ReferenceIdeal.Read.val_main_v14 (F := Ideal) x0 x1 x4 x7 x8) x2 r c

/-- Entry `(r, c)` of the reference's `h1 · Ws`. -/
theorem ref29_apply (x0 : (⟨Cert.KernelIdeal.S8192x512, .f32⟩ : BufTy).Contents (Elt Ideal)) (x1 : (⟨Cert.KernelIdeal.S512x256, .f32⟩ : BufTy).Contents (Elt Ideal)) (x3 : (⟨Cert.KernelIdeal.S256x64, .f32⟩ : BufTy).Contents (Elt Ideal)) (x4 : (⟨Cert.KernelIdeal.S262144, .f32⟩ : BufTy).Contents (Elt Ideal))
    (x7 x8 : (⟨Cert.KernelIdeal.S262144, .i32⟩ : BufTy).Contents (Elt Ideal)) (r : Fin 8192) (c : Fin 64) :
    Cert.ReferenceIdeal.Read.val_main_v29 (F := Ideal) x0 x1 x3 x4 x7 x8 (ix2 r c)
      = ∑ k : Fin 256, Cert.ReferenceIdeal.Read.val_main_v14 (F := Ideal) x0 x1 x4 x7 x8 (ix2 r k) * x3 (ix2 k c) :=
  Cert.Lib.dotGeneral_plain_apply (φ₁ := .f32) (φ₂ := .f32) 8192 256 64 none (Cert.ReferenceIdeal.Read.val_main_v14 (F := Ideal) x0 x1 x4 x7 x8) x3 r c

/-- THE MEAN HALF: columns `0 … 63` of the aggregated `h1 · [Wm | Ws]` are the reference's aggregated `h1 · Wm`. -/
theorem v30_eq (x0 : (⟨Cert.KernelIdeal.S8192x512, .f32⟩ : BufTy).Contents (Elt Ideal)) (x1 : (⟨Cert.KernelIdeal.S512x256, .f32⟩ : BufTy).Contents (Elt Ideal))
    (x2 x3 : (⟨Cert.KernelIdeal.S256x64, .f32⟩ : BufTy).Contents (Elt Ideal)) (x4 : (⟨Cert.KernelIdeal.S262144, .f32⟩ : BufTy).Contents (Elt Ideal))
    (x7 x8 : (⟨Cert.KernelIdeal.S262144, .i32⟩ : BufTy).Contents (Elt Ideal)) (mm1 : (⟨Cert.KernelIdeal.S8192x128, .f32⟩ : BufTy).Contents (Elt Ideal))
    (h1 : ∀ (p : Fin 8192) (q : Fin 128), mm1 (ix2 p q)
      = ∑ k : Fin 256, Cert.ReferenceIdeal.Read.val_main_v14 (F := Ideal) x0 x1 x4 x7 x8 (ix2 p k) * Cert.KernelIdeal.Terms.v15 (F := Ideal) x2 x3 (ix2 k q)) :
    Cert.KernelIdeal.Terms.v30 (F := Ideal) mm1 x4 x7 x8 = Cert.ReferenceIdeal.Read.val_main_v28 (F := Ideal) x0 x1 x2 x4 x7 x8 := by
  funext j
  obtain ⟨p, c, rfl⟩ : ∃ (p : Fin 8192) (c : Fin 64), j = ix2 p c := ⟨j 0, j 1, eq_ix2 j⟩
  have hs : Cert.KernelIdeal.Terms.v30 (F := Ideal) mm1 x4 x7 x8 (ix2 p c)
      = Cert.KernelIdeal.Terms.v29 (F := Ideal) mm1 x4 x7 x8 (ix2 p (Fin.castLE (by decide : 64 ≤ 128) c)) := by
    unfold Cert.KernelIdeal.Terms.v30
    refine extractStridedSlice_apply _ _ _ _ _ (fun a => ?_)
    match a with
    | ⟨0, _⟩ =>
      show p.val = 0 + p.val
      rw [Nat.zero_add]
    | ⟨1, _⟩ =>
      show c.val = 0 + c.val
      rw [Nat.zero_add]
  rw [hs, kv29_apply, ref28_apply]
  refine Finset.sum_congr rfl fun e _ => ?_
  by_cases hc : BitVec.toInt (x7 (ix1 e)) = (p.val : ℤ)
  · rw [if_pos hc, if_pos hc, src_eq_v22]
    refine congrArg (x4 (ix1 e) * ·) ?_
    rw [h1, ref15_apply]
    refine Finset.sum_congr rfl fun k _ => ?_
    refine congrArg (Cert.ReferenceIdeal.Read.val_main_v14 (F := Ideal) x0 x1 x4 x7 x8 (ix2 _ k) * ·) ?_
    exact Cert.Lib.concat2_apply_first (α := Ideal .f32) x2 x3 Cert.KernelIdeal.Facts₀.concatenates_S256x64_S256x64_S256x128_d1 k
      (Fin.castLE (by decide : 64 ≤ 128) c) c rfl
  · rw [if_neg hc, if_neg hc]

/-- THE LOG-DEVIATION HALF: columns `64 … 127` of the aggregated `h1 · [Wm | Ws]` are the reference's aggregated
    `h1 · Ws`. -/
theorem v31_eq (x0 : (⟨Cert.KernelIdeal.S8192x512, .f32⟩ : BufTy).Contents (Elt Ideal)) (x1 : (⟨Cert.KernelIdeal.S512x256, .f32⟩ : BufTy).Contents (Elt Ideal))
    (x2 x3 : (⟨Cert.KernelIdeal.S256x64, .f32⟩ : BufTy).Contents (Elt Ideal)) (x4 : (⟨Cert.KernelIdeal.S262144, .f32⟩ : BufTy).Contents (Elt Ideal))
    (x7 x8 : (⟨Cert.KernelIdeal.S262144, .i32⟩ : BufTy).Contents (Elt Ideal)) (mm1 : (⟨Cert.KernelIdeal.S8192x128, .f32⟩ : BufTy).Contents (Elt Ideal))
    (h1 : ∀ (p : Fin 8192) (q : Fin 128), mm1 (ix2 p q)
      = ∑ k : Fin 256, Cert.ReferenceIdeal.Read.val_main_v14 (F := Ideal) x0 x1 x4 x7 x8 (ix2 p k) * Cert.KernelIdeal.Terms.v15 (F := Ideal) x2 x3 (ix2 k q)) :
    Cert.KernelIdeal.Terms.v31 (F := Ideal) mm1 x4 x7 x8 = Cert.ReferenceIdeal.Read.val_main_v42 (F := Ideal) x0 x1 x3 x4 x7 x8 := by
  funext j
  obtain ⟨p, c, rfl⟩ : ∃ (p : Fin 8192) (c : Fin 64), j = ix2 p c := ⟨j 0, j 1, eq_ix2 j⟩
  have hc128 : 64 + c.val < 128 := by have := c.isLt; omega
  have hs : Cert.KernelIdeal.Terms.v31 (F := Ideal) mm1 x4 x7 x8 (ix2 p c)
      = Cert.KernelIdeal.Terms.v29 (F := Ideal) mm1 x4 x7 x8 (ix2 p (⟨64 + c.val, hc128⟩ : Fin 128)) := by
    unfold Cert.KernelIdeal.Terms.v31
    refine extractStridedSlice_apply _ _ _ _ _ (fun a => ?_)
    match a with
    | ⟨0, _⟩ =>
      show p.val = 0 + p.val
      rw [Nat.zero_add]
    | ⟨1, _⟩ =>
      show 64 + c.val = 64 + c.val
      rfl
  rw [hs, kv29_apply, ref42_apply]
  refine Finset.sum_congr rfl fun e _ => ?_
  by_cases hc : BitVec.toInt (x7 (ix1 e)) = (p.val : ℤ)
  · rw [if_pos hc, if_pos hc, src_eq_v36]
    refine congrArg (x4 (ix1 e) * ·) ?_
    rw [h1, ref29_apply]
    refine Finset.sum_congr rfl fun k _ => ?_
    refine congrArg (Cert.ReferenceIdeal.Read.val_main_v14 (F := Ideal) x0 x1 x4 x7 x8 (ix2 _ k) * ·) ?_
    exact Cert.Lib.concat2_apply_second (α := Ideal .f32) x2 x3 Cert.KernelIdeal.Facts₀.concatenates_S256x64_S256x64_S256x128_d1 k
      (⟨64 + c.val, hc128⟩ : Fin 128) c rfl
  · rw [if_neg hc, if_neg hc]

end Cert.Bridge

end
-- ==== Proof.KerValueA.lean ====
/-
  The kernel's intermediate results are the reference's, up to the sample.

  The first launch leaves `X · W1` in its result array, which is the reference's first product; the aggregation and
  the rectifier after it are the reference's, so the first layer's activations agree.  The second launch leaves the
  product of those activations with `[Wm | Ws]`; its aggregation, cut into halves, is the reference's aggregated
  `h1 · Wm` and `h1 · Ws`.  The sample built from the two halves and the noise is then the reference's sample.
-/
import proofs.«116321_j12163347383058_2_alg».proof.Proof.KerValueHost
import proofs.«116321_j12163347383058_2_alg».proof.Proof.LaunchVal0
import proofs.«116321_j12163347383058_2_alg».proof.Proof.LaunchVal1
import proofs.«116321_j12163347383058_2_alg».proof.Proof.BridgeLayers1
import proofs.«116321_j12163347383058_2_alg».proof.Proof.BridgeLayers2

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.ValueIdx

variable (m : (ℓ : Loc nD τ sig) → Buf (Elt Ideal) ℓ) (ρ : Dev nD → PrngReg)

/-- The first launch's result array is its window 2. -/
theorem W1_v0_arr (c : Dev nD) : W1 (F := Ideal) m ρ c (Proc.devRef .tc main_v0) = (dat0 (F := Ideal) (VV0 m ρ) c).arrAt 2 cfg0.N :=
  W1_arr m ρ c 2

/-- The first launch leaves the reference's first product. -/
theorem W1_v0 (c : Dev nD) : W1 (F := Ideal) m ρ c (Proc.devRef .tc main_v0) = Cert.ReferenceIdeal.Read.val_main_v0 (F := Ideal) (m ((c.tc : Thread nD τ).loc main_arg0)) (m ((c.tc : Thread nD τ).loc main_arg1)) := by
  refine Cert.Bridge.mm0_eq (m ((c.tc : Thread nD τ).loc main_arg0)) (m ((c.tc : Thread nD τ).loc main_arg1)) (W1 (F := Ideal) m ρ c (Proc.devRef .tc main_v0)) (fun p q => ?_)
  rw [W1_v0_arr m ρ c, mm0_array]
  rfl

/-- The first layer's activations are the reference's. -/
theorem W4_v14R (c : Dev nD) : W4 (F := Ideal) m ρ c (Proc.devRef .tc main_v14) = Cert.ReferenceIdeal.Read.val_main_v14 (F := Ideal) (m ((c.tc : Thread nD τ).loc main_arg0)) (m ((c.tc : Thread nD τ).loc main_arg1)) (m ((c.tc : Thread nD τ).loc main_arg4)) (m ((c.tc : Thread nD τ).loc main_arg7)) (m ((c.tc : Thread nD τ).loc main_arg8)) := by
  rw [W4_v14 m ρ c, W1_v0 m ρ c]
  exact Cert.Bridge.v14_eq (m ((c.tc : Thread nD τ).loc main_arg0)) (m ((c.tc : Thread nD τ).loc main_arg1)) (m ((c.tc : Thread nD τ).loc main_arg4)) (m ((c.tc : Thread nD τ).loc main_arg7)) (m ((c.tc : Thread nD τ).loc main_arg8))

/-- The second launch's result array is its window 2. -/
theorem W5_v16_arr (c : Dev nD) : W5 (F := Ideal) m ρ c (Proc.devRef .tc main_v16) = (dat1 (F := Ideal) (VV4 m ρ) c).arrAt 2 cfg1.N :=
  W5_arr m ρ c 2

/-- The second launch leaves the product of the reference's activations with `[Wm | Ws]`, entry by entry. -/
theorem W5_v16_apply (c : Dev nD) (p : Fin 8192) (q : Fin 128) :
    (W5 (F := Ideal) m ρ c (Proc.devRef .tc main_v16)) (ix2 p q)
      = ∑ k : Fin 256, Cert.ReferenceIdeal.Read.val_main_v14 (F := Ideal) (m ((c.tc : Thread nD τ).loc main_arg0)) (m ((c.tc : Thread nD τ).loc main_arg1)) (m ((c.tc : Thread nD τ).loc main_arg4)) (m ((c.tc : Thread nD τ).loc main_arg7)) (m ((c.tc : Thread nD τ).loc main_arg8)) (ix2 p k) * Terms.v15 (F := Ideal) (m ((c.tc : Thread nD τ).loc main_arg2)) (m ((c.tc : Thread nD τ).loc main_arg3)) (ix2 k q) := by
  rw [W5_v16_arr m ρ c, mm1_array]
  show mm1 (W4 (F := Ideal) m ρ c (Proc.devRef .tc main_v14)) (W4 (F := Ideal) m ρ c (Proc.devRef .tc main_v15)) (ix2 p q) = _
  rw [W4_v14R m ρ c, W4_v15 m ρ c]
  rfl

/-- The mean half is the reference's aggregated `h1 · Wm`. -/
theorem W6_v30R (c : Dev nD) : W6 (F := Ideal) m ρ c (Proc.devRef .tc main_v30) = Cert.ReferenceIdeal.Read.val_main_v28 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7)) (m ((c.tc : Thread nD τ).loc main_arg8)) := by
  rw [W6_v30 m ρ c]
  exact Cert.Bridge.v30_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (W5 (F := Ideal) m ρ c (Proc.devRef .tc main_v16)) (W5_v16_apply m ρ c)

/-- The log-deviation half is the reference's aggregated `h1 · Ws`. -/
theorem W6_v31R (c : Dev nD) : W6 (F := Ideal) m ρ c (Proc.devRef .tc main_v31) = Cert.ReferenceIdeal.Read.val_main_v42 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg7)) (m ((c.tc : Thread nD τ).loc main_arg8)) := by
  rw [W6_v31 m ρ c]
  exact Cert.Bridge.v31_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (W5 (F := Ideal) m ρ c (Proc.devRef .tc main_v16)) (W5_v16_apply m ρ c)

/-- The sample is the reference's. -/
theorem W6_v34R (c : Dev nD) : W6 (F := Ideal) m ρ c (Proc.devRef .tc main_v34) = Cert.ReferenceIdeal.Read.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) := by
  rw [W6_v34 m ρ c, W6_v30R m ρ c, W6_v31R m ρ c]
  rfl

end Cert.KernelIdeal.Fr

end
-- ==== Proof.LaunchVal2Blocks.lean ====
/-
  Launch 2's windows read as blocks of their arrays.  The grid is 8 × 4, point `t` being `(t / 4, t % 4)`; at the point
  with coordinates `(i, j)` the first window on the sample matrix holds its rows `1024 i …`, the second its rows
  `2048 j …`, and the labels' window tile `(i, j)` of the label matrix.  A block's entry sits in the array at
  block index × block size + the coordinate inside the block, on each axis.
-/
import proofs.«116321_j12163347383058_2_alg».proof.Proof.FrameR2
import Idealize.ShloMosaic.Lib.Pipeline.Value
import Idealize.ShloMosaic.Lib.ValueIdx

noncomputable section

open scoped BigOperators

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the 8 × 4 grid, point `t` being `(t / 4, t % 4)`: the first window on the sample matrix
    follows the first coordinate, the second the second, the labels', the logits' and the partial sums' tiles both. -/
theorem index_maps2 : ∀ t : Fin cfg2.N, win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = t.val / 4 ∧ win2_2.index t (1 : Fin 2) = t.val % 4
    ∧ win2_3.index t (0 : Fin 2) = t.val / 4 ∧ win2_3.index t (1 : Fin 2) = t.val % 4
    ∧ win2_4.index t (0 : Fin 2) = t.val / 4 ∧ win2_4.index t (1 : Fin 2) = t.val % 4 :=
  (by decide +kernel : ∀ t : Fin grid2.N, _)

/-- The grid point with coordinates `(i, j)`. -/
def pt2 (i : Fin 8) (j : Fin 4) : Fin cfg2.N := ⟨4 * i.val + j.val, by rw [show cfg2.N = 32 from N_2]; omega⟩

theorem pt2_val (i : Fin 8) (j : Fin 4) : (pt2 i j).val = 4 * i.val + j.val := rfl

/-- The first window's block at point `t` is rows `1024 (t / 4) …` of the sample matrix. -/
theorem iblk2_0_apply (c : Dev nD) (t : Fin cfg2.N) (y : S1024x64.Idx) (i : S8192x64.Idx)
    (h0 : (i 0).val = t.val / 4 * 1024 + (y 0).val) (h1 : (i 1).val = (y 1).val) :
    (iblk2 V c 0 t : Vec Ideal S1024x64 .f32) y = (V c main_v34 : S8192x64.Idx → Elt Ideal .f32) i := by
  obtain ⟨e0, e1, -⟩ := index_maps2 t
  unfold iblk2
  rw [View.read_apply]
  show V c main_v34 _ = V c main_v34 _
  congr 1
  funext a
  apply Fin.ext
  match a with
  | ⟨0, _⟩ => show win2_0.index t (0 : Fin 2) * 1024 + 1 * (y 0).val = (i 0).val; rw [e0, h0]; omega
  | ⟨1, _⟩ => show win2_0.index t (1 : Fin 2) * 64 + 1 * (y 1).val = (i 1).val; rw [e1, h1]; omega

/-- The second window's block at point `t` is rows `2048 (t % 4) …` of the sample matrix. -/
theorem iblk2_1_apply (c : Dev nD) (t : Fin cfg2.N) (y : S2048x64.Idx) (i : S8192x64.Idx)
    (h0 : (i 0).val = t.val % 4 * 2048 + (y 0).val) (h1 : (i 1).val = (y 1).val) :
    (iblk2 V c 1 t : Vec Ideal S2048x64 .f32) y = (V c main_v34 : S8192x64.Idx → Elt Ideal .f32) i := by
  obtain ⟨-, -, e2, e3, -⟩ := index_maps2 t
  unfold iblk2
  rw [View.read_apply]
  show V c main_v34 _ = V c main_v34 _
  congr 1
  funext a
  apply Fin.ext
  match a with
  | ⟨0, _⟩ => show win2_1.index t (0 : Fin 2) * 2048 + 1 * (y 0).val = (i 0).val; rw [e2, h0]; omega
  | ⟨1, _⟩ => show win2_1.index t (1 : Fin 2) * 64 + 1 * (y 1).val = (i 1).val; rw [e3, h1]; omega

/-- The labels' block at point `t` is tile `(t / 4, t % 4)` of the label matrix. -/
theorem iblk2_2_apply (c : Dev nD) (t : Fin cfg2.N) (y : S1024x2048.Idx) (i : S8192x8192.Idx)
    (h0 : (i 0).val = t.val / 4 * 1024 + (y 0).val) (h1 : (i 1).val = t.val % 4 * 2048 + (y 1).val) :
    (iblk2 V c 2 t : Vec Ideal S1024x2048 .f32) y = (V c main_arg5 : S8192x8192.Idx → Elt Ideal .f32) i := by
  obtain ⟨-, -, -, -, e4, e5, -⟩ := index_maps2 t
  unfold iblk2
  rw [View.read_apply]
  show V c main_arg5 _ = V c main_arg5 _
  congr 1
  funext a
  apply Fin.ext
  match a with
  | ⟨0, _⟩ => show win2_2.index t (0 : Fin 2) * 1024 + 1 * (y 0).val = (i 0).val; rw [e4, h0]; omega
  | ⟨1, _⟩ => show win2_2.index t (1 : Fin 2) * 2048 + 1 * (y 1).val = (i 1).val; rw [e5, h1]; omega

/-- Block `i` of 1024 rows of the sample matrix, read at an entry. -/
theorem blk2_0_apply (c : Dev nD) (i : Fin 8) (j : Fin 4) (p : Fin 1024) (k : Fin 64) :
    iblk2 V c 0 (pt2 i j) (ix2 p k) = V c main_v34 (ix2 ⟨1024 * i.val + p.val, by omega⟩ k) :=
  iblk2_0_apply V c (pt2 i j) (ix2 p k) (ix2 ⟨1024 * i.val + p.val, by omega⟩ k)
    (by show 1024 * i.val + p.val = (4 * i.val + j.val) / 4 * 1024 + p.val; omega) rfl

/-- Block `j` of 2048 rows of the sample matrix, read at an entry. -/
theorem blk2_1_apply (c : Dev nD) (i : Fin 8) (j : Fin 4) (q : Fin 2048) (k : Fin 64) :
    iblk2 V c 1 (pt2 i j) (ix2 q k) = V c main_v34 (ix2 ⟨2048 * j.val + q.val, by omega⟩ k) :=
  iblk2_1_apply V c (pt2 i j) (ix2 q k) (ix2 ⟨2048 * j.val + q.val, by omega⟩ k)
    (by show 2048 * j.val + q.val = (4 * i.val + j.val) % 4 * 2048 + q.val; omega) rfl

/-- Tile `(i, j)` of the label matrix, read at an entry. -/
theorem blk2_2_apply (c : Dev nD) (i : Fin 8) (j : Fin 4) (p : Fin 1024) (q : Fin 2048) :
    iblk2 V c 2 (pt2 i j) (ix2 p q) = V c main_arg5 (ix2 ⟨1024 * i.val + p.val, by omega⟩ ⟨2048 * j.val + q.val, by omega⟩) :=
  iblk2_2_apply V c (pt2 i j) (ix2 p q) (ix2 ⟨1024 * i.val + p.val, by omega⟩ ⟨2048 * j.val + q.val, by omega⟩)
    (by show 1024 * i.val + p.val = (4 * i.val + j.val) / 4 * 1024 + p.val; omega)
    (by show 2048 * j.val + q.val = (4 * i.val + j.val) % 4 * 2048 + q.val; omega)

end Cert.KernelIdeal.Fr

end
-- ==== Proof.LaunchVal2Dec.lean ====
/-
  Launch 2's logits read as a value: after all write-backs the array holds the inner products of the rows of the
  sample matrix.  At the point with coordinates `(i, j)` the body contracts rows `1024 i …` with rows `2048 j …` of the
  same matrix over the 64 latent features and the write-back puts the tile at `(i, j)`; entry `(p, q)` of a tile only
  looks at row `p` of the first block and row `q` of the second, so the tiles are the tiles of ONE whole-array
  function, and the 32 tiles cover the array.
-/
import proofs.«116321_j12163347383058_2_alg».proof.Proof.LaunchVal2Blocks
import proofs.«116321_j12163347383058_2_alg».proof.Proof.BridgeLayersPay
import Idealize.ShloMosaic.Lib.Pipeline.Value
import Idealize.ShloMosaic.Lib.ValueIdx

noncomputable section

open scoped BigOperators

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

private theorem zero_offsets2 : (![0, 0] : Fin 2 → Nat) = fun _ => 0 := funext fun a => by fin_cases a <;> rfl

/-- The matrix of inner products of the rows of the sample matrix, entry by entry. -/
def dec (z : S8192x64.Idx → Elt Ideal .f32) : S8192x8192.Idx → Elt Ideal .f32 :=
  fun i => ∑ k : Fin 64, z (ix2 (i 0) k) * z (ix2 (i 1) k)

/-- The inner products at an entry: `Σ_k z (p, k) * z (q, k)` over the 64 latent features. -/
theorem dec_apply (z : S8192x64.Idx → Elt Ideal .f32) (p q : Fin 8192) :
    dec z (ix2 p q) = ∑ k : Fin 64, z (ix2 p k) * z (ix2 q k) := rfl

/-- Rows `r * 1024 …` against rows `s * 2048 …` of the sample matrix give tile `(r, s)` of the inner products. -/
theorem block_dec (Z : S8192x64.Idx → Elt Ideal .f32) (x0 : Vec Ideal S1024x64 .f32) (x1 : Vec Ideal S2048x64 .f32) (r s : Nat)
    (h0 : ∀ (y : S1024x64.Idx) (i : S8192x64.Idx), (i 0).val = r * 1024 + (y 0).val → (i 1).val = (y 1).val → x0 y = Z i)
    (h1 : ∀ (y : S2048x64.Idx) (i : S8192x64.Idx), (i 0).val = s * 2048 + (y 0).val → (i 1).val = (y 1).val → x1 y = Z i)
    (j : S1024x2048.Idx) (i : S8192x8192.Idx) (hi0 : (i 0).val = r * 1024 + (j 0).val) (hi1 : (i 1).val = s * 2048 + (j 1).val) :
    k2_pay2 (F := Ideal) x0 x1 j = dec Z i := by
  obtain ⟨p, q, rfl⟩ : ∃ (p : Fin 1024) (q : Fin 2048), j = ix2 p q := ⟨j 0, j 1, eq_ix2 j⟩
  rw [Cert.Bridge.pay_dec]
  unfold dec
  refine Finset.sum_congr rfl fun k _ => ?_
  rw [h0 (ix2 p k) (ix2 (i 0) k) hi0 rfl, h1 (ix2 q k) (ix2 (i 1) k) hi1 rfl]

/-- What point `t` writes back to the logits is tile `t` of the inner products of the sample matrix as the launch finds it. -/
theorem flushed2_3_eq (c : Dev nD) (t : Fin cfg2.N) :
    (dat2 (F := Ideal) V c).flushed 3 t = ((cfg2.win 3).blk t).view.read (Elt Ideal) (dec (V c main_v34)) := by
  show (cfg2.win 3).cut (grid2.coords t) ((dat2 V c).after 3 t) = _
  rw [after2_3]
  unfold out2_3
  rw [View.canon_unit_zero zero_offsets2]
  simp only [View.ld_unit_zero (S := S1024x64) zero_offsets2, View.ld_unit_zero (S := S2048x64) zero_offsets2]
  obtain ⟨-, -, -, -, -, -, e6, e7, -⟩ := index_maps2 t
  funext j
  show k2_pay2 (iblk2 V c 0 t) (iblk2 V c 1 t) j = dec (V c main_v34) (((cfg2.win 3).blk t).view.emb j)
  refine block_dec _ _ _ (t.val / 4) (t.val % 4) (fun y i h0 h1 => iblk2_0_apply V c t y i h0 h1)
    (fun y i h0 h1 => iblk2_1_apply V c t y i h0 h1) j _ ?_ ?_
  · show win2_3.index t (0 : Fin 2) * 1024 + 1 * (j 0).val = t.val / 4 * 1024 + (j 0).val
    rw [e6]; omega
  · show win2_3.index t (1 : Fin 2) * 2048 + 1 * (j 1).val = t.val % 4 * 2048 + (j 1).val
    rw [e7]; omega

/-- An index of the logits is in point `t`'s tile iff each coordinate is in the tile's range on its axis. -/
theorem mem_blk2_3 (t : Fin cfg2.N) (i : S8192x8192.Idx) :
    i ∈ ((cfg2.win 3).blk t).view.set ↔ ∀ a : Fin 2, win2_3.index t a * S1024x2048.size a ≤ (i a).val ∧ (i a).val < win2_3.index t a * S1024x2048.size a + S1024x2048.size a := by
  show i ∈ ((View.whole main_v35_0).slice (win2_3.rect t)).set ↔ _
  rw [View.set_slice_whole, Rect.mem_set_unit]
  exact Iff.rfl

/-- Every entry `(r, s)` of the logits is in the tile of the point `4 (r / 1024) + s / 2048`. -/
theorem cover2_3_tiles (i : S8192x8192.Idx) :
    ∃ t : Fin cfg2.N, (cfg2.win 3).flush t = true ∧ i ∈ ((cfg2.win 3).blk t).view.set := by
  have hi0 : (i 0).val < 8192 := (i 0).isLt
  have hi1 : (i 1).val < 8192 := (i 1).isLt
  have hN : cfg2.N = 32 := N_2
  refine ⟨⟨4 * ((i 0).val / 1024) + (i 1).val / 2048, by rw [hN]; omega⟩, flush2_3 _, ?_⟩
  rw [mem_blk2_3]
  obtain ⟨-, -, -, -, -, -, e6, e7, -⟩ := index_maps2 ⟨4 * ((i 0).val / 1024) + (i 1).val / 2048, by rw [hN]; omega⟩
  intro a
  match a with
  | ⟨0, _⟩ =>
    show win2_3.index _ (0 : Fin 2) * 1024 ≤ (i 0).val ∧ (i 0).val < win2_3.index _ (0 : Fin 2) * 1024 + 1024
    rw [e6]
    show (4 * ((i 0).val / 1024) + (i 1).val / 2048) / 4 * 1024 ≤ (i 0).val ∧ (i 0).val < (4 * ((i 0).val / 1024) + (i 1).val / 2048) / 4 * 1024 + 1024
    omega
  | ⟨1, _⟩ =>
    show win2_3.index _ (1 : Fin 2) * 2048 ≤ (i 1).val ∧ (i 1).val < win2_3.index _ (1 : Fin 2) * 2048 + 2048
    rw [e7]
    show (4 * ((i 0).val / 1024) + (i 1).val / 2048) % 4 * 2048 ≤ (i 1).val ∧ (i 1).val < (4 * ((i 0).val / 1024) + (i 1).val / 2048) % 4 * 2048 + 2048
    omega

/-- The logits after the launch are the inner products of the rows of the sample matrix as the launch finds it. -/
theorem dec_array (c : Dev nD) : (dat2 (F := Ideal) V c).arrAt 3 cfg2.N = dec (V c main_v34) :=
  (dat2 V c).arrAt_eq_of_cover 3 _ (fun t _ => flushed2_3_eq V c t) cover2_3_tiles

/-- Entry `(p, q)` of the logits after the launch. -/
theorem dec_val (c : Dev nD) (p q : Fin 8192) :
    (dat2 (F := Ideal) V c).arrAt 3 cfg2.N (ix2 p q) = dec (V c main_v34) (ix2 p q) := by
  rw [dec_array]

end Cert.KernelIdeal.Fr

end
-- ==== Proof.BridgeDecode.lean ====
/-
  The decoder: a matrix holding `Σ_k Z (p, k) * Z (q, k)` at every entry is the reference's `Z · Zᵀ`.

  Entry `(p, q)` of the plain product of `Z` with its transpose is `Σ_k Z (p, k) * Zᵀ (k, q)`, and entry `(k, q)` of
  the transpose is `Z (q, k)`.
-/
import proofs.«116321_j12163347383058_2_alg».proof.Proof.Gen.ReferenceIdeal.Read
import proofs.«116321_j12163347383058_2_alg».proof.Proof.LibDotGeneralPlain

noncomputable section

open scoped BigOperators

namespace Cert.Bridge

open Idealize.ShloMosaic Idealize.ShloMosaic.ValueIdx

/-- A matrix holding `Σ_k Z (p, k) * Z (q, k)` at every entry is the plain product of `Z` with its transpose. -/
theorem A_eq (z : (⟨Cert.ReferenceIdeal.S8192x64, .f32⟩ : BufTy).Contents (Elt Ideal))
    (aout : (⟨Cert.ReferenceIdeal.S8192x8192, .f32⟩ : BufTy).Contents (Elt Ideal))
    (h2 : ∀ (p q : Fin 8192), aout (ix2 p q) = ∑ k : Fin 64, z (ix2 p k) * z (ix2 q k)) :
    aout = Host.dotGeneral (F := Ideal) (φ₁ := .f32) (φ₂ := .f32) Cert.ReferenceIdeal.dot_S8192x64_S64x8192_S8192x8192_1_0_0_1_n_n none z
             (transpose (α := Ideal .f32) Cert.ReferenceIdeal.S64x8192 [1, 0] z Cert.ReferenceIdeal.Facts₀.transposes_S8192x64_S64x8192_1_0) := by
  funext j
  obtain ⟨p, q, rfl⟩ : ∃ (p : Fin 8192) (q : Fin 8192), j = ix2 p q := ⟨j 0, j 1, eq_ix2 j⟩
  rw [h2]
  refine Eq.trans ?_ (Cert.Lib.dotGeneral_plain_apply (φ₁ := .f32) (φ₂ := .f32) 8192 64 8192 none z
    (transpose (α := Ideal .f32) Cert.ReferenceIdeal.S64x8192 [1, 0] z Cert.ReferenceIdeal.Facts₀.transposes_S8192x64_S64x8192_1_0) p q).symm
  refine Finset.sum_congr rfl fun k _ => ?_
  refine congrArg (z (ix2 p k) * ·) ?_
  exact (transpose_apply (α := Ideal .f32) [1, 0] z Cert.ReferenceIdeal.Facts₀.transposes_S8192x64_S64x8192_1_0 (ix2 k q) (ix2 q k)
    (fun b => match b with
      | ⟨0, _⟩ => rfl
      | ⟨1, _⟩ => rfl)).symm

/-- With `Z` the reference's sample, the product above is the reference's adjacency logits. -/
theorem A_eq_ref (x0 : (⟨Cert.ReferenceIdeal.S8192x512, .f32⟩ : BufTy).Contents (Elt Ideal))
    (x1 : (⟨Cert.ReferenceIdeal.S512x256, .f32⟩ : BufTy).Contents (Elt Ideal))
    (x2 x3 : (⟨Cert.ReferenceIdeal.S256x64, .f32⟩ : BufTy).Contents (Elt Ideal))
    (x4 : (⟨Cert.ReferenceIdeal.S262144, .f32⟩ : BufTy).Contents (Elt Ideal))
    (x6 : (⟨Cert.ReferenceIdeal.S8192x64, .f32⟩ : BufTy).Contents (Elt Ideal))
    (x7 x8 : (⟨Cert.ReferenceIdeal.S262144, .i32⟩ : BufTy).Contents (Elt Ideal))
    (aout : (⟨Cert.ReferenceIdeal.S8192x8192, .f32⟩ : BufTy).Contents (Elt Ideal))
    (h2 : ∀ (p q : Fin 8192), aout (ix2 p q)
      = ∑ k : Fin 64, Cert.ReferenceIdeal.Read.val_main_v45 (F := Ideal) x0 x1 x2 x3 x4 x6 x7 x8 (ix2 p k)
          * Cert.ReferenceIdeal.Read.val_main_v45 (F := Ideal) x0 x1 x2 x3 x4 x6 x7 x8 (ix2 q k)) :
    aout = Cert.ReferenceIdeal.Read.val_main_v47 (F := Ideal) x0 x1 x2 x3 x4 x6 x7 x8 :=
  A_eq (Cert.ReferenceIdeal.Read.val_main_v45 (F := Ideal) x0 x1 x2 x3 x4 x6 x7 x8) aout h2

end Cert.Bridge

end
-- ==== Proof.KerValueLogits.lean ====
/-
  The kernel's first result, the adjacency logits, is the reference's.

  The third launch leaves `Z · Zᵀ` of the sample it finds in its result array, entry by entry; the sample is the
  reference's; the stretch after the launch does not write the array.
-/
import proofs.«116321_j12163347383058_2_alg».proof.Proof.KerValueA
import proofs.«116321_j12163347383058_2_alg».proof.Proof.LaunchVal2Dec
import proofs.«116321_j12163347383058_2_alg».proof.Proof.BridgeDecode

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.ValueIdx

variable (m : (ℓ : Loc nD τ sig) → Buf (Elt Ideal) ℓ) (ρ : Dev nD → PrngReg)

/-- The third launch leaves the reference's logits. -/
theorem W7_v35_0R (c : Dev nD) : W7 (F := Ideal) m ρ c (Proc.devRef .tc main_v35_0) = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) := by
  refine Cert.Bridge.A_eq_ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (W7 (F := Ideal) m ρ c (Proc.devRef .tc main_v35_0)) (fun p q => ?_)
  rw [W7_v35_0 m ρ c, dec_array]
  show dec (W6 (F := Ideal) m ρ c (Proc.devRef .tc main_v34)) (ix2 p q) = _
  rw [W6_v34R m ρ c]
  rfl

/-- THE LOGITS: at the end of the run the first result buffer holds the reference's `Z · Zᵀ`. -/
theorem kerA (c : Dev nD) : W8 (F := Ideal) m ρ c (Proc.devRef .tc main_v35_0) = Cert.ReferenceIdeal.Read.val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) :=
  (W8_v35_0 m ρ c).trans (W7_v35_0R m ρ c)

end Cert.KernelIdeal.Fr

end
-- ==== Proof.BridgeLossWce.lean ====
/-
  The weighted cross-entropy of one logit against one label, as a function of two extended reals.

  With `softplus y = max y 0 + log (1 + exp (-|y|))` (`|y| = max y (-y)`), the loss integrand at a logit `x` and
  a label `z` is `(1 - z) · x + (1 + 254 · z) · softplus (-x)`, the two literals being the words both programs
  carry.  Both programs guard their softplus by a select on `y - 0 ≠ y - 0`; over the extended reals nothing
  differs from itself, so the select always takes the branch written above.  Only `y - 0 = y` is used besides.
-/
import Idealize.ShloMosaic.PureOps.Ideal.Laws
import Idealize.ShloMosaic.Lib.ValueIdx

noncomputable section

namespace Cert.Bridge

open Idealize.ShloMosaic Idealize.ShloMosaic.ValueIdx

/-- `max y 0 + log (1 + exp (-|y|))`, the overflow-free form of `log (1 + exp y)`. -/
def softplus (y : EReal) : EReal := max y 0 + Ideal.log1p (Ideal.exp (-(max y (-y))))

/-- The weighted cross-entropy of the logit `x` against the label `z`: `(1 - z) · x + (1 + 254 · z) · softplus (-x)`. -/
def wce (x z : EReal) : EReal :=
  (Ideal.ofBits .f32 0x3F800000#32 - z) * x
    + (Ideal.ofBits .f32 0x3F800000#32 + Ideal.ofBits .f32 0x437E0000#32 * z) * softplus (-x)

/-- No extended real differs from itself: the "not equal" comparison of a value with itself is the bit `0`,
    whether it is spelled unordered … -/
theorem cmp_une_self (y : EReal) : Ideal.cmp .une y y = 0#1 := by simp [Ideal.cmp]
/-- … or ordered. -/
theorem cmp_one_self (y : EReal) : Ideal.cmp .one y y = 0#1 := by simp [Ideal.cmp]

/-- The guarded softplus, with the guard `y - 0 ≠ y - 0` spelled unordered, is `softplus` … -/
theorem guarded_softplus_une (y a : EReal) :
    Scalar.select (Ideal.cmp .une (y - 0) (y - 0)) a
        (max y 0 + Ideal.log1p (Ideal.exp (-(max (y - 0) (-(y - 0)))))) = softplus y := by
  rw [cmp_une_self, select_zero, sub_zero]; rfl
/-- … and so it is with the guard spelled ordered. -/
theorem guarded_softplus_one (y a : EReal) :
    Scalar.select (Ideal.cmp .one (y - 0) (y - 0)) a
        (max y 0 + Ideal.log1p (Ideal.exp (-(max (y - 0) (-(y - 0)))))) = softplus y := by
  rw [cmp_one_self, select_zero, sub_zero]; rfl

end Cert.Bridge

end
-- ==== Proof.BridgeLossRef.lean ====
/-
  The reference's loss integrand — the array it sums for the reconstruction term — read at an entry: it is the
  weighted cross-entropy `wce` of the logit and of the label at that entry.  The reference negates the logit,
  passes it to its guarded softplus, and combines; each step is read at the entry and the guard is discharged.
-/
import proofs.«116321_j12163347383058_2_alg».proof.Proof.Gen.ReferenceIdeal.Read
import proofs.«116321_j12163347383058_2_alg».proof.Proof.BridgeLossWce

noncomputable section

namespace Cert.Bridge

open Idealize.ShloMosaic Idealize.ShloMosaic.ValueIdx

open Cert.ReferenceIdeal.Read in
/-- The reference's loss integrand at an entry is `wce` of the logit and the label there. -/
theorem ref_wce_apply (x0 : (⟨Cert.ReferenceIdeal.S8192x512, .f32⟩ : BufTy).Contents (Elt Ideal)) (x1 : (⟨Cert.ReferenceIdeal.S512x256, .f32⟩ : BufTy).Contents (Elt Ideal)) (x2 x3 : (⟨Cert.ReferenceIdeal.S256x64, .f32⟩ : BufTy).Contents (Elt Ideal)) (x4 : (⟨Cert.ReferenceIdeal.S262144, .f32⟩ : BufTy).Contents (Elt Ideal)) (x5 : (⟨Cert.ReferenceIdeal.S8192x8192, .f32⟩ : BufTy).Contents (Elt Ideal)) (x6 : (⟨Cert.ReferenceIdeal.S8192x64, .f32⟩ : BufTy).Contents (Elt Ideal)) (x7 x8 : (⟨Cert.ReferenceIdeal.S262144, .i32⟩ : BufTy).Contents (Elt Ideal)) (i : Cert.ReferenceIdeal.S8192x8192.Idx) :
    val_main_v58 (F := Ideal) x0 x1 x2 x3 x4 x5 x6 x7 x8 i
      = wce (val_main_v47 (F := Ideal) x0 x1 x2 x3 x4 x6 x7 x8 i) (x5 i) := by
  simp only [val_main_v58_apply, val_main_v57_apply, val_main_v56_apply, val_main_v54_apply, val_main_v53_apply,
    val_main_v52_apply, val_main_cst_9_apply, val_main_v51_apply, val_main_v50_apply, val_main_cst_8_apply,
    val_main_v49_apply, val_main_v48_apply, val_main_cst_7_apply, val_main_call1_v11_apply, val_main_call1_v10_apply,
    val_main_call1_v9_apply, val_main_call1_v8_apply, val_main_call1_v7_apply, val_main_call1_v6_apply,
    val_main_call1_v5_apply, val_main_call1_v4_apply, val_main_call1_v3_apply, val_main_call1_v2_apply,
    val_main_call1_v1_apply, val_main_call1_v0_apply, val_main_call1_cst_apply, val_main_v55_apply]
  generalize val_main_v47 (F := Ideal) x0 x1 x2 x3 x4 x6 x7 x8 i = A
  generalize x5 i = z
  show (Ideal.ofBits .f32 0x3F800000#32 - z) * A
      + (Ideal.ofBits .f32 0x3F800000#32 + Ideal.ofBits .f32 0x437E0000#32 * z)
        * Scalar.select (Ideal.cmp .une (-A - Ideal.ofBits .f32 0x00000000#32) (-A - Ideal.ofBits .f32 0x00000000#32))
            (-A + Ideal.ofBits .f32 0x00000000#32)
            (max (-A) (Ideal.ofBits .f32 0x00000000#32)
              + Ideal.log1p (Ideal.exp (-(max (-A - Ideal.ofBits .f32 0x00000000#32) (-(-A - Ideal.ofBits .f32 0x00000000#32))))))
      = wce A z
  rw [Ideal.ofBits_zero_f32, guarded_softplus_une]
  rfl

end Cert.Bridge

end
-- ==== Proof.LibSumRegroup.lean ====
/-
  Regrouping a finite sum in a commutative monoid: a sum over m·n consecutive positions as a double sum
  over the quotient and the remainder of the position by n, and a sum over a rank-1 index set as the sum
  over its one coordinate. Both hold in any additive commutative monoid — in particular on the extended
  reals, where no finiteness is needed to regroup a sum.
-/
import Idealize.ShloMosaic.PureOps.Ideal
import Idealize.ShloMosaic.Lib.ValueIdx

noncomputable section

open scoped BigOperators

namespace Cert.Lib.SumRegroup

open Idealize.ShloMosaic Idealize.ShloMosaic.ValueIdx

/-- A sum over m·n consecutive positions is the double sum over (c, d) of the position n·c + d. -/
theorem sum_fin_mul {M : Type*} [AddCommMonoid M] (m n N : ℕ) (hN : N = m * n) (f : Fin N → M) :
    ∑ k : Fin N, f k = ∑ c : Fin m, ∑ d : Fin n, f (Fin.cast hN.symm (finProdFinEquiv (c, d))) := by
  subst hN
  rw [← Equiv.sum_comp finProdFinEquiv f, Fintype.sum_prod_type]
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Lib.SumRegroup

end
-- ==== Proof.BridgeLossTotal.lean ====
/-
  The total of the per-tile partial sums is the total over the whole matrix.

  The [8192,8192] matrix is cut into an 8 × 4 grid of [1024,2048] tiles; the [64,512] array of partial sums is
  cut into the same grid of [8,128] blocks, and block (i, j) holds the sum over tile (i, j) at its entry (0,0)
  and zero elsewhere.  Summing the blocks therefore sums the tiles, and summing the tiles sums the matrix: a row
  index below 8192 is 1024·i + p, a column index is 2048·j + q, and a finite sum in a commutative monoid may be
  taken in any order.  Nothing but the commutative-monoid laws of the extended reals is used.
-/
import proofs.«116321_j12163347383058_2_alg».proof.Proof.Gen.KernelIdeal
import proofs.«116321_j12163347383058_2_alg».proof.Proof.Gen.ReferenceIdeal
import proofs.«116321_j12163347383058_2_alg».proof.Proof.BridgeLossWce
import proofs.«116321_j12163347383058_2_alg».proof.Proof.LibSumRegroup

noncomputable section

open scoped BigOperators

namespace Cert.Bridge

open Idealize.ShloMosaic Idealize.ShloMosaic.ValueIdx

/-- Position `d` of block `c`, in blocks of `n`, lies below `m · n`. -/
theorem lt_tile {m n N : ℕ} (hN : N = m * n) (c : Fin m) (d : Fin n) : n * c.val + d.val < N := by
  subst hN
  calc n * c.val + d.val < n * c.val + n := Nat.add_lt_add_left d.isLt _
    _ = n * (c.val + 1) := (Nat.mul_succ _ _).symm
    _ ≤ n * m := Nat.mul_le_mul_left _ c.isLt
    _ = m * n := Nat.mul_comm _ _

/-- A sum over m·n consecutive positions, block by block: position `n·c + d` is position `d` of block `c`. -/
theorem sum_tiles {M : Type*} [AddCommMonoid M] (m n N : ℕ) (hN : N = m * n) (f : Fin N → M) :
    ∑ k : Fin N, f k = ∑ c : Fin m, ∑ d : Fin n, f ⟨n * c.val + d.val, lt_tile hN c d⟩ := by
  rw [Cert.Lib.SumRegroup.sum_fin_mul m n N hN f]
  refine Finset.sum_congr rfl fun c _ => Finset.sum_congr rfl fun d _ => congrArg f (Fin.ext ?_)
  show d.val + n * c.val = n * c.val + d.val
  exact Nat.add_comm _ _

/-- A block that holds `T` at its entry (0,0) and zero elsewhere sums to `T`. -/
theorem sum_corner {M : Type*} [AddCommMonoid M] {m n : ℕ} (hm : 0 < m) (hn : 0 < n) (T : M) :
    ∑ a : Fin m, ∑ b : Fin n, (if a.val = 0 ∧ b.val = 0 then T else 0) = T := by
  rw [Finset.sum_eq_single (⟨0, hm⟩ : Fin m), Finset.sum_eq_single (⟨0, hn⟩ : Fin n)]
  · exact if_pos ⟨rfl, rfl⟩
  · intro b _ hb
    exact if_neg fun h => hb (Fin.ext h.2)
  · intro h; exact absurd (Finset.mem_univ _) h
  · intro a _ ha
    exact Finset.sum_eq_zero fun b _ => if_neg fun h => ha (Fin.ext h.1)
  · intro h; exact absurd (Finset.mem_univ _) h

/-- The host's sum of a whole array into a single number is the initial value plus the sum over all indices. -/
theorem host_total {s : Shape} {axes : List (Fin s.rank)} (x : s.Idx → EReal) (init : (⟨0, ![]⟩ : Shape).Idx → EReal)
    (h : s.ReducesTo axes ⟨0, ![]⟩) (hu : 0 < (⟨0, ![]⟩ : Shape).numel) (j : (⟨0, ![]⟩ : Shape).Idx) :
    Host.reduceAdd (F := Ideal) (φ := .f32) x init h hu j = init (Shape.Idx.first hu) + ∑ i : s.Idx, x i := by
  simp only [Host.reduceAdd, Ideal.hostReduceAdd_def]
  exact Ideal.hostReduceAdd_total h (fun b => b.elim0) x _ j

/-- The sum of the weighted cross-entropies over tile (i, j) of the matrix. -/
def tileSum (aout x5 : (⟨2, ![8192, 8192]⟩ : Shape).Idx → EReal) (i : Fin 8) (j : Fin 4) : EReal :=
  ∑ p : Fin 1024, ∑ q : Fin 2048,
    wce (aout (ix2 ⟨1024 * i.val + p.val, by omega⟩ ⟨2048 * j.val + q.val, by omega⟩))
        (x5 (ix2 ⟨1024 * i.val + p.val, by omega⟩ ⟨2048 * j.val + q.val, by omega⟩))

/-- Summing the partial sums, block by block, sums the tiles. -/
theorem sum_partials (aout x5 : (⟨2, ![8192, 8192]⟩ : Shape).Idx → EReal) (partials : (⟨2, ![64, 512]⟩ : Shape).Idx → EReal)
    (h3 : ∀ (i : Fin 8) (j : Fin 4) (a : Fin 8) (b : Fin 128),
      partials (ix2 ⟨8 * i.val + a.val, by omega⟩ ⟨128 * j.val + b.val, by omega⟩)
        = if a.val = 0 ∧ b.val = 0 then tileSum aout x5 i j else 0) :
    ∑ k : (⟨2, ![64, 512]⟩ : Shape).Idx, partials k = ∑ i : Fin 8, ∑ j : Fin 4, tileSum aout x5 i j := by
  rw [sum_idx2, sum_tiles 8 8 64 rfl]
  refine Finset.sum_congr rfl fun i _ => ?_
  have hL : ∀ a : Fin 8, ∑ c : Fin 512, partials (ix2 ⟨8 * i.val + a.val, lt_tile rfl i a⟩ c)
      = ∑ j : Fin 4, ∑ b : Fin 128, (if a.val = 0 ∧ b.val = 0 then tileSum aout x5 i j else 0) := by
    intro a
    rw [sum_tiles 4 128 512 rfl]
    exact Finset.sum_congr rfl fun j _ => Finset.sum_congr rfl fun b _ => h3 i j a b
  calc ∑ a : Fin 8, ∑ c : Fin 512, partials (ix2 ⟨8 * i.val + a.val, lt_tile rfl i a⟩ c)
      = ∑ a : Fin 8, ∑ j : Fin 4, ∑ b : Fin 128, (if a.val = 0 ∧ b.val = 0 then tileSum aout x5 i j else 0) :=
        Finset.sum_congr rfl fun a _ => hL a
    _ = ∑ j : Fin 4, ∑ a : Fin 8, ∑ b : Fin 128, (if a.val = 0 ∧ b.val = 0 then tileSum aout x5 i j else 0) :=
        Finset.sum_comm
    _ = ∑ j : Fin 4, tileSum aout x5 i j :=
        Finset.sum_congr rfl fun j _ => sum_corner (by omega) (by omega) _

/-- Summing the matrix, tile by tile. -/
theorem sum_matrix (aout x5 : (⟨2, ![8192, 8192]⟩ : Shape).Idx → EReal) :
    ∑ k : (⟨2, ![8192, 8192]⟩ : Shape).Idx, wce (aout k) (x5 k) = ∑ i : Fin 8, ∑ j : Fin 4, tileSum aout x5 i j := by
  rw [sum_idx2, sum_tiles 8 1024 8192 rfl]
  refine Finset.sum_congr rfl fun i _ => ?_
  calc ∑ p : Fin 1024, ∑ c : Fin 8192, wce (aout (ix2 ⟨1024 * i.val + p.val, lt_tile rfl i p⟩ c)) (x5 (ix2 ⟨1024 * i.val + p.val, lt_tile rfl i p⟩ c))
      = ∑ p : Fin 1024, ∑ j : Fin 4, ∑ q : Fin 2048,
          wce (aout (ix2 ⟨1024 * i.val + p.val, lt_tile rfl i p⟩ ⟨2048 * j.val + q.val, lt_tile rfl j q⟩))
              (x5 (ix2 ⟨1024 * i.val + p.val, lt_tile rfl i p⟩ ⟨2048 * j.val + q.val, lt_tile rfl j q⟩)) :=
        Finset.sum_congr rfl fun p _ => sum_tiles 4 2048 8192 rfl _
    _ = ∑ j : Fin 4, ∑ p : Fin 1024, ∑ q : Fin 2048,
          wce (aout (ix2 ⟨1024 * i.val + p.val, lt_tile rfl i p⟩ ⟨2048 * j.val + q.val, lt_tile rfl j q⟩))
              (x5 (ix2 ⟨1024 * i.val + p.val, lt_tile rfl i p⟩ ⟨2048 * j.val + q.val, lt_tile rfl j q⟩)) :=
        Finset.sum_comm
    _ = ∑ j : Fin 4, tileSum aout x5 i j := rfl

/-- The host's total of the partial sums is its total of the weighted cross-entropies over the whole matrix. -/
theorem partials_total (aout x5 : (⟨Cert.ReferenceIdeal.S8192x8192, .f32⟩ : BufTy).Contents (Elt Ideal))
    (partials : (⟨Cert.KernelIdeal.S64x512, .f32⟩ : BufTy).Contents (Elt Ideal))
    (h3 : ∀ (i : Fin 8) (j : Fin 4) (a : Fin 8) (b : Fin 128),
      partials (ix2 ⟨8 * i.val + a.val, by omega⟩ ⟨128 * j.val + b.val, by omega⟩)
        = if a.val = 0 ∧ b.val = 0 then
            ∑ p : Fin 1024, ∑ q : Fin 2048,
              wce (aout (ix2 ⟨1024 * i.val + p.val, by omega⟩ ⟨2048 * j.val + q.val, by omega⟩))
                  (x5 (ix2 ⟨1024 * i.val + p.val, by omega⟩ ⟨2048 * j.val + q.val, by omega⟩))
          else 0) :
    Host.reduceAdd (F := Ideal) partials (constant (F := Ideal) Cert.KernelIdeal.S_ .f32 0x00000000#32)
        Cert.KernelIdeal.Gen.reducesTo_S64x512_S_d0_1 Cert.KernelIdeal.Gen.h_S_
      = Host.reduceAdd (F := Ideal) (fun idx => wce (aout idx) (x5 idx))
          (constant (F := Ideal) Cert.ReferenceIdeal.S_ .f32 0x00000000#32)
          Cert.ReferenceIdeal.Gen.reducesTo_S8192x8192_S_d0_1 Cert.ReferenceIdeal.Gen.h_S_ := by
  funext j
  refine (host_total partials _ _ _ j).trans (Eq.trans ?_ (host_total (fun idx => wce (aout idx) (x5 idx)) _ _ _ j).symm)
  show Ideal.ofBits .f32 0x00000000#32 + _ = Ideal.ofBits .f32 0x00000000#32 + _
  congr 1
  exact (sum_partials aout x5 partials h3).trans (sum_matrix aout x5).symm

end Cert.Bridge

end
-- ==== Proof.BridgeLossFinal.lean ====
/-
  The loss: the kernel's scalar result is the reference's.

  The kernel's loss is the scaled mean of the per-tile partial sums plus the scaled Kullback-Leibler term of the
  mean and log-deviation halves; the reference's is the scaled mean of the weighted cross-entropy over the whole
  matrix plus the same Kullback-Leibler term.  The second summands are the same operations in the same order on
  the same arrays.  The first summands agree because the total of the partial sums is the total of the weighted
  cross-entropies over the matrix, and the reference's integrand is that weighted cross-entropy entry by entry.
-/
import proofs.«116321_j12163347383058_2_alg».proof.Proof.KerTerms
import proofs.«116321_j12163347383058_2_alg».proof.Proof.BridgeLossRef
import proofs.«116321_j12163347383058_2_alg».proof.Proof.BridgeLossTotal

noncomputable section

namespace Cert.Bridge

open Idealize.ShloMosaic Idealize.ShloMosaic.ValueIdx

open Cert.ReferenceIdeal.Read in
/-- The kernel's loss, over partial sums that hold each tile's sum of weighted cross-entropies of the reference's
    logits at the corner of its block, and over the reference's mean and log-deviation arrays, is the reference's loss. -/
theorem v53_eq (x0 : (⟨Cert.ReferenceIdeal.S8192x512, .f32⟩ : BufTy).Contents (Elt Ideal)) (x1 : (⟨Cert.ReferenceIdeal.S512x256, .f32⟩ : BufTy).Contents (Elt Ideal)) (x2 x3 : (⟨Cert.ReferenceIdeal.S256x64, .f32⟩ : BufTy).Contents (Elt Ideal)) (x4 : (⟨Cert.ReferenceIdeal.S262144, .f32⟩ : BufTy).Contents (Elt Ideal)) (x5 : (⟨Cert.ReferenceIdeal.S8192x8192, .f32⟩ : BufTy).Contents (Elt Ideal)) (x6 : (⟨Cert.ReferenceIdeal.S8192x64, .f32⟩ : BufTy).Contents (Elt Ideal)) (x7 x8 : (⟨Cert.ReferenceIdeal.S262144, .i32⟩ : BufTy).Contents (Elt Ideal))
    (partials : (⟨Cert.KernelIdeal.S64x512, .f32⟩ : BufTy).Contents (Elt Ideal))
    (aout : (⟨Cert.ReferenceIdeal.S8192x8192, .f32⟩ : BufTy).Contents (Elt Ideal))
    (mean logs : (⟨Cert.KernelIdeal.S8192x64, .f32⟩ : BufTy).Contents (Elt Ideal))
    (haout : aout = val_main_v47 (F := Ideal) x0 x1 x2 x3 x4 x6 x7 x8)
    (hmean : mean = val_main_v28 (F := Ideal) x0 x1 x2 x4 x7 x8)
    (hlogs : logs = val_main_v42 (F := Ideal) x0 x1 x3 x4 x7 x8)
    (h3 : ∀ (i : Fin 8) (j : Fin 4) (a : Fin 8) (b : Fin 128),
      partials (ix2 ⟨8 * i.val + a.val, by omega⟩ ⟨128 * j.val + b.val, by omega⟩)
        = if a.val = 0 ∧ b.val = 0 then
            ∑ p : Fin 1024, ∑ q : Fin 2048,
              wce (aout (ix2 ⟨1024 * i.val + p.val, by omega⟩ ⟨2048 * j.val + q.val, by omega⟩))
                  (x5 (ix2 ⟨1024 * i.val + p.val, by omega⟩ ⟨2048 * j.val + q.val, by omega⟩))
          else 0) :
    Cert.KernelIdeal.Terms.v53 (F := Ideal) partials mean logs
      = val_main_v76 (F := Ideal) x0 x1 x2 x3 x4 x5 x6 x7 x8 := by
  subst haout hmean hlogs
  have hsum := partials_total (val_main_v47 (F := Ideal) x0 x1 x2 x3 x4 x6 x7 x8) x5 partials h3
  have href : (fun idx => wce (val_main_v47 (F := Ideal) x0 x1 x2 x3 x4 x6 x7 x8 idx) (x5 idx))
      = val_main_v58 (F := Ideal) x0 x1 x2 x3 x4 x5 x6 x7 x8 :=
    funext fun i => (ref_wce_apply x0 x1 x2 x3 x4 x5 x6 x7 x8 i).symm
  rw [href] at hsum
  unfold Cert.KernelIdeal.Terms.v53
  rw [hsum]
  rfl

end Cert.Bridge

end
-- ==== Proof.BridgeLossTile.lean ====
/-
  One tile of the fused decode-and-loss launch, read as mathematics.

  On a [1024,2048] tile `a` of logits and the tile `z` of labels the launch forms, entry by entry, the weighted
  cross-entropy `wce (a i) (z i)` (it writes the negation as `0 - a`, and guards its softplus by `y - 0 ≠ y - 0`,
  which never holds), adds all the entries of the tile into one number, and writes into its [8,128] block of the
  partial-sum array that number at entry (0,0) and zero everywhere else.
-/
import proofs.«116321_j12163347383058_2_alg».proof.Proof.Gen.KernelIdeal.Skeleton
import proofs.«116321_j12163347383058_2_alg».proof.Proof.BridgeLossWce
import proofs.«116321_j12163347383058_2_alg».proof.Proof.LibTotalSum

noncomputable section

namespace Cert.Bridge

open Idealize.ShloMosaic Idealize.ShloMosaic.ValueIdx
open Cert.KernelIdeal Cert.KernelIdeal.Gen

/-- The tile of integrands the launch sums: its arithmetic on a tile `a` of logits and a tile `z` of labels,
    operation by operation as the launch has it. -/
def wceTile (a z : FVec Ideal S1024x2048 .f32) : FVec Ideal S1024x2048 .f32 :=
  addf (mulf (subf (broadcast S1024x2048 (Scalar.ofBits .f32 0x3F800000#32)) z) a)
    (mulf (addf (broadcast S1024x2048 (Scalar.ofBits .f32 0x3F800000#32))
            (mulf (broadcast S1024x2048 (Scalar.ofBits .f32 0x437E0000#32)) z))
      (select
        (cmpf .one (subf (subf (broadcast S1024x2048 (Scalar.ofBits .f32 0x00000000#32)) a) (broadcast S1024x2048 (Scalar.ofBits .f32 0x00000000#32)))
                   (subf (subf (broadcast S1024x2048 (Scalar.ofBits .f32 0x00000000#32)) a) (broadcast S1024x2048 (Scalar.ofBits .f32 0x00000000#32))))
        (addf (subf (broadcast S1024x2048 (Scalar.ofBits .f32 0x00000000#32)) a) (broadcast S1024x2048 (Scalar.ofBits .f32 0x00000000#32)))
        (addf (maximumf (subf (broadcast S1024x2048 (Scalar.ofBits .f32 0x00000000#32)) a) (broadcast S1024x2048 (Scalar.ofBits .f32 0x00000000#32)))
          (log1p (exp (subf (broadcast S1024x2048 (Scalar.ofBits .f32 0x00000000#32))
            (absf (subf (subf (broadcast S1024x2048 (Scalar.ofBits .f32 0x00000000#32)) a) (broadcast S1024x2048 (Scalar.ofBits .f32 0x00000000#32))))))))))

/-- The number a grid point reduces its tile to is the one entry of the sum, over both tile axes, of `wceTile`. -/
theorem k2_pay3_eq (v0 : Vec Ideal S1024x64 .f32) (v2 : Vec Ideal S2048x64 .f32) (v6 : Vec Ideal S1024x2048 .f32) :
    k2_pay3 (F := Ideal) v0 v2 v6
      = extractAt ![0, 0, 0]
          (shapeCast S1x1x1
            (multiReduction .add [1, 2] S1
              (shapeCast S1x1024x2048 (wceTile (k2_pay2 (F := Ideal) v0 v2) v6) shapeCasts_S1024x2048_S1x1024x2048)
              0x00000000#32 reduces_S1x1024x2048_S1 (.inl rfl) rfl)
            shapeCasts_S1_S1x1x1)
          inpos_S1x1x1_p0_0_0 := rfl

/-- An entry of `wceTile` is the weighted cross-entropy of the logit and the label at that entry. -/
theorem wceTile_apply (a z : FVec Ideal S1024x2048 .f32) (i : S1024x2048.Idx) :
    wceTile a z i = wce (a i) (z i) := by
  show (Ideal.ofBits .f32 0x3F800000#32 - z i) * a i
      + (Ideal.ofBits .f32 0x3F800000#32 + Ideal.ofBits .f32 0x437E0000#32 * z i)
        * Scalar.select
            (Ideal.cmp .one (Ideal.ofBits .f32 0x00000000#32 - a i - Ideal.ofBits .f32 0x00000000#32)
                            (Ideal.ofBits .f32 0x00000000#32 - a i - Ideal.ofBits .f32 0x00000000#32))
            (Ideal.ofBits .f32 0x00000000#32 - a i + Ideal.ofBits .f32 0x00000000#32)
            (max (Ideal.ofBits .f32 0x00000000#32 - a i) (Ideal.ofBits .f32 0x00000000#32)
              + Ideal.log1p (Ideal.exp (Ideal.ofBits .f32 0x00000000#32
                  - max (Ideal.ofBits .f32 0x00000000#32 - a i - Ideal.ofBits .f32 0x00000000#32)
                        (-(Ideal.ofBits .f32 0x00000000#32 - a i - Ideal.ofBits .f32 0x00000000#32)))))
      = wce (a i) (z i)
  simp only [Ideal.ofBits_zero_f32, zero_sub]
  rw [guarded_softplus_one]
  rfl

/-- The launch's tile of integrands at an entry, over the logits tile it computes from its two operand blocks. -/
theorem ker_wce_apply (v0 : Vec Ideal S1024x64 .f32) (v2 : Vec Ideal S2048x64 .f32) (v6 : Vec Ideal S1024x2048 .f32)
    (i : S1024x2048.Idx) :
    wceTile (k2_pay2 (F := Ideal) v0 v2) v6 i = wce (k2_pay2 (F := Ideal) v0 v2 i) (v6 i) :=
  wceTile_apply _ _ i

/-- The number a grid point reduces its tile to is the sum of the weighted cross-entropies over the tile. -/
theorem k2_pay3_eq_sum (v0 : Vec Ideal S1024x64 .f32) (v2 : Vec Ideal S2048x64 .f32) (v6 : Vec Ideal S1024x2048 .f32) :
    k2_pay3 (F := Ideal) v0 v2 v6 = ∑ i : S1024x2048.Idx, wce (k2_pay2 (F := Ideal) v0 v2 i) (v6 i) := by
  rw [k2_pay3_eq]
  show Ideal.reduceAdd reduces_S1x1024x2048_S1
      (shapeCast S1x1024x2048 (wceTile (k2_pay2 (F := Ideal) v0 v2) v6) shapeCasts_S1024x2048_S1x1024x2048) _ = _
  rw [Ideal.reduceAdd_total _ (show ∀ b, S1.size b = 1 by decide), TotalSum.sum_shapeCast]
  exact Finset.sum_congr rfl fun i _ => wceTile_apply _ _ i

/-- The 32-bit word of a number below 2^32 is the zero word exactly when the number is zero. -/
theorem cmpi_eq_zero (n : Nat) (h : n < 2 ^ 32) :
    IntOp.cmpi .eq (BitVec.ofNat 32 n) 0#32 = if n = 0 then 1#1 else 0#1 := by
  by_cases hn : n = 0
  · subst hn; rfl
  · rw [if_neg hn]
    have hne : (BitVec.ofNat 32 n == 0#32) = false := by
      rw [beq_eq_false_iff_ne]
      intro h'
      have h'' := congrArg BitVec.toNat h'
      rw [BitVec.toNat_ofNat, Nat.mod_eq_of_lt h] at h''
      exact hn h''
    show BitVec.ofBool (BitVec.ofNat 32 n == 0#32) = 0#1
    rw [hne]; rfl

/-- What a grid point stores into its [8,128] block of the partial sums: the tile's sum of weighted
    cross-entropies at entry (0,0) — the row counter and the lane counter both zero — and zero elsewhere. -/
theorem tile_apply (v0 : Vec Ideal S1024x64 .f32) (v2 : Vec Ideal S2048x64 .f32) (v6 : Vec Ideal S1024x2048 .f32)
    (a : Fin 8) (b : Fin 128) :
    k2_pay1 (F := Ideal) (k2_pay3 v0 v2 v6) (iota .tc S8x128 32 [1] iota_S8x128_d1_w32) k2_pay4 (ix2 a b)
      = if a.val = 0 ∧ b.val = 0 then ∑ i : S1024x2048.Idx, wce (k2_pay2 (F := Ideal) v0 v2 i) (v6 i) else 0 := by
  rw [k2_pay3_eq_sum]
  generalize (∑ i : S1024x2048.Idx, wce (k2_pay2 (F := Ideal) v0 v2 i) (v6 i)) = T
  show Scalar.select
      (IntOp.andi (IntOp.cmpi .eq (BitVec.ofNat 32 (0 * 8 + a.val)) 0#32)
        (IntOp.cmpi .eq (BitVec.ofNat 32 (0 * 128 + b.val)) 0#32))
      T (Ideal.ofBits .f32 0x00000000#32) = _
  simp only [Nat.zero_mul, Nat.zero_add]
  rw [cmpi_eq_zero a.val (by omega), cmpi_eq_zero b.val (by omega), Ideal.ofBits_zero_f32]
  by_cases ha : a.val = 0
  · by_cases hb : b.val = 0
    · have hab : a.val = 0 ∧ b.val = 0 := ⟨ha, hb⟩
      rw [if_pos ha, if_pos hb, if_pos hab]; rfl
    · have hab : ¬(a.val = 0 ∧ b.val = 0) := fun h => hb h.2
      rw [if_pos ha, if_neg hb, if_neg hab]; rfl
  · have hab : ¬(a.val = 0 ∧ b.val = 0) := fun h => ha h.1
    rw [if_neg ha, if_neg hab]
    by_cases hb : b.val = 0
    · rw [if_pos hb]; rfl
    · rw [if_neg hb]; rfl

/-- The same, with the tile's sum taken over its two coordinates. -/
theorem tile_apply_coords (v0 : Vec Ideal S1024x64 .f32) (v2 : Vec Ideal S2048x64 .f32) (v6 : Vec Ideal S1024x2048 .f32)
    (a : Fin 8) (b : Fin 128) :
    k2_pay1 (F := Ideal) (k2_pay3 v0 v2 v6) (iota .tc S8x128 32 [1] iota_S8x128_d1_w32) k2_pay4 (ix2 a b)
      = if a.val = 0 ∧ b.val = 0 then
          ∑ p : Fin 1024, ∑ q : Fin 2048, wce (k2_pay2 (F := Ideal) v0 v2 (ix2 p q)) (v6 (ix2 p q))
        else 0 := by
  rw [tile_apply, sum_idx2]

end Cert.Bridge

end
-- ==== Proof.BridgeLossGlueCore.lean ====
/-
  From one grid point's stored block to the partial-sum hypothesis of the loss.

  Grid point (i, j) of the fused decode-and-loss launch works on block i (1024 rows) and block j (2048 rows) of the
  sample matrix `Z` and on tile (i, j) of the labels.  Its tile of logits is the matrix of inner products of the two
  blocks' rows, which is tile (i, j) of `Z · Zᵀ`; so what it stores into its [8,128] block of the partial sums —
  the tile's sum of weighted cross-entropies at entry (0,0), zero elsewhere — is the sum over tile (i, j) of the
  weighted cross-entropy of `Z · Zᵀ` against the labels.  The statement is over any spelling of the three blocks
  that reads, entry by entry, as the corresponding rows of `Z` and entries of the labels.
-/
import proofs.«116321_j12163347383058_2_alg».proof.Proof.BridgeLossTile
import proofs.«116321_j12163347383058_2_alg».proof.Proof.BridgeLayersPay

noncomputable section

open scoped BigOperators

namespace Cert.Bridge

open Idealize.ShloMosaic Idealize.ShloMosaic.ValueIdx
open Cert.KernelIdeal Cert.KernelIdeal.Gen

/-- If block (i, j) of the partial sums is what grid point (i, j) stores from its three blocks, and the blocks read
    entry by entry as rows of `Z` and entries of the labels `lab`, then the partial sums hold, at the corner of each
    block, the sum over tile (i, j) of the weighted cross-entropy of `aout = Z · Zᵀ` against `lab`, and zero elsewhere. -/
theorem h3_of_blocks
    (partials : (⟨2, ![64, 512]⟩ : Shape).Idx → EReal)
    (Z : (⟨2, ![8192, 64]⟩ : Shape).Idx → EReal)
    (lab aout : (⟨2, ![8192, 8192]⟩ : Shape).Idx → EReal)
    (hA : ∀ p q : Fin 8192, aout (ix2 p q) = ∑ k : Fin 64, Z (ix2 p k) * Z (ix2 q k))
    (Zi : Fin 8 → Fin 4 → Vec Ideal S1024x64 .f32) (Zj : Fin 8 → Fin 4 → Vec Ideal S2048x64 .f32)
    (Lab : Fin 8 → Fin 4 → Vec Ideal S1024x2048 .f32)
    (hZi : ∀ (i : Fin 8) (j : Fin 4) (p : Fin 1024) (k : Fin 64),
      Zi i j (ix2 p k) = Z (ix2 ⟨1024 * i.val + p.val, by omega⟩ k))
    (hZj : ∀ (i : Fin 8) (j : Fin 4) (q : Fin 2048) (k : Fin 64),
      Zj i j (ix2 q k) = Z (ix2 ⟨2048 * j.val + q.val, by omega⟩ k))
    (hLab : ∀ (i : Fin 8) (j : Fin 4) (p : Fin 1024) (q : Fin 2048),
      Lab i j (ix2 p q) = lab (ix2 ⟨1024 * i.val + p.val, by omega⟩ ⟨2048 * j.val + q.val, by omega⟩))
    (hpart : ∀ (i : Fin 8) (j : Fin 4) (a : Fin 8) (b : Fin 128),
      partials (ix2 ⟨8 * i.val + a.val, by omega⟩ ⟨128 * j.val + b.val, by omega⟩)
        = k2_pay1 (F := Ideal) (k2_pay3 (Zi i j) (Zj i j) (Lab i j)) (iota .tc S8x128 32 [1] iota_S8x128_d1_w32)
            k2_pay4 (ix2 a b)) :
    ∀ (i : Fin 8) (j : Fin 4) (a : Fin 8) (b : Fin 128),
      partials (ix2 ⟨8 * i.val + a.val, by omega⟩ ⟨128 * j.val + b.val, by omega⟩)
        = if a.val = 0 ∧ b.val = 0 then
            ∑ p : Fin 1024, ∑ q : Fin 2048,
              wce (aout (ix2 ⟨1024 * i.val + p.val, by omega⟩ ⟨2048 * j.val + q.val, by omega⟩))
                  (lab (ix2 ⟨1024 * i.val + p.val, by omega⟩ ⟨2048 * j.val + q.val, by omega⟩))
          else 0 := by
  intro i j a b
  rw [hpart i j a b, tile_apply_coords]
  by_cases hab : a.val = 0 ∧ b.val = 0
  · rw [if_pos hab, if_pos hab]
    refine Finset.sum_congr rfl fun p _ => Finset.sum_congr rfl fun q _ => ?_
    rw [pay_dec, hLab, hA]
    exact congrArg (fun x => wce x _) (Finset.sum_congr rfl fun k _ => by rw [hZi, hZj])
  · rw [if_neg hab, if_neg hab]

end Cert.Bridge

end
-- ==== Proof.BridgeLossGlue.lean ====
/-
  The partial sums the fused decode-and-loss launch leaves, as the loss needs them.

  After the launch, block (i, j) of the partial-sum array is what grid point (i, j) stored from its three input
  blocks; those blocks are rows 1024·i … and rows 2048·j … of the sample matrix and tile (i, j) of the labels.
  Hence, for `aout = Z · Zᵀ`, the array holds at the corner of block (i, j) the sum over tile (i, j) of the weighted
  cross-entropy of `aout` against the labels, and zero elsewhere.  Stated over any enumeration `pt` of the grid points
  for which the launch's stored block and its input blocks read as said.
-/
import proofs.«116321_j12163347383058_2_alg».proof.Proof.FrameR2
import proofs.«116321_j12163347383058_2_alg».proof.Proof.BridgeLossGlueCore

noncomputable section

open scoped BigOperators

namespace Cert.Bridge

open Cert.KernelIdeal Cert.KernelIdeal.Gen Cert.KernelIdeal.Fr
open Idealize.ShloMosaic Idealize.ShloMosaic.TcCoe Idealize.ShloMosaic.ValueIdx
open Idealize.SL Idealize.SL.Sem

/-- The sample matrix as the launch finds it, as an array of extended reals (the buffer's contents, by definition). -/
abbrev sampleOf (V : (c : Dev nD) → (b : Ref sig .tc) → Buf (Elt Ideal) ((c : Thread nD τ).loc b)) (c : Dev nD) :
    S8192x64.Idx → EReal := V c main_v34

/-- The labels as the launch finds them, as an array of extended reals (the buffer's contents, by definition). -/
abbrev labelsOf (V : (c : Dev nD) → (b : Ref sig .tc) → Buf (Elt Ideal) ((c : Thread nD τ).loc b)) (c : Dev nD) :
    S8192x8192.Idx → EReal := V c main_arg5

/-- The launch's partial sums, from the launch's stored block and its three input blocks read entry by entry. -/
theorem h3_of_launch_of (V : (c : Dev nD) → (b : Ref sig .tc) → Buf (Elt Ideal) ((c : Thread nD τ).loc b)) (c : Dev nD)
    (pt : Fin 8 → Fin 4 → Fin cfg2.N)
    (hb0 : ∀ (i : Fin 8) (j : Fin 4) (p : Fin 1024) (k : Fin 64),
      (iblk2 V c 0 (pt i j) : Vec Ideal S1024x64 .f32) (ix2 p k)
        = sampleOf V c (ix2 ⟨1024 * i.val + p.val, by omega⟩ k))
    (hb1 : ∀ (i : Fin 8) (j : Fin 4) (q : Fin 2048) (k : Fin 64),
      (iblk2 V c 1 (pt i j) : Vec Ideal S2048x64 .f32) (ix2 q k)
        = sampleOf V c (ix2 ⟨2048 * j.val + q.val, by omega⟩ k))
    (hb2 : ∀ (i : Fin 8) (j : Fin 4) (p : Fin 1024) (q : Fin 2048),
      (iblk2 V c 2 (pt i j) : Vec Ideal S1024x2048 .f32) (ix2 p q)
        = labelsOf V c (ix2 ⟨1024 * i.val + p.val, by omega⟩ ⟨2048 * j.val + q.val, by omega⟩))
    (hpart : ∀ (i : Fin 8) (j : Fin 4) (a : Fin 8) (b : Fin 128),
      ((dat2 (F := Ideal) V c).arrAt 4 cfg2.N : S64x512.Idx → EReal)
          (ix2 ⟨8 * i.val + a.val, by omega⟩ ⟨128 * j.val + b.val, by omega⟩)
        = k2_pay1 (F := Ideal) (k2_pay3 (iblk2 V c 0 (pt i j)) (iblk2 V c 1 (pt i j)) (iblk2 V c 2 (pt i j)))
            (iota .tc S8x128 32 [1] iota_S8x128_d1_w32) k2_pay4 (ix2 a b))
    (aout : S8192x8192.Idx → EReal)
    (hA : ∀ p q : Fin 8192, aout (ix2 p q)
      = ∑ k : Fin 64, sampleOf V c (ix2 p k) * sampleOf V c (ix2 q k)) :
    ∀ (i : Fin 8) (j : Fin 4) (a : Fin 8) (b : Fin 128),
      ((dat2 (F := Ideal) V c).arrAt 4 cfg2.N : S64x512.Idx → EReal)
          (ix2 ⟨8 * i.val + a.val, by omega⟩ ⟨128 * j.val + b.val, by omega⟩)
        = if a.val = 0 ∧ b.val = 0 then
            ∑ p : Fin 1024, ∑ q : Fin 2048,
              wce (aout (ix2 ⟨1024 * i.val + p.val, by omega⟩ ⟨2048 * j.val + q.val, by omega⟩))
                  (labelsOf V c (ix2 ⟨1024 * i.val + p.val, by omega⟩ ⟨2048 * j.val + q.val, by omega⟩))
          else 0 :=
  h3_of_blocks _ (sampleOf V c) (labelsOf V c) aout hA
    (fun i j => iblk2 V c 0 (pt i j)) (fun i j => iblk2 V c 1 (pt i j)) (fun i j => iblk2 V c 2 (pt i j))
    hb0 hb1 hb2 hpart

end Cert.Bridge

end
-- ==== Proof.LaunchVal2.lean ====
/-
  Launch 2's partial sums read as a value.  At the point with coordinates `(i, j)` the body leaves in its own [8, 128]
  tile of the [64, 512] partial-sum array the weighted cross-entropy total of the blocks it read, masked to one entry
  of the tile; the write-back puts the tile at `(i, j)`.  The 32 tiles are pairwise apart and cover the array, so entry
  `(8 i + a, 128 j + b)` of the array after the launch is entry `(a, b)` of what point `(i, j)` left.  The array is
  written as one function of the index (which point's tile the index is in, and where in it), so that every tile
  written back is the tile of that function.
-/
import proofs.«116321_j12163347383058_2_alg».proof.Proof.LaunchVal2Blocks
import proofs.«116321_j12163347383058_2_alg».proof.Proof.LaunchVal2Dec
import Idealize.ShloMosaic.Lib.Pipeline.Value
import Idealize.ShloMosaic.Lib.ValueIdx

noncomputable section

open scoped BigOperators

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

private theorem zero_offsets2' : (![0, 0] : Fin 2 → Nat) = fun _ => 0 := funext fun a => by fin_cases a <;> rfl

/-- What the body leaves in the partial sums' tile at point `t`: the tile's weighted cross-entropy total of the three
    blocks the point reads, kept at one entry of the tile and zero at the others. -/
def tileTotal (c : Dev nD) (t : Fin cfg2.N) : Vec Ideal S8x128 .f32 :=
  k2_pay1 (k2_pay3 (iblk2 V c 0 t) (iblk2 V c 1 t) (iblk2 V c 2 t)) (iota .tc S8x128 32 [1] iota_S8x128_d1_w32) k2_pay4

theorem tileTotal_congr (c : Dev nD) {t t' : Fin cfg2.N} (ht : t = t') {y y' : S8x128.Idx} (hy : y = y') :
    tileTotal V c t y = tileTotal V c t' y' := by
  subst ht; subst hy; rfl

/-- The partial-sum array as one function of the arrays: entry `(r, s)` is entry `(r % 8, s % 128)` of the tile total
    of the point `4 (r / 8) + s / 128`. -/
def partials (c : Dev nD) : S64x512.Idx → Elt Ideal .f32 := fun idx =>
  tileTotal V c
    ⟨4 * ((idx 0).val / 8) + (idx 1).val / 128, by
      have h0 : (idx 0).val < 64 := (idx 0).isLt
      have h1 : (idx 1).val < 512 := (idx 1).isLt
      rw [show cfg2.N = 32 from N_2]; omega⟩
    (ix2 ⟨(idx 0).val % 8, by omega⟩ ⟨(idx 1).val % 128, by omega⟩)

/-- What point `t` writes back to the partial sums is tile `t` of `partials`. -/
theorem flushed2_4_eq (c : Dev nD) (t : Fin cfg2.N) :
    (dat2 (F := Ideal) V c).flushed 4 t = ((cfg2.win 4).blk t).view.read (Elt Ideal) (partials V c) := by
  show (cfg2.win 4).cut (grid2.coords t) ((dat2 V c).after 4 t) = _
  rw [after2_4]
  unfold out2_4
  rw [View.canon_unit_zero zero_offsets2']
  simp only [View.ld_unit_zero (S := S1024x64) zero_offsets2', View.ld_unit_zero (S := S2048x64) zero_offsets2',
    View.ld_unit_zero (S := S1024x2048) zero_offsets2']
  obtain ⟨-, -, -, -, -, -, -, -, e8, e9⟩ := index_maps2 t
  have hN : cfg2.N = 32 := N_2
  have ht : t.val < 32 := hN ▸ t.isLt
  funext j
  have hj0 : (j 0).val < 8 := (j 0).isLt
  have hj1 : (j 1).val < 128 := (j 1).isLt
  have k0 : ((((cfg2.win 4).blk t).view.emb j) 0).val = win2_4.index t (0 : Fin 2) * 8 + 1 * (j 0).val := rfl
  have k1 : ((((cfg2.win 4).blk t).view.emb j) 1).val = win2_4.index t (1 : Fin 2) * 128 + 1 * (j 1).val := rfl
  rw [e8] at k0
  rw [e9] at k1
  show tileTotal V c t j = partials V c (((cfg2.win 4).blk t).view.emb j)
  unfold partials
  refine tileTotal_congr V c (Fin.ext ?_) (funext fun a => Fin.ext ?_)
  · show t.val = 4 * (((((cfg2.win 4).blk t).view.emb j) 0).val / 8) + ((((cfg2.win 4).blk t).view.emb j) 1).val / 128
    rw [k0, k1]; omega
  · match a with
    | ⟨0, _⟩ => show (j 0).val = ((((cfg2.win 4).blk t).view.emb j) 0).val % 8; rw [k0]; omega
    | ⟨1, _⟩ => show (j 1).val = ((((cfg2.win 4).blk t).view.emb j) 1).val % 128; rw [k1]; omega

/-- An index of the partial sums is in point `t`'s tile iff each coordinate is in the tile's range on its axis. -/
theorem mem_blk2_4 (t : Fin cfg2.N) (i : S64x512.Idx) :
    i ∈ ((cfg2.win 4).blk t).view.set ↔ ∀ a : Fin 2, win2_4.index t a * S8x128.size a ≤ (i a).val ∧ (i a).val < win2_4.index t a * S8x128.size a + S8x128.size a := by
  show i ∈ ((View.whole main_v35_1).slice (win2_4.rect t)).set ↔ _
  rw [View.set_slice_whole, Rect.mem_set_unit]
  exact Iff.rfl

/-- Every entry `(r, s)` of the partial sums is in the tile of the point `4 (r / 8) + s / 128`. -/
theorem cover2_4_tiles (i : S64x512.Idx) :
    ∃ t : Fin cfg2.N, (cfg2.win 4).flush t = true ∧ i ∈ ((cfg2.win 4).blk t).view.set := by
  have hi0 : (i 0).val < 64 := (i 0).isLt
  have hi1 : (i 1).val < 512 := (i 1).isLt
  have hN : cfg2.N = 32 := N_2
  refine ⟨⟨4 * ((i 0).val / 8) + (i 1).val / 128, by rw [hN]; omega⟩, flush2_4 _, ?_⟩
  rw [mem_blk2_4]
  obtain ⟨-, -, -, -, -, -, -, -, e8, e9⟩ := index_maps2 ⟨4 * ((i 0).val / 8) + (i 1).val / 128, by rw [hN]; omega⟩
  intro a
  match a with
  | ⟨0, _⟩ =>
    show win2_4.index _ (0 : Fin 2) * 8 ≤ (i 0).val ∧ (i 0).val < win2_4.index _ (0 : Fin 2) * 8 + 8
    rw [e8]
    show (4 * ((i 0).val / 8) + (i 1).val / 128) / 4 * 8 ≤ (i 0).val ∧ (i 0).val < (4 * ((i 0).val / 8) + (i 1).val / 128) / 4 * 8 + 8
    omega
  | ⟨1, _⟩ =>
    show win2_4.index _ (1 : Fin 2) * 128 ≤ (i 1).val ∧ (i 1).val < win2_4.index _ (1 : Fin 2) * 128 + 128
    rw [e9]
    show (4 * ((i 0).val / 8) + (i 1).val / 128) % 4 * 128 ≤ (i 1).val ∧ (i 1).val < (4 * ((i 0).val / 8) + (i 1).val / 128) % 4 * 128 + 128
    omega

/-- The partial-sum array after the launch, tile by tile. -/
theorem partials_array (c : Dev nD) : (dat2 (F := Ideal) V c).arrAt 4 cfg2.N = partials V c :=
  (dat2 V c).arrAt_eq_of_cover 4 _ (fun t _ => flushed2_4_eq V c t) cover2_4_tiles

/-- Entry `(a, b)` of tile `(i, j)` of the partial sums after the launch: the masked total of the weighted cross-entropy
    of rows `1024 i …` against rows `2048 j …` of the sample matrix and tile `(i, j)` of the labels. -/
theorem partial_val (c : Dev nD) (i : Fin 8) (j : Fin 4) (a : Fin 8) (b : Fin 128) :
    (dat2 (F := Ideal) V c).arrAt 4 cfg2.N (ix2 ⟨8 * i.val + a.val, by omega⟩ ⟨128 * j.val + b.val, by omega⟩)
      = k2_pay1 (k2_pay3 (iblk2 V c 0 (pt2 i j)) (iblk2 V c 1 (pt2 i j)) (iblk2 V c 2 (pt2 i j)))
          (iota .tc S8x128 32 [1] iota_S8x128_d1_w32) k2_pay4 (ix2 a b) := by
  rw [partials_array]
  show partials V c _ = tileTotal V c (pt2 i j) (ix2 a b)
  unfold partials
  refine tileTotal_congr V c (Fin.ext ?_) (funext fun x => Fin.ext ?_)
  · show 4 * ((8 * i.val + a.val) / 8) + (128 * j.val + b.val) / 128 = 4 * i.val + j.val
    omega
  · match x with
    | ⟨0, _⟩ => show (8 * i.val + a.val) % 8 = a.val; omega
    | ⟨1, _⟩ => show (128 * j.val + b.val) % 128 = b.val; omega

end Cert.KernelIdeal.Fr

end
-- ==== Proof.KerValue.lean ====
/-
  The kernel's second result, the loss, is the reference's.

  The stretch after the third launch builds the loss from the per-tile partial sums and the two halves.  The halves
  are the reference's; the launch leaves, in the [8,128] block of each tile, the tile's sum of weighted
  cross-entropies of the logits against the labels at the block's corner and zero elsewhere; the logits are the
  reference's; so the total of the partial sums is the reference's total, and the two losses agree.
-/
import proofs.«116321_j12163347383058_2_alg».proof.Proof.KerValueLogits
import proofs.«116321_j12163347383058_2_alg».proof.Proof.BridgeLossFinal
import proofs.«116321_j12163347383058_2_alg».proof.Proof.BridgeLossGlue
import proofs.«116321_j12163347383058_2_alg».proof.Proof.LaunchVal2

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.ValueIdx

variable (m : (ℓ : Loc nD τ sig) → Buf (Elt Ideal) ℓ) (ρ : Dev nD → PrngReg)

/-- The labels the third launch reads are the argument's. -/
theorem labels_eq (c : Dev nD) : Cert.Bridge.labelsOf (VV6 (F := Ideal) m ρ) c = (m ((c.tc : Thread nD τ).loc main_arg5)) :=
  W6_arg5 m ρ c

/-- THE LOSS: at the end of the run the second result buffer holds the reference's loss. -/
theorem kerLoss (c : Dev nD) : W8 (F := Ideal) m ρ c (Proc.devRef .tc main_v53) = Cert.ReferenceIdeal.Read.val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [W8_v53 m ρ c]
  refine Cert.Bridge.v53_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (W7 (F := Ideal) m ρ c (Proc.devRef .tc main_v35_1)) (W7 (F := Ideal) m ρ c (Proc.devRef .tc main_v35_0))
    (W6 (F := Ideal) m ρ c (Proc.devRef .tc main_v30)) (W6 (F := Ideal) m ρ c (Proc.devRef .tc main_v31)) (W7_v35_0R m ρ c) (W6_v30R m ρ c) (W6_v31R m ρ c) ?_
  have h := Cert.Bridge.h3_of_launch_of (VV6 (F := Ideal) m ρ) c pt2 (blk2_0_apply (VV6 (F := Ideal) m ρ) c)
    (blk2_1_apply (VV6 (F := Ideal) m ρ) c) (blk2_2_apply (VV6 (F := Ideal) m ρ) c) (partial_val (VV6 (F := Ideal) m ρ) c)
    (W7 (F := Ideal) m ρ c (Proc.devRef .tc main_v35_0)) (fun p q => by rw [W7_v35_0 m ρ c, dec_array]; rfl)
  rw [labels_eq m ρ c] at h
  intro i j a b
  rw [W7_v35_1 m ρ c]
  exact h i j a b

end Cert.KernelIdeal.Fr

end
-- ==== Proof.lean ====
/-
  The certificate of a graph variational auto-encoder's forward pass.  The kernel program runs three launches — the
  dense product X·W1 tiled by rows, the product h1·[Wm | Ws] tiled by rows, and a fused decoder that for each
  [1024, 2048] tile of the logits Z·Zᵀ also reduces the tile's weighted cross-entropy to one number — among plain host
  operations (the sparse aggregation adj · H as gather, scale, scatter-add; the sample Z = mean + eps · exp(logσ); the
  total of the per-tile sums; the Kullback-Leibler term).  The reference is the same computation with host matrix
  products, two separate aggregations for the mean and log-deviation halves, and one whole sum of the cross-entropy.

  FRAMES.  The run of the kernel program is followed item by item (Proof/FrameRun, FrameRun2 at any float instance;
  the B… modules are the same text for the word-level program): every unscoped buffer's contents at every boundary,
  each launch entered from and left at them, the third launch's two windows on the sample matrix each holding half of
  the share of its buffer.  Every execution ends with every unscoped buffer at the last contents, so the arguments
  end as launched.  The reference's frame is its run with the results dropped.

  VALUES, over the extended reals.  What the last contents hold at the two results is read back through the launches
  (a launch's output array is, entry by entry, the sum over k of products of its input arrays' entries, because its
  blocks cover the array and each block is the product of the blocks it was computed from) and the host stretches.
  It equals the reference's term because: a matrix product tiled by rows is the whole product; the aggregation acts on
  each feature column by itself, so aggregating h1·[Wm | Ws] and splitting is aggregating h1·Wm and h1·Ws; Z·Zᵀ
  contracted on both last axes is the product with the transpose; the cross-entropy is the same expression entry by
  entry (0 − x is −x, and a comparison of a number with itself never holds, so the guarded branch of the soft-plus is
  never taken on either side); and the sum over all entries is the sum over the tiles of the tiles' sums, the zeros of
  the partial-sum array contributing nothing.  Only the laws of a commutative monoid are used for sums: no
  finiteness of the inputs is needed.
-/
import proofs.«116321_j12163347383058_2_alg».proof.Defs
import proofs.«116321_j12163347383058_2_alg».proof.Proof.Gen.Kernel
import proofs.«116321_j12163347383058_2_alg».proof.Proof.Gen.KernelIdeal
import proofs.«116321_j12163347383058_2_alg».proof.Proof.Gen.ReferenceIdeal
import proofs.«116321_j12163347383058_2_alg».proof.Proof.Gen.ReferenceIdeal.Run
import proofs.«116321_j12163347383058_2_alg».proof.Proof.Gen.ReferenceIdeal.Read
import proofs.«116321_j12163347383058_2_alg».proof.Proof.Gen.Pre_finite_inputs
import proofs.«116321_j12163347383058_2_alg».proof.Proof.FrameRun2
import proofs.«116321_j12163347383058_2_alg».proof.Proof.BFrameRun2
import proofs.«116321_j12163347383058_2_alg».proof.Proof.KerValue
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_p [Cert.Kernel.Facts] [Cert.Pre_finite_inputs.Facts] : Cert.frame_Kernel := fun m ρ _ => Cert.Kernel.Fr.frame m ρ

/-- The idealized program runs and leaves its arguments unchanged. -/
theorem frame_pi [Cert.KernelIdeal.Facts] [Cert.Pre_finite_inputs.Facts] : Cert.frame_KernelIdeal := fun m ρ _ => Cert.KernelIdeal.Fr.frame m ρ

/-- The reference runs and leaves its arguments unchanged: its run with the two results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- The two results of the idealized kernel program are the reference's terms of the launch contents of the arguments. -/
theorem algebraic_of [Cert.KernelIdeal.Facts] [Cert.ReferenceIdeal.Facts] [Cert.Pre_finite_inputs.Facts]
    (kerA : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Fr.W8 m ρ c (Proc.devRef .tc Cert.KernelIdeal.main_v35_0) = Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
    (kerLoss : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Fr.W8 m ρ c (Proc.devRef .tc Cert.KernelIdeal.main_v53) = Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) :
    Cert.algebraic_KernelIdeal_ReferenceIdeal := by
  intro m ρ m' ρ' _ hagree
  refine ⟨fun c => Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), fun c => Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c =>
      ⟨(h c _ (Cert.KernelIdeal.Fr.mem_uc Cert.KernelIdeal.main_v35_0 (by decide))).trans (kerA m ρ c),
       (h c _ (Cert.KernelIdeal.Fr.mem_uc Cert.KernelIdeal.main_v53 (by decide))).trans (kerLoss m ρ c),
       (h c _ (Cert.KernelIdeal.Fr.mem_uc Cert.KernelIdeal.main_arg0 (by decide))).trans (Cert.KernelIdeal.Fr.W8_main_arg0 m ρ c),
       (h c _ (Cert.KernelIdeal.Fr.mem_uc Cert.KernelIdeal.main_arg1 (by decide))).trans (Cert.KernelIdeal.Fr.W8_main_arg1 m ρ c),
       (h c _ (Cert.KernelIdeal.Fr.mem_uc Cert.KernelIdeal.main_arg2 (by decide))).trans (Cert.KernelIdeal.Fr.W8_main_arg2 m ρ c),
       (h c _ (Cert.KernelIdeal.Fr.mem_uc Cert.KernelIdeal.main_arg3 (by decide))).trans (Cert.KernelIdeal.Fr.W8_main_arg3 m ρ c),
       (h c _ (Cert.KernelIdeal.Fr.mem_uc Cert.KernelIdeal.main_arg4 (by decide))).trans (Cert.KernelIdeal.Fr.W8_main_arg4 m ρ c),
       (h c _ (Cert.KernelIdeal.Fr.mem_uc Cert.KernelIdeal.main_arg5 (by decide))).trans (Cert.KernelIdeal.Fr.W8_main_arg5 m ρ c),
       (h c _ (Cert.KernelIdeal.Fr.mem_uc Cert.KernelIdeal.main_arg6 (by decide))).trans (Cert.KernelIdeal.Fr.W8_main_arg6 m ρ c),
       (h c _ (Cert.KernelIdeal.Fr.mem_uc Cert.KernelIdeal.main_arg7 (by decide))).trans (Cert.KernelIdeal.Fr.W8_main_arg7 m ρ c),
       (h c _ (Cert.KernelIdeal.Fr.mem_uc Cert.KernelIdeal.main_arg8 (by decide))).trans (Cert.KernelIdeal.Fr.W8_main_arg8 m ρ c)⟩)
      (Cert.KernelIdeal.Fr.run_all m ρ)
  · refine (θ_run Cert.ReferenceIdeal.defs _ _).mono (fun _ h c => ⟨?_, ?_, (h c).2.2⟩) (Cert.ReferenceIdeal.Value.run (F := Ideal) m' ρ')
    · rw [(h c).1, Cert.ReferenceIdeal.Read.val_main_v47_eq, (hagree c).1, (hagree c).2.1, (hagree c).2.2.1, (hagree c).2.2.2.1, (hagree c).2.2.2.2.1,
        (hagree c).2.2.2.2.2.2.1, (hagree c).2.2.2.2.2.2.2.1, (hagree c).2.2.2.2.2.2.2.2]
    · rw [(h c).2.1, Cert.ReferenceIdeal.Read.val_main_v76_eq, (hagree c).1, (hagree c).2.1, (hagree c).2.2.1, (hagree c).2.2.2.1, (hagree c).2.2.2.2.1,
        (hagree c).2.2.2.2.2.1, (hagree c).2.2.2.2.2.2.1, (hagree c).2.2.2.2.2.2.2.1, (hagree c).2.2.2.2.2.2.2.2]

/-- Run from memories agreeing on the arguments, the idealized kernel program and the reference end with equal results. -/
theorem algebraic [Cert.KernelIdeal.Facts] [Cert.ReferenceIdeal.Facts] [Cert.Pre_finite_inputs.Facts] : Cert.algebraic_KernelIdeal_ReferenceIdeal :=
  algebraic_of (fun m ρ c => Cert.KernelIdeal.Fr.kerA m ρ c) (fun m ρ c => Cert.KernelIdeal.Fr.kerLoss m ρ c)

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
